-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x256x49 : Shape := ⟨3, ![2048, 256, 49]⟩
abbrev S32768x256 : Shape := ⟨2, ![32768, 256]⟩
abbrev S32768 : Shape := ⟨1, ![32768]⟩
abbrev S64 : Shape := ⟨1, ![64]⟩
abbrev S256 : Shape := ⟨1, ![256]⟩
abbrev S256x12544 : Shape := ⟨2, ![256, 12544]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x256x49 : S_.BroadcastsInDim S2048x256x49 (![] : Fin 0 → Fin S2048x256x49.rank)
  reducesTo_S2048x256x49_S_d0_1_2 : S2048x256x49.ReducesTo [0, 1, 2] S_
  bcast_S_S32768x256 : S_.BroadcastsInDim S32768x256 (![] : Fin 0 → Fin S32768x256.rank)
  reducesTo_S32768x256_S_d0_1 : S32768x256.ReducesTo [0, 1] S_
  bcast_S_S32768 : S_.BroadcastsInDim S32768 (![] : Fin 0 → Fin S32768.rank)
  reducesTo_S32768_S_d0 : S32768.ReducesTo [0] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S256x12544 : S_.BroadcastsInDim S256x12544 (![] : Fin 0 → Fin S256x12544.rank)
  reducesTo_S256x12544_S_d0_1 : S256x12544.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x12544 .f32) (main_arg9 : FVec F S256 .f32) (main_arg10 : FVec F S256 .f32) (main_arg11 : FVec F S256 .f32) (main_arg12 : FVec F S256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x12544 .f32 := Host.absf main_arg8
  let main_cst_14 : FVec F S_ .f32 := constant S_ .f32 0x7F800000#32
  let main_v40 : FVec F S256x12544 .f32 := broadcastInDim S256x12544 ![] bcast_S_S256x12544 main_cst_14
  let main_v41 : IVec S256x12544 1 := cmpf .olt main_v39 main_v40
  let main_c_15 : IVec S_ 1 := constantI S_ 1 1#1
  let main_v42 : IVec S_ 1 := (fun x v => Host.reduce IntOp.andi x v reducesTo_S256x12544_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S64 .f32) (main_arg5 : FVec F S64 .f32) (main_arg6 : FVec F S256 .f32) (main_arg7 : FVec F S256 .f32) (main_arg8 : FVec F S256x12544 .f32) (main_arg9 : FVec F S256 .f32) (main_arg10 : FVec F S256 .f32) (main_arg11 : FVec F S256 .f32) (main_arg12 : FVec F S256 .f32) (main_arg13 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2048x256 .f32) (main_arg1 : FVec F S2048x256x49 .f32) (main_arg2 : FVec F S32768x256 .f32) (main_arg3 : FVec F S32768 .f32) (main_arg4 : FVec F S64 .f32) (main_arg5 : FVec F S64 .f32) (main_arg6 : FVec F S256 .f32) (main_arg7 : FVec F S256 .f32) (main_arg8 : FVec F S256x12544 .f32) (main_arg9 : FVec F S256 .f32) (main_arg10 : FVec F S256 .f32) (main_arg11 : FVec F S256 .f32) (main_arg12 : FVec F S256 .f32) (main_arg13 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256x49 .f32 := Host.absf main_arg1
  let main_cst_0 : FVec F S_ .f32 := constant S_ .f32 0x7F800000#32
  let main_v5 : FVec F S2048x256x49 .f32 := broadcastInDim S2048x256x49 ![] bcast_S_S2048x256x49 main_cst_0
  let main_v6 : IVec S2048x256x49 1 := cmpf .olt main_v4 main_v5
  let main_c_1 : IVec S_ 1 := constantI S_ 1 1#1
  let main_v7 : IVec S_ 1 := (fun x v => Host.reduce IntOp.andi x v reducesTo_S2048x256x49_S_d0_1_2 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_arg12 main_arg13 main_v13 main_v16
-- ==== Kernel.lean ====
abbrev S2048x256 : Shape := ⟨2, ![2048, 256]⟩
abbrev S2048x256x49 : Shape := ⟨3, ![2048, 256, 49]⟩
abbrev S32768x256 : Shape := ⟨2, ![32768, 256]⟩
abbrev S32768 : Shape := ⟨1, ![32768]⟩
abbrev S64 : Shape := ⟨1, ![64]⟩
abbrev S256 : Shape := ⟨1, ![256]⟩
abbrev S256x12544 : Shape := ⟨2, ![256, 12544]⟩
abbrev S16384x256 : Shape := ⟨2, ![16384, 256]⟩
abbrev S256x16384 : Shape := ⟨2, ![256, 16384]⟩
abbrev S16384 : Shape := ⟨1, ![16384]⟩
abbrev S12544x256 : Shape := ⟨2, ![12544, 256]⟩
abbrev S2048x12544 : Shape := ⟨2, ![2048, 12544]⟩
abbrev S64x256 : Shape := ⟨2, ![64, 256]⟩
abbrev S64x12544 : Shape := ⟨2, ![64, 12544]⟩
abbrev S64x16384 : Shape := ⟨2, ![64, 16384]⟩
abbrev S1x16384 : Shape := ⟨2, ![1, 16384]⟩
abbrev S64x256x64 : Shape := ⟨3, ![64, 256, 64]⟩
abbrev S64x256x49 : Shape := ⟨3, ![64, 256, 49]⟩
abbrev S64x49x64 : Shape := ⟨3, ![64, 49, 64]⟩
abbrev S64x49 : Shape := ⟨2, ![64, 49]⟩
abbrev S64x49x1 : Shape := ⟨3, ![64, 49, 1]⟩
abbrev S1x1x64 : Shape := ⟨3, ![1, 1, 64]⟩
abbrev S64x64x256 : Shape := ⟨3, ![64, 64, 256]⟩
abbrev S64x49x256 : Shape := ⟨3, ![64, 49, 256]⟩
abbrev S1x1x256 : Shape := ⟨3, ![1, 1, 256]⟩
abbrev S1x256 : Shape := ⟨2, ![1, 256]⟩
abbrev S64x1 : Shape := ⟨2, ![64, 1]⟩

abbrev nBuf : Space → Nat
  | .hbm => 26
  | .vmem => 20
  | .smem => 0
  | _ => 0

abbrev bufTy : (tb : Table) → Fin (tcTables nBuf tb) → BufTy
  | .hbm, ⟨0, _⟩ => ⟨S2048x256, .f32⟩
  | .hbm, ⟨1, _⟩ => ⟨S2048x256x49, .f32⟩
  | .hbm, ⟨2, _⟩ => ⟨S32768x256, .f32⟩
  | .hbm, ⟨3, _⟩ => ⟨S32768, .f32⟩
  | .hbm, ⟨4, _⟩ => ⟨S64, .f32⟩
  | .hbm, ⟨5, _⟩ => ⟨S64, .f32⟩
  | .hbm, ⟨6, _⟩ => ⟨S256, .f32⟩
  | .hbm, ⟨7, _⟩ => ⟨S256, .f32⟩
  | .hbm, ⟨8, _⟩ => ⟨S256x12544, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S16384x256, .f32⟩
  | .hbm, ⟨15, _⟩ => ⟨S256x16384, .f32⟩
  | .hbm, ⟨16, _⟩ => ⟨S256x16384, .bf16⟩
  | .hbm, ⟨17, _⟩ => ⟨S16384x256, .f32⟩
  | .hbm, ⟨18, _⟩ => ⟨S256x16384, .f32⟩
  | .hbm, ⟨19, _⟩ => ⟨S256x16384, .bf16⟩
  | .hbm, ⟨20, _⟩ => ⟨S16384, .f32⟩
  | .hbm, ⟨21, _⟩ => ⟨S16384, .f32⟩
  | .hbm, ⟨22, _⟩ => ⟨S12544x256, .f32⟩
  | .hbm, ⟨23, _⟩ => ⟨S12544x256, .bf16⟩
  | .hbm, ⟨24, _⟩ => ⟨S2048x12544, .f32⟩
  | .hbm, ⟨25, _⟩ => ⟨S2048x256, .f32⟩
  | .local _ .vmem, ⟨0, _⟩ => ⟨S64x256, .f32⟩
  | .local _ .vmem, ⟨1, _⟩ => ⟨S64x256, .f32⟩
  | .local _ .vmem, ⟨2, _⟩ => ⟨S64x12544, .f32⟩
  | .local _ .vmem, ⟨3, _⟩ => ⟨S64x12544, .f32⟩
  | .local _ .vmem, ⟨4, _⟩ => ⟨S256x16384, .bf16⟩
  | .local _ .vmem, ⟨5, _⟩ => ⟨S256x16384, .bf16⟩
  | .local _ .vmem, ⟨6, _⟩ => ⟨S16384, .f32⟩
  | .local _ .vmem, ⟨7, _⟩ => ⟨S16384, .f32⟩
  | .local _ .vmem, ⟨8, _⟩ => ⟨S64, .f32⟩
  | .local _ .vmem, ⟨9, _⟩ => ⟨S64, .f32⟩
  | .local _ .vmem, ⟨10, _⟩ => ⟨S256, .f32⟩
  | .local _ .vmem, ⟨11, _⟩ => ⟨S256, .f32⟩
  | .local _ .vmem, ⟨12, _⟩ => ⟨S12544x256, .bf16⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S64x256, .f32⟩
  | .local _ .vmem, ⟨19, _⟩ => ⟨S64x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12544x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S32768x256_S16384x256_0_0 : S32768x256.Slices ![0, 0] S16384x256
  transposes_S16384x256_S256x16384_1_0 : S16384x256.Transposes [1, 0] S256x16384
  bitsLt_bf16_f32 : FTy.bits .bf16 < FTy.bits .f32
  slices_S32768x256_S16384x256_16384_0 : S32768x256.Slices ![16384, 0] S16384x256
  slices_S32768_S16384_0 : S32768.Slices ![0] S16384
  slices_S32768_S16384_16384 : S32768.Slices ![16384] S16384
  transposes_S256x12544_S12544x256_1_0 : S256x12544.Transposes [1, 0] S12544x256
  shapeCasts_S2048x256x49_S2048x12544 : S2048x256x49.ShapeCasts S2048x12544
  inb_S64x256_S64x256_0_0 : ∀ a, (![0, 0] : Fin 2 → Nat) a + S64x256.size a ≤ S64x256.size a
  h_S64x256 : 0 < S64x256.numel
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  inb_S16384_S16384_0 : ∀ a, (![0] : Fin 1 → Nat) a + S16384.size a ≤ S16384.size a
  h_S16384 : 0 < S16384.numel
  shapeCasts_S16384_S16384 : S16384.ShapeCasts S16384
  shapeCasts_S16384_S1x16384 : S16384.ShapeCasts S1x16384
  broadcasts_S1x16384_S64x16384 : S1x16384.Broadcasts S64x16384
  shapeCasts_S64x16384_S64x256x64 : S64x16384.ShapeCasts S64x256x64
  inb_S64x12544_S64x12544_0_0 : ∀ a, (![0, 0] : Fin 2 → Nat) a + S64x12544.size a ≤ S64x12544.size a
  h_S64x12544 : 0 < S64x12544.numel
  shapeCasts_S64x12544_S64x12544 : S64x12544.ShapeCasts S64x12544
  shapeCasts_S64x12544_S64x256x49 : S64x12544.ShapeCasts S64x256x49
  inb_S64_S64_0 : ∀ a, (![0] : Fin 1 → Nat) a + S64.size a ≤ S64.size a
  h_S64 : 0 < S64.numel
  reduces_S64x49x64_S64x49 : S64x49x64.Reduces [2] S64x49
  shapeCasts_S64x49_S64x49x1 : S64x49.ShapeCasts S64x49x1
  broadcasts_S64x49x1_S64x49x64 : S64x49x1.Broadcasts S64x49x64
  shapeCasts_S64_S1x1x64 : S64.ShapeCasts S1x1x64
  broadcasts_S1x1x64_S64x49x64 : S1x1x64.Broadcasts S64x49x64
  shapeCasts_S64x16384_S64x64x256 : S64x16384.ShapeCasts S64x64x256
  inb_S256_S256_0 : ∀ a, (![0] : Fin 1 → Nat) a + S256.size a ≤ S256.size a
  h_S256 : 0 < S256.numel
  reduces_S64x49x256_S64x49 : S64x49x256.Reduces [2] S64x49
  broadcasts_S64x49x1_S64x49x256 : S64x49x1.Broadcasts S64x49x256
  shapeCasts_S256_S1x1x256 : S256.ShapeCasts S1x1x256
  broadcasts_S1x1x256_S64x49x256 : S1x1x256.Broadcasts S64x49x256
  shapeCasts_S64x49x256_S64x12544 : S64x49x256.ShapeCasts S64x12544
  inb_S12544x256_S12544x256_0_0 : ∀ a, (![0, 0] : Fin 2 → Nat) a + S12544x256.size a ≤ S12544x256.size a
  h_S12544x256 : 0 < S12544x256.numel
  shapeCasts_S12544x256_S12544x256 : S12544x256.ShapeCasts S12544x256
  shapeCasts_S256_S1x256 : S256.ShapeCasts S1x256
  broadcasts_S1x256_S64x256 : S1x256.Broadcasts S64x256
  reduces_S64x256_S64 : S64x256.Reduces [1] S64
  shapeCasts_S64_S64x1 : S64.ShapeCasts S64x1
  broadcasts_S64x1_S64x256 : S64x1.Broadcasts S64x256
  dot_S64x256_S256x16384_S64x16384_1_0_0_1_n_n_wf : DotDims.WF S64x256 S256x16384 S64x16384 [1] [0] [0] [1] [] []
  dot_S64x256x49_S64x256x64_S64x49x64_1_1_2_2_0_0_wf : DotDims.WF S64x256x49 S64x256x64 S64x49x64 [1] [1] [2] [2] [0] [0]
  dot_S64x49x64_S64x64x256_S64x49x256_2_1_1_2_0_0_wf : DotDims.WF S64x49x64 S64x64x256 S64x49x256 [2] [1] [1] [2] [0] [0]
  dot_S64x12544_S12544x256_S64x256_1_0_0_1_n_n_wf : DotDims.WF S64x12544 S12544x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S2048x256.size a
  hwx0_0 : ∀ i : grid0.Coords, EltTy.bits .f32 = 32 ∨ (Rect.block (s := S2048x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x12544.size a ≤ S2048x12544.size a
  hwx0_1 : ∀ i : grid0.Coords, EltTy.bits .f32 = 32 ∨ (Rect.block (s := S2048x12544) S64x12544.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16384.size a ≤ S256x16384.size a
  hwx0_2 : ∀ i : grid0.Coords, EltTy.bits .bf16 = 32 ∨ (Rect.block (s := S256x16384) S256x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16384.size a ≤ S256x16384.size a
  hwx0_3 : ∀ i : grid0.Coords, EltTy.bits .bf16 = 32 ∨ (Rect.block (s := S256x16384) S256x16384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384.size a ≤ S16384.size a
  hwx0_4 : ∀ i : grid0.Coords, EltTy.bits .f32 = 32 ∨ (Rect.block (s := S16384) S16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16384.size a ≤ S16384.size a
  hwx0_5 : ∀ i : grid0.Coords, EltTy.bits .f32 = 32 ∨ (Rect.block (s := S16384) S16384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12544x256.size a ≤ S12544x256.size a
  hwx0_10 : ∀ i : grid0.Coords, EltTy.bits .bf16 = 32 ∨ (Rect.block (s := S12544x256) S12544x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S64x256.size a ≤ S2048x256.size a
  hwx0_16 : ∀ i : grid0.Coords, EltTy.bits .f32 = 32 ∨ (Rect.block (s := S2048x256) S64x256.size (cc0_transform_16 i) (hinb0_16 i)).WholeWords (EltTy.packing .f32)

variable [Facts₀]

def dot_S64x256_S256x16384_S64x16384_1_0_0_1_n_n : DotDims S64x256 S256x16384 S64x16384 where
  lhsContracting := [1]
  rhsContracting := [0]
  lhsNonContracting := [0]
  rhsNonContracting := [1]
  lhsBatch := []
  rhsBatch := []
  wf := dot_S64x256_S256x16384_S64x16384_1_0_0_1_n_n_wf
def dot_S64x256x49_S64x256x64_S64x49x64_1_1_2_2_0_0 : DotDims S64x256x49 S64x256x64 S64x49x64 where
  lhsContracting := [1]
  rhsContracting := [1]
  lhsNonContracting := [2]
  rhsNonContracting := [2]
  lhsBatch := [0]
  rhsBatch := [0]
  wf := dot_S64x256x49_S64x256x64_S64x49x64_1_1_2_2_0_0_wf
def dot_S64x49x64_S64x64x256_S64x49x256_2_1_1_2_0_0 : DotDims S64x49x64 S64x64x256 S64x49x256 where
  lhsContracting := [2]
  rhsContracting := [1]
  lhsNonContracting := [1]
  rhsNonContracting := [2]
  lhsBatch := [0]
  rhsBatch := [0]
  wf := dot_S64x49x64_S64x64x256_S64x49x256_2_1_1_2_0_0_wf
def dot_S64x12544_S12544x256_S64x256_1_0_0_1_n_n : DotDims S64x12544 S12544x256 S64x256 where
  lhsContracting := [1]
  rhsContracting := [0]
  lhsNonContracting := [0]
  rhsNonContracting := [1]
  lhsBatch := []
  rhsBatch := []
  wf := dot_S64x12544_S12544x256_S64x256_1_0_0_1_n_n_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S64x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S12544x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S64x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048x256x49 : Shape := ⟨3, ![2048, 256, 49]⟩
abbrev S32768x256 : Shape := ⟨2, ![32768, 256]⟩
abbrev S32768 : Shape := ⟨1, ![32768]⟩
abbrev S64 : Shape := ⟨1, ![64]⟩
abbrev S256 : Shape := ⟨1, ![256]⟩
abbrev S256x12544 : Shape := ⟨2, ![256, 12544]⟩
abbrev S2048x49x256 : Shape := ⟨3, ![2048, 49, 256]⟩
abbrev S256x32768 : Shape := ⟨2, ![256, 32768]⟩
abbrev S2048x32768 : Shape := ⟨2, ![2048, 32768]⟩
abbrev S1x32768 : Shape := ⟨2, ![1, 32768]⟩
abbrev S2048x16384 : Shape := ⟨2, ![2048, 16384]⟩
abbrev S2048x256x64 : Shape := ⟨3, ![2048, 256, 64]⟩
abbrev S2048x49x64 : Shape := ⟨3, ![2048, 49, 64]⟩
abbrev S_ : Shape := ⟨0, ![]⟩
abbrev S2048x49 : Shape := ⟨2, ![2048, 49]⟩
abbrev S2048x49x1 : Shape := ⟨3, ![2048, 49, 1]⟩
abbrev S1x1x64 : Shape := ⟨3, ![1, 1, 64]⟩
abbrev S2048x64x256 : Shape := ⟨3, ![2048, 64, 256]⟩
abbrev S1x1x256 : Shape := ⟨3, ![1, 1, 256]⟩
abbrev S2048x12544 : Shape := ⟨2, ![2048, 12544]⟩
abbrev S12544x256 : Shape := ⟨2, ![12544, 256]⟩
abbrev S1x256 : Shape := ⟨2, ![1, 256]⟩
abbrev S2048 : Shape := ⟨1, ![2048]⟩
abbrev S2048x1 : Shape := ⟨2, ![2048, 1]⟩

abbrev nBuf : Space → Nat
  | .hbm => 158
  | .vmem => 0
  | .smem => 0
  | _ => 0

abbrev hbmTy0_0 (i : Nat) : BufTy := match i % 128 with
  | 0 => ⟨S2048x256, .f32⟩
  | 1 => ⟨S2048x256x49, .f32⟩
  | 2 => ⟨S32768x256, .f32⟩
  | 3 => ⟨S32768, .f32⟩
  | 4 => ⟨S64, .f32⟩
  | 5 => ⟨S64, .f32⟩
  | 6 => ⟨S256, .f32⟩
  | 7 => ⟨S256, .f32⟩
  | 8 => ⟨S256x12544, .f32⟩
  | 9 => ⟨S256, .f32⟩
  | 10 => ⟨S256, .f32⟩
  | 11 => ⟨S256, .f32⟩
  | 12 => ⟨S256, .f32⟩
  | 13 => ⟨S256, .f32⟩
  | 14 => ⟨S2048x49x256, .f32⟩
  | 15 => ⟨S256x32768, .f32⟩
  | 16 => ⟨S2048x32768, .f32⟩
  | 17 => ⟨S1x32768, .f32⟩
  | 18 => ⟨S2048x32768, .f32⟩
  | 19 => ⟨S2048x32768, .f32⟩
  | 20 => ⟨S2048x16384, .f32⟩
  | 21 => ⟨S2048x256x64, .f32⟩
  | 22 => ⟨S2048x49x64, .f32⟩
  | 23 => ⟨S_, .f32⟩
  | 24 => ⟨S2048x49, .f32⟩
  | 25 => ⟨S2048x49x1, .f32⟩
  | 26 => ⟨S_, .f32⟩
  | 27 => ⟨S2048x49x1, .f32⟩
  | 28 => ⟨S2048x49x1, .f32⟩
  | 29 => ⟨S2048x49x64, .f32⟩
  | 30 => ⟨S2048x49x64, .f32⟩
  | 31 => ⟨S2048x49x64, .f32⟩
  | 32 => ⟨S_, .f32⟩
  | 33 => ⟨S2048x49, .f32⟩
  | 34 => ⟨S2048x49x1, .f32⟩
  | 35 => ⟨S_, .f32⟩
  | 36 => ⟨S2048x49x1, .f32⟩
  | 37 => ⟨S2048x49x1, .f32⟩
  | 38 => ⟨S2048x49x64, .f32⟩
  | 39 => ⟨S2048x49x64, .f32⟩
  | 40 => ⟨S_, .f32⟩
  | 41 => ⟨S2048x49x1, .f32⟩
  | 42 => ⟨S2048x49x1, .f32⟩
  | 43 => ⟨S2048x49x1, .f32⟩
  | 44 => ⟨S2048x49x64, .f32⟩
  | 45 => ⟨S2048x49x64, .f32⟩
  | 46 => ⟨S1x1x64, .f32⟩
  | 47 => ⟨S2048x49x64, .f32⟩
  | 48 => ⟨S2048x49x64, .f32⟩
  | 49 => ⟨S1x1x64, .f32⟩
  | 50 => ⟨S2048x49x64, .f32⟩
  | 51 => ⟨S2048x49x64, .f32⟩
  | 52 => ⟨S_, .f32⟩
  | 53 => ⟨S2048x49x64, .f32⟩
  | 54 => ⟨S2048x49x64, .f32⟩
  | 55 => ⟨S2048x16384, .f32⟩
  | 56 => ⟨S2048x64x256, .f32⟩
  | 57 => ⟨S2048x49x256, .f32⟩
  | 58 => ⟨S_, .f32⟩
  | 59 => ⟨S2048x49, .f32⟩
  | 60 => ⟨S2048x49x1, .f32⟩
  | 61 => ⟨S_, .f32⟩
  | 62 => ⟨S2048x49x1, .f32⟩
  | 63 => ⟨S2048x49x1, .f32⟩
  | 64 => ⟨S2048x49x256, .f32⟩
  | 65 => ⟨S2048x49x256, .f32⟩
  | 66 => ⟨S2048x49x256, .f32⟩
  | 67 => ⟨S_, .f32⟩
  | 68 => ⟨S2048x49, .f32⟩
  | 69 => ⟨S2048x49x1, .f32⟩
  | 70 => ⟨S_, .f32⟩
  | 71 => ⟨S2048x49x1, .f32⟩
  | 72 => ⟨S2048x49x1, .f32⟩
  | 73 => ⟨S2048x49x256, .f32⟩
  | 74 => ⟨S2048x49x256, .f32⟩
  | 75 => ⟨S_, .f32⟩
  | 76 => ⟨S2048x49x1, .f32⟩
  | 77 => ⟨S2048x49x1, .f32⟩
  | 78 => ⟨S2048x49x1, .f32⟩
  | 79 => ⟨S2048x49x256, .f32⟩
  | 80 => ⟨S2048x49x256, .f32⟩
  | 81 => ⟨S1x1x256, .f32⟩
  | 82 => ⟨S2048x49x256, .f32⟩
  | 83 => ⟨S2048x49x256, .f32⟩
  | 84 => ⟨S1x1x256, .f32⟩
  | 85 => ⟨S2048x49x256, .f32⟩
  | 86 => ⟨S2048x49x256, .f32⟩
  | 87 => ⟨S_, .f32⟩
  | 88 => ⟨S2048x49x256, .f32⟩
  | 89 => ⟨S2048x49x256, .f32⟩
  | 90 => ⟨S2048x12544, .f32⟩
  | 91 => ⟨S12544x256, .f32⟩
  | 92 => ⟨S2048x256, .f32⟩
  | 93 => ⟨S1x256, .f32⟩
  | 94 => ⟨S2048x256, .f32⟩
  | 95 => ⟨S2048x256, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S2048x256, .f32⟩
  | 103 => ⟨S2048x256, .f32⟩
  | 104 => ⟨S2048x256, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S2048x256, .f32⟩
  | 112 => ⟨S2048x256, .f32⟩
  | 113 => ⟨S_, .f32⟩
  | 114 => ⟨S2048x1, .f32⟩
  | 115 => ⟨S2048x1, .f32⟩
  | 116 => ⟨S2048x1, .f32⟩
  | 117 => ⟨S2048x256, .f32⟩
  | 118 => ⟨S2048x256, .f32⟩
  | 119 => ⟨S1x256, .f32⟩
  | 120 => ⟨S2048x256, .f32⟩
  | 121 => ⟨S2048x256, .f32⟩
  | 122 => ⟨S1x256, .f32⟩
  | 123 => ⟨S2048x256, .f32⟩
  | 124 => ⟨S2048x256, .f32⟩
  | 125 => ⟨S_, .f32⟩
  | 126 => ⟨S2048x256, .f32⟩
  | 127 => ⟨S2048x256, .f32⟩
  | _ => ⟨S2048x256, .f32⟩

abbrev hbmTy0_1 (i : Nat) : BufTy := match i % 128 with
  | 0 => ⟨S2048x256, .f32⟩
  | 1 => ⟨S_, .f32⟩
  | 2 => ⟨S2048, .f32⟩
  | 3 => ⟨S2048x1, .f32⟩
  | 4 => ⟨S_, .f32⟩
  | 5 => ⟨S2048x1, .f32⟩
  | 6 => ⟨S2048x1, .f32⟩
  | 7 => ⟨S2048x256, .f32⟩
  | 8 => ⟨S2048x256, .f32⟩
  | 9 => ⟨S2048x256, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S2048x256, .f32⟩
  | 17 => ⟨S2048x256, .f32⟩
  | 18 => ⟨S_, .f32⟩
  | 19 => ⟨S2048x1, .f32⟩
  | 20 => ⟨S2048x1, .f32⟩
  | 21 => ⟨S2048x1, .f32⟩
  | 22 => ⟨S2048x256, .f32⟩
  | 23 => ⟨S2048x256, .f32⟩
  | 24 => ⟨S1x256, .f32⟩
  | 25 => ⟨S2048x256, .f32⟩
  | 26 => ⟨S2048x256, .f32⟩
  | 27 => ⟨S1x256, .f32⟩
  | 28 => ⟨S2048x256, .f32⟩
  | 29 => ⟨S2048x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call2_cst : Ref sig .tc := ⟨.hbm, 125, rfl⟩
abbrev main_call2_v0 : Ref sig .tc := ⟨.hbm, 126, rfl⟩
abbrev main_v92 : Ref sig .tc := ⟨.hbm, 127, rfl⟩
abbrev main_v93 : Ref sig .tc := ⟨.hbm, 128, rfl⟩
abbrev main_cst_14 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_16 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_18 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]

class Facts₀ : Prop where
  transposes_S2048x256x49_S2048x49x256_0_2_1 : S2048x256x49.Transposes [0, 2, 1] S2048x49x256
  transposes_S32768x256_S256x32768_1_0 : S32768x256.Transposes [1, 0] S256x32768
  bcast_S32768_S1x32768_1 : S32768.BroadcastsInDim S1x32768 (![1] : Fin 1 → Fin S1x32768.rank)
  bcast_S1x32768_S2048x32768_0_1 : S1x32768.BroadcastsInDim S2048x32768 (![0, 1] : Fin 2 → Fin S2048x32768.rank)
  slices_S2048x32768_S2048x16384_0_0 : S2048x32768.Slices ![0, 0] S2048x16384
  shapeCasts_S2048x16384_S2048x256x64 : S2048x16384.ShapeCasts S2048x256x64
  reducesTo_S2048x49x64_S2048x49_d2 : S2048x49x64.ReducesTo [2] S2048x49
  h_S_ : 0 < S_.numel
  bcast_S2048x49_S2048x49x1_0_1 : S2048x49.BroadcastsInDim S2048x49x1 (![0, 1] : Fin 2 → Fin S2048x49x1.rank)
  bcast_S_S2048x49x1 : S_.BroadcastsInDim S2048x49x1 (![] : Fin 0 → Fin S2048x49x1.rank)
  bcast_S2048x49x1_S2048x49x64_0_1_2 : S2048x49x1.BroadcastsInDim S2048x49x64 (![0, 1, 2] : Fin 3 → Fin S2048x49x64.rank)
  bcast_S64_S1x1x64_2 : S64.BroadcastsInDim S1x1x64 (![2] : Fin 1 → Fin S1x1x64.rank)
  bcast_S1x1x64_S2048x49x64_0_1_2 : S1x1x64.BroadcastsInDim S2048x49x64 (![0, 1, 2] : Fin 3 → Fin S2048x49x64.rank)
  bcast_S_S2048x49x64 : S_.BroadcastsInDim S2048x49x64 (![] : Fin 0 → Fin S2048x49x64.rank)
  slices_S2048x32768_S2048x16384_0_16384 : S2048x32768.Slices ![0, 16384] S2048x16384
  shapeCasts_S2048x16384_S2048x64x256 : S2048x16384.ShapeCasts S2048x64x256
  reducesTo_S2048x49x256_S2048x49_d2 : S2048x49x256.ReducesTo [2] S2048x49
  bcast_S2048x49x1_S2048x49x256_0_1_2 : S2048x49x1.BroadcastsInDim S2048x49x256 (![0, 1, 2] : Fin 3 → Fin S2048x49x256.rank)
  bcast_S256_S1x1x256_2 : S256.BroadcastsInDim S1x1x256 (![2] : Fin 1 → Fin S1x1x256.rank)
  bcast_S1x1x256_S2048x49x256_0_1_2 : S1x1x256.BroadcastsInDim S2048x49x256 (![0, 1, 2] : Fin 3 → Fin S2048x49x256.rank)
  bcast_S_S2048x49x256 : S_.BroadcastsInDim S2048x49x256 (![] : Fin 0 → Fin S2048x49x256.rank)
  shapeCasts_S2048x49x256_S2048x12544 : S2048x49x256.ShapeCasts S2048x12544
  transposes_S256x12544_S12544x256_1_0 : S256x12544.Transposes [1, 0] S12544x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S2048x256_S2048_d1 : S2048x256.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bcast_S_S2048x256 : S_.BroadcastsInDim S2048x256 (![] : Fin 0 → Fin S2048x256.rank)
  dot_S2048x256_S256x32768_S2048x32768_1_0_0_1_n_n_wf : DotDims.WF S2048x256 S256x32768 S2048x32768 [1] [0] [0] [1] [] []
  dot_S2048x49x256_S2048x256x64_S2048x49x64_2_1_1_2_0_0_wf : DotDims.WF S2048x49x256 S2048x256x64 S2048x49x64 [2] [1] [1] [2] [0] [0]
  dot_S2048x49x64_S2048x64x256_S2048x49x256_2_1_1_2_0_0_wf : DotDims.WF S2048x49x64 S2048x64x256 S2048x49x256 [2] [1] [1] [2] [0] [0]
  dot_S2048x12544_S12544x256_S2048x256_1_0_0_1_n_n_wf : DotDims.WF S2048x12544 S12544x256 S2048x256 [1] [0] [0] [1] [] []

variable [Facts₀]

def dot_S2048x256_S256x32768_S2048x32768_1_0_0_1_n_n : DotDims S2048x256 S256x32768 S2048x32768 where
  lhsContracting := [1]
  rhsContracting := [0]
  lhsNonContracting := [0]
  rhsNonContracting := [1]
  lhsBatch := []
  rhsBatch := []
  wf := dot_S2048x256_S256x32768_S2048x32768_1_0_0_1_n_n_wf
def dot_S2048x49x256_S2048x256x64_S2048x49x64_2_1_1_2_0_0 : DotDims S2048x49x256 S2048x256x64 S2048x49x64 where
  lhsContracting := [2]
  rhsContracting := [1]
  lhsNonContracting := [1]
  rhsNonContracting := [2]
  lhsBatch := [0]
  rhsBatch := [0]
  wf := dot_S2048x49x256_S2048x256x64_S2048x49x64_2_1_1_2_0_0_wf
def dot_S2048x49x64_S2048x64x256_S2048x49x256_2_1_1_2_0_0 : DotDims S2048x49x64 S2048x64x256 S2048x49x256 where
  lhsContracting := [2]
  rhsContracting := [1]
  lhsNonContracting := [1]
  rhsNonContracting := [2]
  lhsBatch := [0]
  rhsBatch := [0]
  wf := dot_S2048x49x64_S2048x64x256_S2048x49x256_2_1_1_2_0_0_wf
def dot_S2048x12544_S12544x256_S2048x256_1_0_0_1_n_n : DotDims S2048x12544 S12544x256 S2048x256 where
  lhsContracting := [1]
  rhsContracting := [0]
  lhsNonContracting := [0]
  rhsNonContracting := [1]
  lhsBatch := []
  rhsBatch := []
  wf := dot_S2048x12544_S12544x256_S2048x256_1_0_0_1_n_n_wf

class Facts : Prop extends Facts₀ where

variable [Facts]
-- ==== Proof.RefRunStaged.lean ====
/-
  The reference program's run, read back in stages.  Its 144 host operations are cut into eight
  consecutive segments at the stage boundaries of the row-wise specification; each segment's result
  buffer is shown to hold the corresponding stage value as a function of the program's arguments,
  given what the earlier segments left, and the segments are chained.  No composed term of the whole
  program is ever formed.
-/
import proofs.«141042_j66700842107138_2_alg».proof.Proof.Gen.ReferenceIdeal
import Idealize.ShloMosaic.Lib.StableHlo.Run
import proofs.«141042_j66700842107138_2_alg».proof.Proof.RefReadPatched

noncomputable section

namespace Cert.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The reference's 144 host operations, in program order. -/
abbrev opsAll : List (HloOp τ sig (Elt F)) :=
  [ unary main_arg1 main_v0 ((transpose S2048x49x256 [0, 2, 1] · transposes_S2048x256x49_S2048x49x256_0_2_1) : (⟨S2048x256x49, .f32⟩ : BufTy).Contents (Elt F) → (⟨S2048x49x256, .f32⟩ : BufTy).Contents (Elt F)),
    unary main_arg2 main_v1 ((transpose S256x32768 [1, 0] · transposes_S32768x256_S256x32768_1_0) : (⟨S32768x256, .f32⟩ : BufTy).Contents (Elt F) → (⟨S256x32768, .f32⟩ : BufTy).Contents (Elt F)),
    binary main_arg0 main_v1 main_v2 ((fun l r => Host.dotGeneral dot_S2048x256_S256x32768_S2048x32768_1_0_0_1_n_n none l r) : (⟨S2048x256, .f32⟩ : BufTy).Contents (Elt F) → (⟨S256x32768, .f32⟩ : BufTy).Contents (Elt F) → (⟨S2048x32768, .f32⟩ : BufTy).Contents (Elt F)),
    unary main_arg3 main_v3 (broadcastInDim S1x32768 ![1] bcast_S32768_S1x32768_1 : (⟨S32768, .f32⟩ : BufTy).Contents (Elt F) → (⟨S1x32768, .f32⟩ : BufTy).Contents (Elt F)),
    unary main_v3 main_v4 (broadcastInDim S2048x32768 ![0, 1] bcast_S1x32768_S2048x32768_0_1 : (⟨S1x32768, .f32⟩ : BufTy).Contents (Elt F) → (⟨S2048x32768, .f32⟩ : BufTy).Contents (Elt F)),
    binary main_v2 main_v4 main_v5 (addf : (⟨S2048x32768, .f32⟩ : BufTy).Contents (Elt F) → (⟨S2048x32768, .f32⟩ : BufTy).Contents (Elt F) → (⟨S2048x32768, .f32⟩ : BufTy).Contents (Elt F)),
    unary main_v5 main_v6 ((extractStridedSlice S2048x16384 ![0, 0] · slices_S2048x32768_S2048x16384_0_0) : (⟨S2048x32768, .f32⟩ : BufTy).Contents (Elt F) → (⟨S2048x16384, .f32⟩ : BufTy).Contents (Elt F)),
    reshape main_v6 main_v7 rfl shapeCasts_S2048x16384_S2048x256x64,
    binary main_v0 main_v7 main_v8 ((fun l r => Host.dotGeneral dot_S2048x49x256_S2048x256x64_S2048x49x64_2_1_1_2_0_0 none l r) : (⟨S2048x49x256, .f32⟩ : BufTy).Contents (Elt F) → (⟨S2048x256x64, .f32⟩ : BufTy).Contents (Elt F) → (⟨S2048x49x64, .f32⟩ : BufTy).Contents (Elt F)),
    nullary main_cst (constant S_ .f32 0x00000000#32),
    binary main_v8 main_cst main_v9 ((fun x v => Host.reduceAdd x v reducesTo_S2048x49x64_S2048x49_d2 h_S_) : (⟨S2048x49x64, .f32⟩ : BufTy).Contents (Elt F) → (⟨S_, .f32⟩ : BufTy).Contents (Elt F) → (⟨S2048x49, .f32⟩ : BufTy).Contents (Elt F)),
    unary main_v9 main_v10 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_0 (constant S_ .f32 0x42800000#32),
    unary main_cst_0 main_v11 (broadcastInDim S2048x49x1 ![] bcast_S_S2048x49x1 : (⟨S_, .f32⟩ : BufTy).Contents (Elt F) → (⟨S2048x49x1, .f32⟩ : BufTy).Contents (Elt F)),
    binary main_v10 main_v11 main_v12 (Host.divf : (⟨S2048x49x1, .f32⟩ : BufTy).Contents (Elt F) → (⟨S2048x49x1, .f32⟩ : BufTy).Contents (Elt F) → (⟨S2048x49x1, .f32⟩ : BufTy).Contents (Elt F)),
    unary main_v12 main_v13 (broadcastInDim S2048x49x64 ![0, 1, 2] bcast_S2048x49x1_S2048x49x64_0_1_2 : (⟨S2048x49x1, .f32⟩ : BufTy).Contents (Elt F) → (⟨S2048x49x64, .f32⟩ : BufTy).Contents (Elt F)),
    binary main_v8 main_v13 main_v14 (subf : (⟨S2048x49x64, .f32⟩ : BufTy).Contents (Elt F) → (⟨S2048x49x64, .f32⟩ : BufTy).Contents (Elt F) → (⟨S2048x49x64, .f32⟩ : BufTy).Contents (Elt F)),
    binary main_v14 main_v14 main_v15 (mulf : (⟨S2048x49x64, .f32⟩ : BufTy).Contents (Elt F) → (⟨S2048x49x64, .f32⟩ : BufTy).Contents (Elt F) → (⟨S2048x49x64, .f32⟩ : BufTy).Contents (Elt F)),
    nullary main_cst_1 (constant S_ .f32 0x00000000#32),
    binary main_v15 main_cst_1 main_v16 ((fun x v => Host.reduceAdd x v reducesTo_S2048x49x64_S2048x49_d2 h_S_) : (⟨S2048x49x64, .f32⟩ : BufTy).Contents (Elt F) → (⟨S_, .f32⟩ : BufTy).Contents (Elt F) → (⟨S2048x49, .f32⟩ : BufTy).Contents (Elt F)),
    unary main_v16 main_v17 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_2 (constant S_ .f32 0x42800000#32),
    unary main_cst_2 main_v18 (broadcastInDim S2048x49x1 ![] bcast_S_S2048x49x1 : (⟨S_, .f32⟩ : BufTy).Contents (Elt F) → (⟨S2048x49x1, .f32⟩ : BufTy).Contents (Elt F)),
    binary main_v17 main_v18 main_v19 (Host.divf : (⟨S2048x49x1, .f32⟩ : BufTy).Contents (Elt F) → (⟨S2048x49x1, .f32⟩ : BufTy).Contents (Elt F) → (⟨S2048x49x1, .f32⟩ : BufTy).Contents (Elt F)),
    unary main_v12 main_v20 (broadcastInDim S2048x49x64 ![0, 1, 2] bcast_S2048x49x1_S2048x49x64_0_1_2 : (⟨S2048x49x1, .f32⟩ : BufTy).Contents (Elt F) → (⟨S2048x49x64, .f32⟩ : BufTy).Contents (Elt F)),
    binary main_v8 main_v20 main_v21 (subf : (⟨S2048x49x64, .f32⟩ : BufTy).Contents (Elt F) → (⟨S2048x49x64, .f32⟩ : BufTy).Contents (Elt F) → (⟨S2048x49x64, .f32⟩ : BufTy).Contents (Elt F)),
    nullary main_cst_3 (constant S_ .f32 0x3727C5AC#32),
    unary main_cst_3 main_v22 (broadcastInDim S2048x49x1 ![] bcast_S_S2048x49x1 : (⟨S_, .f32⟩ : BufTy).Contents (Elt F) → (⟨S2048x49x1, .f32⟩ : BufTy).Contents (Elt F)),
    binary main_v19 main_v22 main_v23 (addf : (⟨S2048x49x1, .f32⟩ : BufTy).Contents (Elt F) → (⟨S2048x49x1, .f32⟩ : BufTy).Contents (Elt F) → (⟨S2048x49x1, .f32⟩ : BufTy).Contents (Elt F)),
    unary main_v23 main_v24 (Host.sqrt : (⟨S2048x49x1, .f32⟩ : BufTy).Contents (Elt F) → (⟨S2048x49x1, .f32⟩ : BufTy).Contents (Elt F)),
    unary main_v24 main_v25 (broadcastInDim S2048x49x64 ![0, 1, 2] bcast_S2048x49x1_S2048x49x64_0_1_2 : (⟨S2048x49x1, .f32⟩ : BufTy).Contents (Elt F) → (⟨S2048x49x64, .f32⟩ : BufTy).Contents (Elt F)),
    binary main_v21 main_v25 main_v26 (Host.divf : (⟨S2048x49x64, .f32⟩ : BufTy).Contents (Elt F) → (⟨S2048x49x64, .f32⟩ : BufTy).Contents (Elt F) → (⟨S2048x49x64, .f32⟩ : BufTy).Contents (Elt F)),
    unary main_arg4 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S2048x49x64 ![0, 1, 2] bcast_S1x1x64_S2048x49x64_0_1_2 : (⟨S1x1x64, .f32⟩ : BufTy).Contents (Elt F) → (⟨S2048x49x64, .f32⟩ : BufTy).Contents (Elt F)),
    binary main_v26 main_v28 main_v29 (mulf : (⟨S2048x49x64, .f32⟩ : BufTy).Contents (Elt F) → (⟨S2048x49x64, .f32⟩ : BufTy).Contents (Elt F) → (⟨S2048x49x64, .f32⟩ : BufTy).Contents (Elt F)),
    unary main_arg5 main_v30 (broadcastInDim S1x1x64 ![2] bcast_S64_S1x1x64_2 : (⟨S64, .f32⟩ : BufTy).Contents (Elt F) → (⟨S1x1x64, .f32⟩ : BufTy).Contents (Elt F)),
    unary main_v30 main_v31 (broadcastInDim S2048x49x64 ![0, 1, 2] bcast_S1x1x64_S2048x49x64_0_1_2 : (⟨S1x1x64, .f32⟩ : BufTy).Contents (Elt F) → (⟨S2048x49x64, .f32⟩ : BufTy).Contents (Elt F)),
    binary main_v29 main_v31 main_v32 (addf : (⟨S2048x49x64, .f32⟩ : BufTy).Contents (Elt F) → (⟨S2048x49x64, .f32⟩ : BufTy).Contents (Elt F) → (⟨S2048x49x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x49x64, .f32⟩) main_call0_v0) (broadcastInDim S2048x49x64 ![] bcast_S_S2048x49x64),
    TRef.binary (TRef.of (T := ⟨S2048x49x64, .f32⟩) main_v32) (TRef.of (T := ⟨S2048x49x64, .f32⟩) main_call0_v0) (TRef.of (T := ⟨S2048x49x64, .f32⟩) main_v33) maximumf,
    unary main_v5 main_v34 ((extractStridedSlice S2048x16384 ![0, 16384] · slices_S2048x32768_S2048x16384_0_16384) : (⟨S2048x32768, .f32⟩ : BufTy).Contents (Elt F) → (⟨S2048x16384, .f32⟩ : BufTy).Contents (Elt F)),
    reshape main_v34 main_v35 rfl shapeCasts_S2048x16384_S2048x64x256,
    binary main_v33 main_v35 main_v36 ((fun l r => Host.dotGeneral dot_S2048x49x64_S2048x64x256_S2048x49x256_2_1_1_2_0_0 none l r) : (⟨S2048x49x64, .f32⟩ : BufTy).Contents (Elt F) → (⟨S2048x64x256, .f32⟩ : BufTy).Contents (Elt F) → (⟨S2048x49x256, .f32⟩ : BufTy).Contents (Elt F)),
    nullary main_cst_4 (constant S_ .f32 0x00000000#32),
    binary main_v36 main_cst_4 main_v37 ((fun x v => Host.reduceAdd x v reducesTo_S2048x49x256_S2048x49_d2 h_S_) : (⟨S2048x49x256, .f32⟩ : BufTy).Contents (Elt F) → (⟨S_, .f32⟩ : BufTy).Contents (Elt F) → (⟨S2048x49, .f32⟩ : BufTy).Contents (Elt F)),
    unary main_v37 main_v38 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_5 (constant S_ .f32 0x43800000#32),
    unary main_cst_5 main_v39 (broadcastInDim S2048x49x1 ![] bcast_S_S2048x49x1 : (⟨S_, .f32⟩ : BufTy).Contents (Elt F) → (⟨S2048x49x1, .f32⟩ : BufTy).Contents (Elt F)),
    binary main_v38 main_v39 main_v40 (Host.divf : (⟨S2048x49x1, .f32⟩ : BufTy).Contents (Elt F) → (⟨S2048x49x1, .f32⟩ : BufTy).Contents (Elt F) → (⟨S2048x49x1, .f32⟩ : BufTy).Contents (Elt F)),
    unary main_v40 main_v41 (broadcastInDim S2048x49x256 ![0, 1, 2] bcast_S2048x49x1_S2048x49x256_0_1_2 : (⟨S2048x49x1, .f32⟩ : BufTy).Contents (Elt F) → (⟨S2048x49x256, .f32⟩ : BufTy).Contents (Elt F)),
    binary main_v36 main_v41 main_v42 (subf : (⟨S2048x49x256, .f32⟩ : BufTy).Contents (Elt F) → (⟨S2048x49x256, .f32⟩ : BufTy).Contents (Elt F) → (⟨S2048x49x256, .f32⟩ : BufTy).Contents (Elt F)),
    binary main_v42 main_v42 main_v43 (mulf : (⟨S2048x49x256, .f32⟩ : BufTy).Contents (Elt F) → (⟨S2048x49x256, .f32⟩ : BufTy).Contents (Elt F) → (⟨S2048x49x256, .f32⟩ : BufTy).Contents (Elt F)),
    nullary main_cst_6 (constant S_ .f32 0x00000000#32),
    binary main_v43 main_cst_6 main_v44 ((fun x v => Host.reduceAdd x v reducesTo_S2048x49x256_S2048x49_d2 h_S_) : (⟨S2048x49x256, .f32⟩ : BufTy).Contents (Elt F) → (⟨S_, .f32⟩ : BufTy).Contents (Elt F) → (⟨S2048x49, .f32⟩ : BufTy).Contents (Elt F)),
    unary main_v44 main_v45 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_7 (constant S_ .f32 0x43800000#32),
    unary main_cst_7 main_v46 (broadcastInDim S2048x49x1 ![] bcast_S_S2048x49x1 : (⟨S_, .f32⟩ : BufTy).Contents (Elt F) → (⟨S2048x49x1, .f32⟩ : BufTy).Contents (Elt F)),
    binary main_v45 main_v46 main_v47 (Host.divf : (⟨S2048x49x1, .f32⟩ : BufTy).Contents (Elt F) → (⟨S2048x49x1, .f32⟩ : BufTy).Contents (Elt F) → (⟨S2048x49x1, .f32⟩ : BufTy).Contents (Elt F)),
    unary main_v40 main_v48 (broadcastInDim S2048x49x256 ![0, 1, 2] bcast_S2048x49x1_S2048x49x256_0_1_2 : (⟨S2048x49x1, .f32⟩ : BufTy).Contents (Elt F) → (⟨S2048x49x256, .f32⟩ : BufTy).Contents (Elt F)),
    binary main_v36 main_v48 main_v49 (subf : (⟨S2048x49x256, .f32⟩ : BufTy).Contents (Elt F) → (⟨S2048x49x256, .f32⟩ : BufTy).Contents (Elt F) → (⟨S2048x49x256, .f32⟩ : BufTy).Contents (Elt F)),
    nullary main_cst_8 (constant S_ .f32 0x3727C5AC#32),
    unary main_cst_8 main_v50 (broadcastInDim S2048x49x1 ![] bcast_S_S2048x49x1 : (⟨S_, .f32⟩ : BufTy).Contents (Elt F) → (⟨S2048x49x1, .f32⟩ : BufTy).Contents (Elt F)),
    binary main_v47 main_v50 main_v51 (addf : (⟨S2048x49x1, .f32⟩ : BufTy).Contents (Elt F) → (⟨S2048x49x1, .f32⟩ : BufTy).Contents (Elt F) → (⟨S2048x49x1, .f32⟩ : BufTy).Contents (Elt F)),
    unary main_v51 main_v52 (Host.sqrt : (⟨S2048x49x1, .f32⟩ : BufTy).Contents (Elt F) → (⟨S2048x49x1, .f32⟩ : BufTy).Contents (Elt F)),
    unary main_v52 main_v53 (broadcastInDim S2048x49x256 ![0, 1, 2] bcast_S2048x49x1_S2048x49x256_0_1_2 : (⟨S2048x49x1, .f32⟩ : BufTy).Contents (Elt F) → (⟨S2048x49x256, .f32⟩ : BufTy).Contents (Elt F)),
    binary main_v49 main_v53 main_v54 (Host.divf : (⟨S2048x49x256, .f32⟩ : BufTy).Contents (Elt F) → (⟨S2048x49x256, .f32⟩ : BufTy).Contents (Elt F) → (⟨S2048x49x256, .f32⟩ : BufTy).Contents (Elt F)),
    unary main_arg6 main_v55 (broadcastInDim S1x1x256 ![2] bcast_S256_S1x1x256_2 : (⟨S256, .f32⟩ : BufTy).Contents (Elt F) → (⟨S1x1x256, .f32⟩ : BufTy).Contents (Elt F)),
    unary main_v55 main_v56 (broadcastInDim S2048x49x256 ![0, 1, 2] bcast_S1x1x256_S2048x49x256_0_1_2 : (⟨S1x1x256, .f32⟩ : BufTy).Contents (Elt F) → (⟨S2048x49x256, .f32⟩ : BufTy).Contents (Elt F)),
    binary main_v54 main_v56 main_v57 (mulf : (⟨S2048x49x256, .f32⟩ : BufTy).Contents (Elt F) → (⟨S2048x49x256, .f32⟩ : BufTy).Contents (Elt F) → (⟨S2048x49x256, .f32⟩ : BufTy).Contents (Elt F)),
    unary main_arg7 main_v58 (broadcastInDim S1x1x256 ![2] bcast_S256_S1x1x256_2 : (⟨S256, .f32⟩ : BufTy).Contents (Elt F) → (⟨S1x1x256, .f32⟩ : BufTy).Contents (Elt F)),
    unary main_v58 main_v59 (broadcastInDim S2048x49x256 ![0, 1, 2] bcast_S1x1x256_S2048x49x256_0_1_2 : (⟨S1x1x256, .f32⟩ : BufTy).Contents (Elt F) → (⟨S2048x49x256, .f32⟩ : BufTy).Contents (Elt F)),
    binary main_v57 main_v59 main_v60 (addf : (⟨S2048x49x256, .f32⟩ : BufTy).Contents (Elt F) → (⟨S2048x49x256, .f32⟩ : BufTy).Contents (Elt F) → (⟨S2048x49x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x49x256, .f32⟩) main_call1_v0) (broadcastInDim S2048x49x256 ![] bcast_S_S2048x49x256),
    TRef.binary (TRef.of (T := ⟨S2048x49x256, .f32⟩) main_v60) (TRef.of (T := ⟨S2048x49x256, .f32⟩) main_call1_v0) (TRef.of (T := ⟨S2048x49x256, .f32⟩) main_v61) maximumf,
    reshape main_v61 main_v62 rfl shapeCasts_S2048x49x256_S2048x12544,
    unary main_arg8 main_v63 ((transpose S12544x256 [1, 0] · transposes_S256x12544_S12544x256_1_0) : (⟨S256x12544, .f32⟩ : BufTy).Contents (Elt F) → (⟨S12544x256, .f32⟩ : BufTy).Contents (Elt F)),
    binary main_v62 main_v63 main_v64 ((fun l r => Host.dotGeneral dot_S2048x12544_S12544x256_S2048x256_1_0_0_1_n_n none l r) : (⟨S2048x12544, .f32⟩ : BufTy).Contents (Elt F) → (⟨S12544x256, .f32⟩ : BufTy).Contents (Elt F) → (⟨S2048x256, .f32⟩ : BufTy).Contents (Elt F)),
    unary main_arg9 main_v65 (broadcastInDim S1x256 ![1] bcast_S256_S1x256_1 : (⟨S256, .f32⟩ : BufTy).Contents (Elt F) → (⟨S1x256, .f32⟩ : BufTy).Contents (Elt F)),
    unary main_v65 main_v66 (broadcastInDim S2048x256 ![0, 1] bcast_S1x256_S2048x256_0_1 : (⟨S1x256, .f32⟩ : BufTy).Contents (Elt F) → (⟨S2048x256, .f32⟩ : BufTy).Contents (Elt F)),
    binary main_v64 main_v66 main_v67 (addf : (⟨S2048x256, .f32⟩ : BufTy).Contents (Elt F) → (⟨S2048x256, .f32⟩ : BufTy).Contents (Elt F) → (⟨S2048x256, .f32⟩ : BufTy).Contents (Elt F)),
    nullary main_cst_9 (constant S_ .f32 0x00000000#32),
    binary main_v67 main_cst_9 main_v68 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v68 main_v69 (broadcastInDim S2048x1 ![0] bcast_S2048_S2048x1_0 : (⟨S2048, .f32⟩ : BufTy).Contents (Elt F) → (⟨S2048x1, .f32⟩ : BufTy).Contents (Elt F)),
    nullary main_cst_10 (constant S_ .f32 0x43800000#32),
    unary main_cst_10 main_v70 (broadcastInDim S2048x1 ![] bcast_S_S2048x1 : (⟨S_, .f32⟩ : BufTy).Contents (Elt F) → (⟨S2048x1, .f32⟩ : BufTy).Contents (Elt F)),
    binary main_v69 main_v70 main_v71 (Host.divf : (⟨S2048x1, .f32⟩ : BufTy).Contents (Elt F) → (⟨S2048x1, .f32⟩ : BufTy).Contents (Elt F) → (⟨S2048x1, .f32⟩ : BufTy).Contents (Elt F)),
    unary main_v71 main_v72 (broadcastInDim S2048x256 ![0, 1] bcast_S2048x1_S2048x256_0_1 : (⟨S2048x1, .f32⟩ : BufTy).Contents (Elt F) → (⟨S2048x256, .f32⟩ : BufTy).Contents (Elt F)),
    binary main_v67 main_v72 main_v73 (subf : (⟨S2048x256, .f32⟩ : BufTy).Contents (Elt F) → (⟨S2048x256, .f32⟩ : BufTy).Contents (Elt F) → (⟨S2048x256, .f32⟩ : BufTy).Contents (Elt F)),
    binary main_v73 main_v73 main_v74 (mulf : (⟨S2048x256, .f32⟩ : BufTy).Contents (Elt F) → (⟨S2048x256, .f32⟩ : BufTy).Contents (Elt F) → (⟨S2048x256, .f32⟩ : BufTy).Contents (Elt F)),
    nullary main_cst_11 (constant S_ .f32 0x00000000#32),
    binary main_v74 main_cst_11 main_v75 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v75 main_v76 (broadcastInDim S2048x1 ![0] bcast_S2048_S2048x1_0 : (⟨S2048, .f32⟩ : BufTy).Contents (Elt F) → (⟨S2048x1, .f32⟩ : BufTy).Contents (Elt F)),
    nullary main_cst_12 (constant S_ .f32 0x43800000#32),
    unary main_cst_12 main_v77 (broadcastInDim S2048x1 ![] bcast_S_S2048x1 : (⟨S_, .f32⟩ : BufTy).Contents (Elt F) → (⟨S2048x1, .f32⟩ : BufTy).Contents (Elt F)),
    binary main_v76 main_v77 main_v78 (Host.divf : (⟨S2048x1, .f32⟩ : BufTy).Contents (Elt F) → (⟨S2048x1, .f32⟩ : BufTy).Contents (Elt F) → (⟨S2048x1, .f32⟩ : BufTy).Contents (Elt F)),
    unary main_v71 main_v79 (broadcastInDim S2048x256 ![0, 1] bcast_S2048x1_S2048x256_0_1 : (⟨S2048x1, .f32⟩ : BufTy).Contents (Elt F) → (⟨S2048x256, .f32⟩ : BufTy).Contents (Elt F)),
    binary main_v67 main_v79 main_v80 (subf : (⟨S2048x256, .f32⟩ : BufTy).Contents (Elt F) → (⟨S2048x256, .f32⟩ : BufTy).Contents (Elt F) → (⟨S2048x256, .f32⟩ : BufTy).Contents (Elt F)),
    nullary main_cst_13 (constant S_ .f32 0x3727C5AC#32),
    unary main_cst_13 main_v81 (broadcastInDim S2048x1 ![] bcast_S_S2048x1 : (⟨S_, .f32⟩ : BufTy).Contents (Elt F) → (⟨S2048x1, .f32⟩ : BufTy).Contents (Elt F)),
    binary main_v78 main_v81 main_v82 (addf : (⟨S2048x1, .f32⟩ : BufTy).Contents (Elt F) → (⟨S2048x1, .f32⟩ : BufTy).Contents (Elt F) → (⟨S2048x1, .f32⟩ : BufTy).Contents (Elt F)),
    unary main_v82 main_v83 (Host.sqrt : (⟨S2048x1, .f32⟩ : BufTy).Contents (Elt F) → (⟨S2048x1, .f32⟩ : BufTy).Contents (Elt F)),
    unary main_v83 main_v84 (broadcastInDim S2048x256 ![0, 1] bcast_S2048x1_S2048x256_0_1 : (⟨S2048x1, .f32⟩ : BufTy).Contents (Elt F) → (⟨S2048x256, .f32⟩ : BufTy).Contents (Elt F)),
    binary main_v80 main_v84 main_v85 (Host.divf : (⟨S2048x256, .f32⟩ : BufTy).Contents (Elt F) → (⟨S2048x256, .f32⟩ : BufTy).Contents (Elt F) → (⟨S2048x256, .f32⟩ : BufTy).Contents (Elt F)),
    unary main_arg10 main_v86 (broadcastInDim S1x256 ![1] bcast_S256_S1x256_1 : (⟨S256, .f32⟩ : BufTy).Contents (Elt F) → (⟨S1x256, .f32⟩ : BufTy).Contents (Elt F)),
    unary main_v86 main_v87 (broadcastInDim S2048x256 ![0, 1] bcast_S1x256_S2048x256_0_1 : (⟨S1x256, .f32⟩ : BufTy).Contents (Elt F) → (⟨S2048x256, .f32⟩ : BufTy).Contents (Elt F)),
    binary main_v85 main_v87 main_v88 (mulf : (⟨S2048x256, .f32⟩ : BufTy).Contents (Elt F) → (⟨S2048x256, .f32⟩ : BufTy).Contents (Elt F) → (⟨S2048x256, .f32⟩ : BufTy).Contents (Elt F)),
    unary main_arg11 main_v89 (broadcastInDim S1x256 ![1] bcast_S256_S1x256_1 : (⟨S256, .f32⟩ : BufTy).Contents (Elt F) → (⟨S1x256, .f32⟩ : BufTy).Contents (Elt F)),
    unary main_v89 main_v90 (broadcastInDim S2048x256 ![0, 1] bcast_S1x256_S2048x256_0_1 : (⟨S1x256, .f32⟩ : BufTy).Contents (Elt F) → (⟨S2048x256, .f32⟩ : BufTy).Contents (Elt F)),
    binary main_v88 main_v90 main_v91 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x256, .f32⟩) main_call2_v0) (broadcastInDim S2048x256 ![] bcast_S_S2048x256),
    TRef.binary (TRef.of (T := ⟨S2048x256, .f32⟩) main_v91) (TRef.of (T := ⟨S2048x256, .f32⟩) main_call2_v0) (TRef.of (T := ⟨S2048x256, .f32⟩) main_v92) maximumf,
    binary main_arg0 main_v92 main_v93 (addf : (⟨S2048x256, .f32⟩ : BufTy).Contents (Elt F) → (⟨S2048x256, .f32⟩ : BufTy).Contents (Elt F) → (⟨S2048x256, .f32⟩ : BufTy).Contents (Elt F)),
    nullary main_cst_14 (constant S_ .f32 0x00000000#32),
    binary main_v93 main_cst_14 main_v94 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v94 main_v95 (broadcastInDim S2048x1 ![0] bcast_S2048_S2048x1_0 : (⟨S2048, .f32⟩ : BufTy).Contents (Elt F) → (⟨S2048x1, .f32⟩ : BufTy).Contents (Elt F)),
    nullary main_cst_15 (constant S_ .f32 0x43800000#32),
    unary main_cst_15 main_v96 (broadcastInDim S2048x1 ![] bcast_S_S2048x1 : (⟨S_, .f32⟩ : BufTy).Contents (Elt F) → (⟨S2048x1, .f32⟩ : BufTy).Contents (Elt F)),
    binary main_v95 main_v96 main_v97 (Host.divf : (⟨S2048x1, .f32⟩ : BufTy).Contents (Elt F) → (⟨S2048x1, .f32⟩ : BufTy).Contents (Elt F) → (⟨S2048x1, .f32⟩ : BufTy).Contents (Elt F)),
    unary main_v97 main_v98 (broadcastInDim S2048x256 ![0, 1] bcast_S2048x1_S2048x256_0_1 : (⟨S2048x1, .f32⟩ : BufTy).Contents (Elt F) → (⟨S2048x256, .f32⟩ : BufTy).Contents (Elt F)),
    binary main_v93 main_v98 main_v99 (subf : (⟨S2048x256, .f32⟩ : BufTy).Contents (Elt F) → (⟨S2048x256, .f32⟩ : BufTy).Contents (Elt F) → (⟨S2048x256, .f32⟩ : BufTy).Contents (Elt F)),
    binary main_v99 main_v99 main_v100 (mulf : (⟨S2048x256, .f32⟩ : BufTy).Contents (Elt F) → (⟨S2048x256, .f32⟩ : BufTy).Contents (Elt F) → (⟨S2048x256, .f32⟩ : BufTy).Contents (Elt F)),
    nullary main_cst_16 (constant S_ .f32 0x00000000#32),
    binary main_v100 main_cst_16 main_v101 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v101 main_v102 (broadcastInDim S2048x1 ![0] bcast_S2048_S2048x1_0 : (⟨S2048, .f32⟩ : BufTy).Contents (Elt F) → (⟨S2048x1, .f32⟩ : BufTy).Contents (Elt F)),
    nullary main_cst_17 (constant S_ .f32 0x43800000#32),
    unary main_cst_17 main_v103 (broadcastInDim S2048x1 ![] bcast_S_S2048x1 : (⟨S_, .f32⟩ : BufTy).Contents (Elt F) → (⟨S2048x1, .f32⟩ : BufTy).Contents (Elt F)),
    binary main_v102 main_v103 main_v104 (Host.divf : (⟨S2048x1, .f32⟩ : BufTy).Contents (Elt F) → (⟨S2048x1, .f32⟩ : BufTy).Contents (Elt F) → (⟨S2048x1, .f32⟩ : BufTy).Contents (Elt F)),
    unary main_v97 main_v105 (broadcastInDim S2048x256 ![0, 1] bcast_S2048x1_S2048x256_0_1 : (⟨S2048x1, .f32⟩ : BufTy).Contents (Elt F) → (⟨S2048x256, .f32⟩ : BufTy).Contents (Elt F)),
    binary main_v93 main_v105 main_v106 (subf : (⟨S2048x256, .f32⟩ : BufTy).Contents (Elt F) → (⟨S2048x256, .f32⟩ : BufTy).Contents (Elt F) → (⟨S2048x256, .f32⟩ : BufTy).Contents (Elt F)),
    nullary main_cst_18 (constant S_ .f32 0x3727C5AC#32),
    unary main_cst_18 main_v107 (broadcastInDim S2048x1 ![] bcast_S_S2048x1 : (⟨S_, .f32⟩ : BufTy).Contents (Elt F) → (⟨S2048x1, .f32⟩ : BufTy).Contents (Elt F)),
    binary main_v104 main_v107 main_v108 (addf : (⟨S2048x1, .f32⟩ : BufTy).Contents (Elt F) → (⟨S2048x1, .f32⟩ : BufTy).Contents (Elt F) → (⟨S2048x1, .f32⟩ : BufTy).Contents (Elt F)),
    unary main_v108 main_v109 (Host.sqrt : (⟨S2048x1, .f32⟩ : BufTy).Contents (Elt F) → (⟨S2048x1, .f32⟩ : BufTy).Contents (Elt F)),
    unary main_v109 main_v110 (broadcastInDim S2048x256 ![0, 1] bcast_S2048x1_S2048x256_0_1 : (⟨S2048x1, .f32⟩ : BufTy).Contents (Elt F) → (⟨S2048x256, .f32⟩ : BufTy).Contents (Elt F)),
    binary main_v106 main_v110 main_v111 (Host.divf : (⟨S2048x256, .f32⟩ : BufTy).Contents (Elt F) → (⟨S2048x256, .f32⟩ : BufTy).Contents (Elt F) → (⟨S2048x256, .f32⟩ : BufTy).Contents (Elt F)),
    unary main_arg12 main_v112 (broadcastInDim S1x256 ![1] bcast_S256_S1x256_1 : (⟨S256, .f32⟩ : BufTy).Contents (Elt F) → (⟨S1x256, .f32⟩ : BufTy).Contents (Elt F)),
    unary main_v112 main_v113 (broadcastInDim S2048x256 ![0, 1] bcast_S1x256_S2048x256_0_1 : (⟨S1x256, .f32⟩ : BufTy).Contents (Elt F) → (⟨S2048x256, .f32⟩ : BufTy).Contents (Elt F)),
    binary main_v111 main_v113 main_v114 (mulf : (⟨S2048x256, .f32⟩ : BufTy).Contents (Elt F) → (⟨S2048x256, .f32⟩ : BufTy).Contents (Elt F) → (⟨S2048x256, .f32⟩ : BufTy).Contents (Elt F)),
    unary main_arg13 main_v115 (broadcastInDim S1x256 ![1] bcast_S256_S1x256_1 : (⟨S256, .f32⟩ : BufTy).Contents (Elt F) → (⟨S1x256, .f32⟩ : BufTy).Contents (Elt F)),
    unary main_v115 main_v116 (broadcastInDim S2048x256 ![0, 1] bcast_S1x256_S2048x256_0_1 : (⟨S1x256, .f32⟩ : BufTy).Contents (Elt F) → (⟨S2048x256, .f32⟩ : BufTy).Contents (Elt F)),
    binary main_v114 main_v116 main_v117 (addf : (⟨S2048x256, .f32⟩ : BufTy).Contents (Elt F) → (⟨S2048x256, .f32⟩ : BufTy).Contents (Elt F) → (⟨S2048x256, .f32⟩ : BufTy).Contents (Elt F)) ]

set_option maxRecDepth 8192 in
set_option maxHeartbeats 4000000 in
/-- The reference's entry function is the straight line of these operations. -/
theorem main_eq (c : Dev nD) : main (F := F) c = seq opsAll := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (opsAll : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Segment 1: the first projection (and the transposed value block). -/
abbrev seg1 : List (HloOp τ sig (Elt F)) :=
  [ unary main_arg1 main_v0 ((transpose S2048x49x256 [0, 2, 1] · transposes_S2048x256x49_S2048x49x256_0_2_1) : (⟨S2048x256x49, .f32⟩ : BufTy).Contents (Elt F) → (⟨S2048x49x256, .f32⟩ : BufTy).Contents (Elt F)),
    unary main_arg2 main_v1 ((transpose S256x32768 [1, 0] · transposes_S32768x256_S256x32768_1_0) : (⟨S32768x256, .f32⟩ : BufTy).Contents (Elt F) → (⟨S256x32768, .f32⟩ : BufTy).Contents (Elt F)),
    binary main_arg0 main_v1 main_v2 ((fun l r => Host.dotGeneral dot_S2048x256_S256x32768_S2048x32768_1_0_0_1_n_n none l r) : (⟨S2048x256, .f32⟩ : BufTy).Contents (Elt F) → (⟨S256x32768, .f32⟩ : BufTy).Contents (Elt F) → (⟨S2048x32768, .f32⟩ : BufTy).Contents (Elt F)),
    unary main_arg3 main_v3 (broadcastInDim S1x32768 ![1] bcast_S32768_S1x32768_1 : (⟨S32768, .f32⟩ : BufTy).Contents (Elt F) → (⟨S1x32768, .f32⟩ : BufTy).Contents (Elt F)),
    unary main_v3 main_v4 (broadcastInDim S2048x32768 ![0, 1] bcast_S1x32768_S2048x32768_0_1 : (⟨S1x32768, .f32⟩ : BufTy).Contents (Elt F) → (⟨S2048x32768, .f32⟩ : BufTy).Contents (Elt F)),
    binary main_v2 main_v4 main_v5 (addf : (⟨S2048x32768, .f32⟩ : BufTy).Contents (Elt F) → (⟨S2048x32768, .f32⟩ : BufTy).Contents (Elt F) → (⟨S2048x32768, .f32⟩ : BufTy).Contents (Elt F)) ]

/-- Segment 2: the first per-sample product. -/
abbrev seg2 : List (HloOp τ sig (Elt F)) :=
  [ unary main_v5 main_v6 ((extractStridedSlice S2048x16384 ![0, 0] · slices_S2048x32768_S2048x16384_0_0) : (⟨S2048x32768, .f32⟩ : BufTy).Contents (Elt F) → (⟨S2048x16384, .f32⟩ : BufTy).Contents (Elt F)),
    reshape main_v6 main_v7 rfl shapeCasts_S2048x16384_S2048x256x64,
    binary main_v0 main_v7 main_v8 ((fun l r => Host.dotGeneral dot_S2048x49x256_S2048x256x64_S2048x49x64_2_1_1_2_0_0 none l r) : (⟨S2048x49x256, .f32⟩ : BufTy).Contents (Elt F) → (⟨S2048x256x64, .f32⟩ : BufTy).Contents (Elt F) → (⟨S2048x49x64, .f32⟩ : BufTy).Contents (Elt F)) ]

/-- Segment 3: the first layer norm, clipped. -/
abbrev seg3 : List (HloOp τ sig (Elt F)) :=
  [ nullary main_cst (constant S_ .f32 0x00000000#32),
    binary main_v8 main_cst main_v9 ((fun x v => Host.reduceAdd x v reducesTo_S2048x49x64_S2048x49_d2 h_S_) : (⟨S2048x49x64, .f32⟩ : BufTy).Contents (Elt F) → (⟨S_, .f32⟩ : BufTy).Contents (Elt F) → (⟨S2048x49, .f32⟩ : BufTy).Contents (Elt F)),
    unary main_v9 main_v10 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_0 (constant S_ .f32 0x42800000#32),
    unary main_cst_0 main_v11 (broadcastInDim S2048x49x1 ![] bcast_S_S2048x49x1 : (⟨S_, .f32⟩ : BufTy).Contents (Elt F) → (⟨S2048x49x1, .f32⟩ : BufTy).Contents (Elt F)),
    binary main_v10 main_v11 main_v12 (Host.divf : (⟨S2048x49x1, .f32⟩ : BufTy).Contents (Elt F) → (⟨S2048x49x1, .f32⟩ : BufTy).Contents (Elt F) → (⟨S2048x49x1, .f32⟩ : BufTy).Contents (Elt F)),
    unary main_v12 main_v13 (broadcastInDim S2048x49x64 ![0, 1, 2] bcast_S2048x49x1_S2048x49x64_0_1_2 : (⟨S2048x49x1, .f32⟩ : BufTy).Contents (Elt F) → (⟨S2048x49x64, .f32⟩ : BufTy).Contents (Elt F)),
    binary main_v8 main_v13 main_v14 (subf : (⟨S2048x49x64, .f32⟩ : BufTy).Contents (Elt F) → (⟨S2048x49x64, .f32⟩ : BufTy).Contents (Elt F) → (⟨S2048x49x64, .f32⟩ : BufTy).Contents (Elt F)),
    binary main_v14 main_v14 main_v15 (mulf : (⟨S2048x49x64, .f32⟩ : BufTy).Contents (Elt F) → (⟨S2048x49x64, .f32⟩ : BufTy).Contents (Elt F) → (⟨S2048x49x64, .f32⟩ : BufTy).Contents (Elt F)),
    nullary main_cst_1 (constant S_ .f32 0x00000000#32),
    binary main_v15 main_cst_1 main_v16 ((fun x v => Host.reduceAdd x v reducesTo_S2048x49x64_S2048x49_d2 h_S_) : (⟨S2048x49x64, .f32⟩ : BufTy).Contents (Elt F) → (⟨S_, .f32⟩ : BufTy).Contents (Elt F) → (⟨S2048x49, .f32⟩ : BufTy).Contents (Elt F)),
    unary main_v16 main_v17 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_2 (constant S_ .f32 0x42800000#32),
    unary main_cst_2 main_v18 (broadcastInDim S2048x49x1 ![] bcast_S_S2048x49x1 : (⟨S_, .f32⟩ : BufTy).Contents (Elt F) → (⟨S2048x49x1, .f32⟩ : BufTy).Contents (Elt F)),
    binary main_v17 main_v18 main_v19 (Host.divf : (⟨S2048x49x1, .f32⟩ : BufTy).Contents (Elt F) → (⟨S2048x49x1, .f32⟩ : BufTy).Contents (Elt F) → (⟨S2048x49x1, .f32⟩ : BufTy).Contents (Elt F)),
    unary main_v12 main_v20 (broadcastInDim S2048x49x64 ![0, 1, 2] bcast_S2048x49x1_S2048x49x64_0_1_2 : (⟨S2048x49x1, .f32⟩ : BufTy).Contents (Elt F) → (⟨S2048x49x64, .f32⟩ : BufTy).Contents (Elt F)),
    binary main_v8 main_v20 main_v21 (subf : (⟨S2048x49x64, .f32⟩ : BufTy).Contents (Elt F) → (⟨S2048x49x64, .f32⟩ : BufTy).Contents (Elt F) → (⟨S2048x49x64, .f32⟩ : BufTy).Contents (Elt F)),
    nullary main_cst_3 (constant S_ .f32 0x3727C5AC#32),
    unary main_cst_3 main_v22 (broadcastInDim S2048x49x1 ![] bcast_S_S2048x49x1 : (⟨S_, .f32⟩ : BufTy).Contents (Elt F) → (⟨S2048x49x1, .f32⟩ : BufTy).Contents (Elt F)),
    binary main_v19 main_v22 main_v23 (addf : (⟨S2048x49x1, .f32⟩ : BufTy).Contents (Elt F) → (⟨S2048x49x1, .f32⟩ : BufTy).Contents (Elt F) → (⟨S2048x49x1, .f32⟩ : BufTy).Contents (Elt F)),
    unary main_v23 main_v24 (Host.sqrt : (⟨S2048x49x1, .f32⟩ : BufTy).Contents (Elt F) → (⟨S2048x49x1, .f32⟩ : BufTy).Contents (Elt F)),
    unary main_v24 main_v25 (broadcastInDim S2048x49x64 ![0, 1, 2] bcast_S2048x49x1_S2048x49x64_0_1_2 : (⟨S2048x49x1, .f32⟩ : BufTy).Contents (Elt F) → (⟨S2048x49x64, .f32⟩ : BufTy).Contents (Elt F)),
    binary main_v21 main_v25 main_v26 (Host.divf : (⟨S2048x49x64, .f32⟩ : BufTy).Contents (Elt F) → (⟨S2048x49x64, .f32⟩ : BufTy).Contents (Elt F) → (⟨S2048x49x64, .f32⟩ : BufTy).Contents (Elt F)),
    unary main_arg4 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S2048x49x64 ![0, 1, 2] bcast_S1x1x64_S2048x49x64_0_1_2 : (⟨S1x1x64, .f32⟩ : BufTy).Contents (Elt F) → (⟨S2048x49x64, .f32⟩ : BufTy).Contents (Elt F)),
    binary main_v26 main_v28 main_v29 (mulf : (⟨S2048x49x64, .f32⟩ : BufTy).Contents (Elt F) → (⟨S2048x49x64, .f32⟩ : BufTy).Contents (Elt F) → (⟨S2048x49x64, .f32⟩ : BufTy).Contents (Elt F)),
    unary main_arg5 main_v30 (broadcastInDim S1x1x64 ![2] bcast_S64_S1x1x64_2 : (⟨S64, .f32⟩ : BufTy).Contents (Elt F) → (⟨S1x1x64, .f32⟩ : BufTy).Contents (Elt F)),
    unary main_v30 main_v31 (broadcastInDim S2048x49x64 ![0, 1, 2] bcast_S1x1x64_S2048x49x64_0_1_2 : (⟨S1x1x64, .f32⟩ : BufTy).Contents (Elt F) → (⟨S2048x49x64, .f32⟩ : BufTy).Contents (Elt F)),
    binary main_v29 main_v31 main_v32 (addf : (⟨S2048x49x64, .f32⟩ : BufTy).Contents (Elt F) → (⟨S2048x49x64, .f32⟩ : BufTy).Contents (Elt F) → (⟨S2048x49x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x49x64, .f32⟩) main_call0_v0) (broadcastInDim S2048x49x64 ![] bcast_S_S2048x49x64),
    TRef.binary (TRef.of (T := ⟨S2048x49x64, .f32⟩) main_v32) (TRef.of (T := ⟨S2048x49x64, .f32⟩) main_call0_v0) (TRef.of (T := ⟨S2048x49x64, .f32⟩) main_v33) maximumf ]

/-- Segment 4: the second per-sample product. -/
abbrev seg4 : List (HloOp τ sig (Elt F)) :=
  [ unary main_v5 main_v34 ((extractStridedSlice S2048x16384 ![0, 16384] · slices_S2048x32768_S2048x16384_0_16384) : (⟨S2048x32768, .f32⟩ : BufTy).Contents (Elt F) → (⟨S2048x16384, .f32⟩ : BufTy).Contents (Elt F)),
    reshape main_v34 main_v35 rfl shapeCasts_S2048x16384_S2048x64x256,
    binary main_v33 main_v35 main_v36 ((fun l r => Host.dotGeneral dot_S2048x49x64_S2048x64x256_S2048x49x256_2_1_1_2_0_0 none l r) : (⟨S2048x49x64, .f32⟩ : BufTy).Contents (Elt F) → (⟨S2048x64x256, .f32⟩ : BufTy).Contents (Elt F) → (⟨S2048x49x256, .f32⟩ : BufTy).Contents (Elt F)) ]

/-- Segment 5: the second layer norm, clipped. -/
abbrev seg5 : List (HloOp τ sig (Elt F)) :=
  [ nullary main_cst_4 (constant S_ .f32 0x00000000#32),
    binary main_v36 main_cst_4 main_v37 ((fun x v => Host.reduceAdd x v reducesTo_S2048x49x256_S2048x49_d2 h_S_) : (⟨S2048x49x256, .f32⟩ : BufTy).Contents (Elt F) → (⟨S_, .f32⟩ : BufTy).Contents (Elt F) → (⟨S2048x49, .f32⟩ : BufTy).Contents (Elt F)),
    unary main_v37 main_v38 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_5 (constant S_ .f32 0x43800000#32),
    unary main_cst_5 main_v39 (broadcastInDim S2048x49x1 ![] bcast_S_S2048x49x1 : (⟨S_, .f32⟩ : BufTy).Contents (Elt F) → (⟨S2048x49x1, .f32⟩ : BufTy).Contents (Elt F)),
    binary main_v38 main_v39 main_v40 (Host.divf : (⟨S2048x49x1, .f32⟩ : BufTy).Contents (Elt F) → (⟨S2048x49x1, .f32⟩ : BufTy).Contents (Elt F) → (⟨S2048x49x1, .f32⟩ : BufTy).Contents (Elt F)),
    unary main_v40 main_v41 (broadcastInDim S2048x49x256 ![0, 1, 2] bcast_S2048x49x1_S2048x49x256_0_1_2 : (⟨S2048x49x1, .f32⟩ : BufTy).Contents (Elt F) → (⟨S2048x49x256, .f32⟩ : BufTy).Contents (Elt F)),
    binary main_v36 main_v41 main_v42 (subf : (⟨S2048x49x256, .f32⟩ : BufTy).Contents (Elt F) → (⟨S2048x49x256, .f32⟩ : BufTy).Contents (Elt F) → (⟨S2048x49x256, .f32⟩ : BufTy).Contents (Elt F)),
    binary main_v42 main_v42 main_v43 (mulf : (⟨S2048x49x256, .f32⟩ : BufTy).Contents (Elt F) → (⟨S2048x49x256, .f32⟩ : BufTy).Contents (Elt F) → (⟨S2048x49x256, .f32⟩ : BufTy).Contents (Elt F)),
    nullary main_cst_6 (constant S_ .f32 0x00000000#32),
    binary main_v43 main_cst_6 main_v44 ((fun x v => Host.reduceAdd x v reducesTo_S2048x49x256_S2048x49_d2 h_S_) : (⟨S2048x49x256, .f32⟩ : BufTy).Contents (Elt F) → (⟨S_, .f32⟩ : BufTy).Contents (Elt F) → (⟨S2048x49, .f32⟩ : BufTy).Contents (Elt F)),
    unary main_v44 main_v45 (broadcastInDim S2048x49x1 ![0, 1] bcast_S2048x49_S2048x49x1_0_1 : (⟨S2048x49, .f32⟩ : BufTy).Contents (Elt F) → (⟨S2048x49x1, .f32⟩ : BufTy).Contents (Elt F)),
    nullary main_cst_7 (constant S_ .f32 0x43800000#32),
    unary main_cst_7 main_v46 (broadcastInDim S2048x49x1 ![] bcast_S_S2048x49x1 : (⟨S_, .f32⟩ : BufTy).Contents (Elt F) → (⟨S2048x49x1, .f32⟩ : BufTy).Contents (Elt F)),
    binary main_v45 main_v46 main_v47 (Host.divf : (⟨S2048x49x1, .f32⟩ : BufTy).Contents (Elt F) → (⟨S2048x49x1, .f32⟩ : BufTy).Contents (Elt F) → (⟨S2048x49x1, .f32⟩ : BufTy).Contents (Elt F)),
    unary main_v40 main_v48 (broadcastInDim S2048x49x256 ![0, 1, 2] bcast_S2048x49x1_S2048x49x256_0_1_2 : (⟨S2048x49x1, .f32⟩ : BufTy).Contents (Elt F) → (⟨S2048x49x256, .f32⟩ : BufTy).Contents (Elt F)),
    binary main_v36 main_v48 main_v49 (subf : (⟨S2048x49x256, .f32⟩ : BufTy).Contents (Elt F) → (⟨S2048x49x256, .f32⟩ : BufTy).Contents (Elt F) → (⟨S2048x49x256, .f32⟩ : BufTy).Contents (Elt F)),
    nullary main_cst_8 (constant S_ .f32 0x3727C5AC#32),
    unary main_cst_8 main_v50 (broadcastInDim S2048x49x1 ![] bcast_S_S2048x49x1 : (⟨S_, .f32⟩ : BufTy).Contents (Elt F) → (⟨S2048x49x1, .f32⟩ : BufTy).Contents (Elt F)),
    binary main_v47 main_v50 main_v51 (addf : (⟨S2048x49x1, .f32⟩ : BufTy).Contents (Elt F) → (⟨S2048x49x1, .f32⟩ : BufTy).Contents (Elt F) → (⟨S2048x49x1, .f32⟩ : BufTy).Contents (Elt F)),
    unary main_v51 main_v52 (Host.sqrt : (⟨S2048x49x1, .f32⟩ : BufTy).Contents (Elt F) → (⟨S2048x49x1, .f32⟩ : BufTy).Contents (Elt F)),
    unary main_v52 main_v53 (broadcastInDim S2048x49x256 ![0, 1, 2] bcast_S2048x49x1_S2048x49x256_0_1_2 : (⟨S2048x49x1, .f32⟩ : BufTy).Contents (Elt F) → (⟨S2048x49x256, .f32⟩ : BufTy).Contents (Elt F)),
    binary main_v49 main_v53 main_v54 (Host.divf : (⟨S2048x49x256, .f32⟩ : BufTy).Contents (Elt F) → (⟨S2048x49x256, .f32⟩ : BufTy).Contents (Elt F) → (⟨S2048x49x256, .f32⟩ : BufTy).Contents (Elt F)),
    unary main_arg6 main_v55 (broadcastInDim S1x1x256 ![2] bcast_S256_S1x1x256_2 : (⟨S256, .f32⟩ : BufTy).Contents (Elt F) → (⟨S1x1x256, .f32⟩ : BufTy).Contents (Elt F)),
    unary main_v55 main_v56 (broadcastInDim S2048x49x256 ![0, 1, 2] bcast_S1x1x256_S2048x49x256_0_1_2 : (⟨S1x1x256, .f32⟩ : BufTy).Contents (Elt F) → (⟨S2048x49x256, .f32⟩ : BufTy).Contents (Elt F)),
    binary main_v54 main_v56 main_v57 (mulf : (⟨S2048x49x256, .f32⟩ : BufTy).Contents (Elt F) → (⟨S2048x49x256, .f32⟩ : BufTy).Contents (Elt F) → (⟨S2048x49x256, .f32⟩ : BufTy).Contents (Elt F)),
    unary main_arg7 main_v58 (broadcastInDim S1x1x256 ![2] bcast_S256_S1x1x256_2 : (⟨S256, .f32⟩ : BufTy).Contents (Elt F) → (⟨S1x1x256, .f32⟩ : BufTy).Contents (Elt F)),
    unary main_v58 main_v59 (broadcastInDim S2048x49x256 ![0, 1, 2] bcast_S1x1x256_S2048x49x256_0_1_2 : (⟨S1x1x256, .f32⟩ : BufTy).Contents (Elt F) → (⟨S2048x49x256, .f32⟩ : BufTy).Contents (Elt F)),
    binary main_v57 main_v59 main_v60 (addf : (⟨S2048x49x256, .f32⟩ : BufTy).Contents (Elt F) → (⟨S2048x49x256, .f32⟩ : BufTy).Contents (Elt F) → (⟨S2048x49x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x49x256, .f32⟩) main_call1_v0) (broadcastInDim S2048x49x256 ![] bcast_S_S2048x49x256),
    TRef.binary (TRef.of (T := ⟨S2048x49x256, .f32⟩) main_v60) (TRef.of (T := ⟨S2048x49x256, .f32⟩) main_call1_v0) (TRef.of (T := ⟨S2048x49x256, .f32⟩) main_v61) maximumf ]

/-- Segment 6: the output projection. -/
abbrev seg6 : List (HloOp τ sig (Elt F)) :=
  [ reshape main_v61 main_v62 rfl shapeCasts_S2048x49x256_S2048x12544,
    unary main_arg8 main_v63 ((transpose S12544x256 [1, 0] · transposes_S256x12544_S12544x256_1_0) : (⟨S256x12544, .f32⟩ : BufTy).Contents (Elt F) → (⟨S12544x256, .f32⟩ : BufTy).Contents (Elt F)),
    binary main_v62 main_v63 main_v64 ((fun l r => Host.dotGeneral dot_S2048x12544_S12544x256_S2048x256_1_0_0_1_n_n none l r) : (⟨S2048x12544, .f32⟩ : BufTy).Contents (Elt F) → (⟨S12544x256, .f32⟩ : BufTy).Contents (Elt F) → (⟨S2048x256, .f32⟩ : BufTy).Contents (Elt F)),
    unary main_arg9 main_v65 (broadcastInDim S1x256 ![1] bcast_S256_S1x256_1 : (⟨S256, .f32⟩ : BufTy).Contents (Elt F) → (⟨S1x256, .f32⟩ : BufTy).Contents (Elt F)),
    unary main_v65 main_v66 (broadcastInDim S2048x256 ![0, 1] bcast_S1x256_S2048x256_0_1 : (⟨S1x256, .f32⟩ : BufTy).Contents (Elt F) → (⟨S2048x256, .f32⟩ : BufTy).Contents (Elt F)),
    binary main_v64 main_v66 main_v67 (addf : (⟨S2048x256, .f32⟩ : BufTy).Contents (Elt F) → (⟨S2048x256, .f32⟩ : BufTy).Contents (Elt F) → (⟨S2048x256, .f32⟩ : BufTy).Contents (Elt F)) ]

/-- Segment 7: the third layer norm, clipped, and the residual sum. -/
abbrev seg7 : List (HloOp τ sig (Elt F)) :=
  [ nullary main_cst_9 (constant S_ .f32 0x00000000#32),
    binary main_v67 main_cst_9 main_v68 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v68 main_v69 (broadcastInDim S2048x1 ![0] bcast_S2048_S2048x1_0 : (⟨S2048, .f32⟩ : BufTy).Contents (Elt F) → (⟨S2048x1, .f32⟩ : BufTy).Contents (Elt F)),
    nullary main_cst_10 (constant S_ .f32 0x43800000#32),
    unary main_cst_10 main_v70 (broadcastInDim S2048x1 ![] bcast_S_S2048x1 : (⟨S_, .f32⟩ : BufTy).Contents (Elt F) → (⟨S2048x1, .f32⟩ : BufTy).Contents (Elt F)),
    binary main_v69 main_v70 main_v71 (Host.divf : (⟨S2048x1, .f32⟩ : BufTy).Contents (Elt F) → (⟨S2048x1, .f32⟩ : BufTy).Contents (Elt F) → (⟨S2048x1, .f32⟩ : BufTy).Contents (Elt F)),
    unary main_v71 main_v72 (broadcastInDim S2048x256 ![0, 1] bcast_S2048x1_S2048x256_0_1 : (⟨S2048x1, .f32⟩ : BufTy).Contents (Elt F) → (⟨S2048x256, .f32⟩ : BufTy).Contents (Elt F)),
    binary main_v67 main_v72 main_v73 (subf : (⟨S2048x256, .f32⟩ : BufTy).Contents (Elt F) → (⟨S2048x256, .f32⟩ : BufTy).Contents (Elt F) → (⟨S2048x256, .f32⟩ : BufTy).Contents (Elt F)),
    binary main_v73 main_v73 main_v74 (mulf : (⟨S2048x256, .f32⟩ : BufTy).Contents (Elt F) → (⟨S2048x256, .f32⟩ : BufTy).Contents (Elt F) → (⟨S2048x256, .f32⟩ : BufTy).Contents (Elt F)),
    nullary main_cst_11 (constant S_ .f32 0x00000000#32),
    binary main_v74 main_cst_11 main_v75 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v75 main_v76 (broadcastInDim S2048x1 ![0] bcast_S2048_S2048x1_0 : (⟨S2048, .f32⟩ : BufTy).Contents (Elt F) → (⟨S2048x1, .f32⟩ : BufTy).Contents (Elt F)),
    nullary main_cst_12 (constant S_ .f32 0x43800000#32),
    unary main_cst_12 main_v77 (broadcastInDim S2048x1 ![] bcast_S_S2048x1 : (⟨S_, .f32⟩ : BufTy).Contents (Elt F) → (⟨S2048x1, .f32⟩ : BufTy).Contents (Elt F)),
    binary main_v76 main_v77 main_v78 (Host.divf : (⟨S2048x1, .f32⟩ : BufTy).Contents (Elt F) → (⟨S2048x1, .f32⟩ : BufTy).Contents (Elt F) → (⟨S2048x1, .f32⟩ : BufTy).Contents (Elt F)),
    unary main_v71 main_v79 (broadcastInDim S2048x256 ![0, 1] bcast_S2048x1_S2048x256_0_1 : (⟨S2048x1, .f32⟩ : BufTy).Contents (Elt F) → (⟨S2048x256, .f32⟩ : BufTy).Contents (Elt F)),
    binary main_v67 main_v79 main_v80 (subf : (⟨S2048x256, .f32⟩ : BufTy).Contents (Elt F) → (⟨S2048x256, .f32⟩ : BufTy).Contents (Elt F) → (⟨S2048x256, .f32⟩ : BufTy).Contents (Elt F)),
    nullary main_cst_13 (constant S_ .f32 0x3727C5AC#32),
    unary main_cst_13 main_v81 (broadcastInDim S2048x1 ![] bcast_S_S2048x1 : (⟨S_, .f32⟩ : BufTy).Contents (Elt F) → (⟨S2048x1, .f32⟩ : BufTy).Contents (Elt F)),
    binary main_v78 main_v81 main_v82 (addf : (⟨S2048x1, .f32⟩ : BufTy).Contents (Elt F) → (⟨S2048x1, .f32⟩ : BufTy).Contents (Elt F) → (⟨S2048x1, .f32⟩ : BufTy).Contents (Elt F)),
    unary main_v82 main_v83 (Host.sqrt : (⟨S2048x1, .f32⟩ : BufTy).Contents (Elt F) → (⟨S2048x1, .f32⟩ : BufTy).Contents (Elt F)),
    unary main_v83 main_v84 (broadcastInDim S2048x256 ![0, 1] bcast_S2048x1_S2048x256_0_1 : (⟨S2048x1, .f32⟩ : BufTy).Contents (Elt F) → (⟨S2048x256, .f32⟩ : BufTy).Contents (Elt F)),
    binary main_v80 main_v84 main_v85 (Host.divf : (⟨S2048x256, .f32⟩ : BufTy).Contents (Elt F) → (⟨S2048x256, .f32⟩ : BufTy).Contents (Elt F) → (⟨S2048x256, .f32⟩ : BufTy).Contents (Elt F)),
    unary main_arg10 main_v86 (broadcastInDim S1x256 ![1] bcast_S256_S1x256_1 : (⟨S256, .f32⟩ : BufTy).Contents (Elt F) → (⟨S1x256, .f32⟩ : BufTy).Contents (Elt F)),
    unary main_v86 main_v87 (broadcastInDim S2048x256 ![0, 1] bcast_S1x256_S2048x256_0_1 : (⟨S1x256, .f32⟩ : BufTy).Contents (Elt F) → (⟨S2048x256, .f32⟩ : BufTy).Contents (Elt F)),
    binary main_v85 main_v87 main_v88 (mulf : (⟨S2048x256, .f32⟩ : BufTy).Contents (Elt F) → (⟨S2048x256, .f32⟩ : BufTy).Contents (Elt F) → (⟨S2048x256, .f32⟩ : BufTy).Contents (Elt F)),
    unary main_arg11 main_v89 (broadcastInDim S1x256 ![1] bcast_S256_S1x256_1 : (⟨S256, .f32⟩ : BufTy).Contents (Elt F) → (⟨S1x256, .f32⟩ : BufTy).Contents (Elt F)),
    unary main_v89 main_v90 (broadcastInDim S2048x256 ![0, 1] bcast_S1x256_S2048x256_0_1 : (⟨S1x256, .f32⟩ : BufTy).Contents (Elt F) → (⟨S2048x256, .f32⟩ : BufTy).Contents (Elt F)),
    binary main_v88 main_v90 main_v91 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x256, .f32⟩) main_call2_v0) (broadcastInDim S2048x256 ![] bcast_S_S2048x256),
    TRef.binary (TRef.of (T := ⟨S2048x256, .f32⟩) main_v91) (TRef.of (T := ⟨S2048x256, .f32⟩) main_call2_v0) (TRef.of (T := ⟨S2048x256, .f32⟩) main_v92) maximumf,
    binary main_arg0 main_v92 main_v93 (addf : (⟨S2048x256, .f32⟩ : BufTy).Contents (Elt F) → (⟨S2048x256, .f32⟩ : BufTy).Contents (Elt F) → (⟨S2048x256, .f32⟩ : BufTy).Contents (Elt F)) ]

/-- Segment 8: the last layer norm. -/
abbrev seg8 : List (HloOp τ sig (Elt F)) :=
  [ nullary main_cst_14 (constant S_ .f32 0x00000000#32),
    binary main_v93 main_cst_14 main_v94 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v94 main_v95 (broadcastInDim S2048x1 ![0] bcast_S2048_S2048x1_0 : (⟨S2048, .f32⟩ : BufTy).Contents (Elt F) → (⟨S2048x1, .f32⟩ : BufTy).Contents (Elt F)),
    nullary main_cst_15 (constant S_ .f32 0x43800000#32),
    unary main_cst_15 main_v96 (broadcastInDim S2048x1 ![] bcast_S_S2048x1 : (⟨S_, .f32⟩ : BufTy).Contents (Elt F) → (⟨S2048x1, .f32⟩ : BufTy).Contents (Elt F)),
    binary main_v95 main_v96 main_v97 (Host.divf : (⟨S2048x1, .f32⟩ : BufTy).Contents (Elt F) → (⟨S2048x1, .f32⟩ : BufTy).Contents (Elt F) → (⟨S2048x1, .f32⟩ : BufTy).Contents (Elt F)),
    unary main_v97 main_v98 (broadcastInDim S2048x256 ![0, 1] bcast_S2048x1_S2048x256_0_1 : (⟨S2048x1, .f32⟩ : BufTy).Contents (Elt F) → (⟨S2048x256, .f32⟩ : BufTy).Contents (Elt F)),
    binary main_v93 main_v98 main_v99 (subf : (⟨S2048x256, .f32⟩ : BufTy).Contents (Elt F) → (⟨S2048x256, .f32⟩ : BufTy).Contents (Elt F) → (⟨S2048x256, .f32⟩ : BufTy).Contents (Elt F)),
    binary main_v99 main_v99 main_v100 (mulf : (⟨S2048x256, .f32⟩ : BufTy).Contents (Elt F) → (⟨S2048x256, .f32⟩ : BufTy).Contents (Elt F) → (⟨S2048x256, .f32⟩ : BufTy).Contents (Elt F)),
    nullary main_cst_16 (constant S_ .f32 0x00000000#32),
    binary main_v100 main_cst_16 main_v101 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    unary main_v101 main_v102 (broadcastInDim S2048x1 ![0] bcast_S2048_S2048x1_0 : (⟨S2048, .f32⟩ : BufTy).Contents (Elt F) → (⟨S2048x1, .f32⟩ : BufTy).Contents (Elt F)),
    nullary main_cst_17 (constant S_ .f32 0x43800000#32),
    unary main_cst_17 main_v103 (broadcastInDim S2048x1 ![] bcast_S_S2048x1 : (⟨S_, .f32⟩ : BufTy).Contents (Elt F) → (⟨S2048x1, .f32⟩ : BufTy).Contents (Elt F)),
    binary main_v102 main_v103 main_v104 (Host.divf : (⟨S2048x1, .f32⟩ : BufTy).Contents (Elt F) → (⟨S2048x1, .f32⟩ : BufTy).Contents (Elt F) → (⟨S2048x1, .f32⟩ : BufTy).Contents (Elt F)),
    unary main_v97 main_v105 (broadcastInDim S2048x256 ![0, 1] bcast_S2048x1_S2048x256_0_1 : (⟨S2048x1, .f32⟩ : BufTy).Contents (Elt F) → (⟨S2048x256, .f32⟩ : BufTy).Contents (Elt F)),
    binary main_v93 main_v105 main_v106 (subf : (⟨S2048x256, .f32⟩ : BufTy).Contents (Elt F) → (⟨S2048x256, .f32⟩ : BufTy).Contents (Elt F) → (⟨S2048x256, .f32⟩ : BufTy).Contents (Elt F)),
    nullary main_cst_18 (constant S_ .f32 0x3727C5AC#32),
    unary main_cst_18 main_v107 (broadcastInDim S2048x1 ![] bcast_S_S2048x1 : (⟨S_, .f32⟩ : BufTy).Contents (Elt F) → (⟨S2048x1, .f32⟩ : BufTy).Contents (Elt F)),
    binary main_v104 main_v107 main_v108 (addf : (⟨S2048x1, .f32⟩ : BufTy).Contents (Elt F) → (⟨S2048x1, .f32⟩ : BufTy).Contents (Elt F) → (⟨S2048x1, .f32⟩ : BufTy).Contents (Elt F)),
    unary main_v108 main_v109 (Host.sqrt : (⟨S2048x1, .f32⟩ : BufTy).Contents (Elt F) → (⟨S2048x1, .f32⟩ : BufTy).Contents (Elt F)),
    unary main_v109 main_v110 (broadcastInDim S2048x256 ![0, 1] bcast_S2048x1_S2048x256_0_1 : (⟨S2048x1, .f32⟩ : BufTy).Contents (Elt F) → (⟨S2048x256, .f32⟩ : BufTy).Contents (Elt F)),
    binary main_v106 main_v110 main_v111 (Host.divf : (⟨S2048x256, .f32⟩ : BufTy).Contents (Elt F) → (⟨S2048x256, .f32⟩ : BufTy).Contents (Elt F) → (⟨S2048x256, .f32⟩ : BufTy).Contents (Elt F)),
    unary main_arg12 main_v112 (broadcastInDim S1x256 ![1] bcast_S256_S1x256_1 : (⟨S256, .f32⟩ : BufTy).Contents (Elt F) → (⟨S1x256, .f32⟩ : BufTy).Contents (Elt F)),
    unary main_v112 main_v113 (broadcastInDim S2048x256 ![0, 1] bcast_S1x256_S2048x256_0_1 : (⟨S1x256, .f32⟩ : BufTy).Contents (Elt F) → (⟨S2048x256, .f32⟩ : BufTy).Contents (Elt F)),
    binary main_v111 main_v113 main_v114 (mulf : (⟨S2048x256, .f32⟩ : BufTy).Contents (Elt F) → (⟨S2048x256, .f32⟩ : BufTy).Contents (Elt F) → (⟨S2048x256, .f32⟩ : BufTy).Contents (Elt F)),
    unary main_arg13 main_v115 (broadcastInDim S1x256 ![1] bcast_S256_S1x256_1 : (⟨S256, .f32⟩ : BufTy).Contents (Elt F) → (⟨S1x256, .f32⟩ : BufTy).Contents (Elt F)),
    unary main_v115 main_v116 (broadcastInDim S2048x256 ![0, 1] bcast_S1x256_S2048x256_0_1 : (⟨S1x256, .f32⟩ : BufTy).Contents (Elt F) → (⟨S2048x256, .f32⟩ : BufTy).Contents (Elt F)),
    binary main_v114 main_v116 main_v117 (addf : (⟨S2048x256, .f32⟩ : BufTy).Contents (Elt F) → (⟨S2048x256, .f32⟩ : BufTy).Contents (Elt F) → (⟨S2048x256, .f32⟩ : BufTy).Contents (Elt F)) ]

set_option maxRecDepth 8192 in
/-- The line is its eight segments, one after the other. -/
theorem opsAll_eq : (opsAll : List (HloOp τ sig (Elt F)))
    = seg1 ++ (seg2 ++ (seg3 ++ (seg4 ++ (seg5 ++ (seg6 ++ (seg7 ++ seg8)))))) := rfl

/-- Folding a concatenation is folding its parts in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

section
variable (x0 : (⟨S2048x256, .f32⟩ : BufTy).Contents (Elt Ideal)) (x1 : (⟨S2048x256x49, .f32⟩ : BufTy).Contents (Elt Ideal))
  (x2 : (⟨S32768x256, .f32⟩ : BufTy).Contents (Elt Ideal)) (x3 : (⟨S32768, .f32⟩ : BufTy).Contents (Elt Ideal))
  (x4 x5 : (⟨S64, .f32⟩ : BufTy).Contents (Elt Ideal)) (x6 x7 : (⟨S256, .f32⟩ : BufTy).Contents (Elt Ideal))
  (x8 : (⟨S256x12544, .f32⟩ : BufTy).Contents (Elt Ideal)) (x9 x10 x11 x12 x13 : (⟨S256, .f32⟩ : BufTy).Contents (Elt Ideal))

/-- Segment 1 computes the first projection and the transposed value block from the arguments. -/
theorem seg1_v5 (V : Valuation τ sig (Elt Ideal)) :
    after (seg1 (F := Ideal)) V (Proc.devRef .tc main_v5)
      = val_main_v5 (F := Ideal) (V (Proc.devRef .tc main_arg0)) (V (Proc.devRef .tc main_arg2)) (V (Proc.devRef .tc main_arg3)) := by
  after_results_simp <;> rfl

theorem seg1_v0 (V : Valuation τ sig (Elt Ideal)) :
    after (seg1 (F := Ideal)) V (Proc.devRef .tc main_v0) = val_main_v0 (F := Ideal) (V (Proc.devRef .tc main_arg1)) := by
  after_results_simp <;> rfl

theorem seg2_v8 (V : Valuation τ sig (Elt Ideal))
    (h0 : V (Proc.devRef .tc main_v5) = val_main_v5 (F := Ideal) x0 x2 x3)
    (h1 : V (Proc.devRef .tc main_v0) = val_main_v0 (F := Ideal) x1) :
    after (seg2 (F := Ideal)) V (Proc.devRef .tc main_v8) = val_main_v8 (F := Ideal) x0 x1 x2 x3 := by
  after_results_simp
  rw [h0, h1]
  rfl

theorem seg3_v33 (V : Valuation τ sig (Elt Ideal))
    (h0 : V (Proc.devRef .tc main_v8) = val_main_v8 (F := Ideal) x0 x1 x2 x3)
    (h1 : V (Proc.devRef .tc main_arg4) = x4)
    (h2 : V (Proc.devRef .tc main_arg5) = x5) :
    after (seg3 (F := Ideal)) V (Proc.devRef .tc main_v33) = val_main_v33 (F := Ideal) x0 x1 x2 x3 x4 x5 := by
  after_results_simp
  rw [h0, h1, h2]
  rfl

theorem seg4_v36 (V : Valuation τ sig (Elt Ideal))
    (h0 : V (Proc.devRef .tc main_v5) = val_main_v5 (F := Ideal) x0 x2 x3)
    (h1 : V (Proc.devRef .tc main_v33) = val_main_v33 (F := Ideal) x0 x1 x2 x3 x4 x5) :
    after (seg4 (F := Ideal)) V (Proc.devRef .tc main_v36) = val_main_v36 (F := Ideal) x0 x1 x2 x3 x4 x5 := by
  after_results_simp
  rw [h0, h1]
  rfl

theorem seg5_v61 (V : Valuation τ sig (Elt Ideal))
    (h0 : V (Proc.devRef .tc main_v36) = val_main_v36 (F := Ideal) x0 x1 x2 x3 x4 x5)
    (h1 : V (Proc.devRef .tc main_arg6) = x6)
    (h2 : V (Proc.devRef .tc main_arg7) = x7) :
    after (seg5 (F := Ideal)) V (Proc.devRef .tc main_v61) = val_main_v61 (F := Ideal) x0 x1 x2 x3 x4 x5 x6 x7 := by
  after_results_simp
  rw [h0, h1, h2]
  rfl

theorem seg6_v67 (V : Valuation τ sig (Elt Ideal))
    (h0 : V (Proc.devRef .tc main_v61) = val_main_v61 (F := Ideal) x0 x1 x2 x3 x4 x5 x6 x7)
    (h1 : V (Proc.devRef .tc main_arg8) = x8)
    (h2 : V (Proc.devRef .tc main_arg9) = x9) :
    after (seg6 (F := Ideal)) V (Proc.devRef .tc main_v67) = val_main_v67 (F := Ideal) x0 x1 x2 x3 x4 x5 x6 x7 x8 x9 := by
  after_results_simp
  rw [h0, h1, h2]
  rfl

theorem seg7_v93 (V : Valuation τ sig (Elt Ideal))
    (h0 : V (Proc.devRef .tc main_v67) = val_main_v67 (F := Ideal) x0 x1 x2 x3 x4 x5 x6 x7 x8 x9)
    (h1 : V (Proc.devRef .tc main_arg10) = x10)
    (h2 : V (Proc.devRef .tc main_arg11) = x11)
    (h3 : V (Proc.devRef .tc main_arg0) = x0) :
    after (seg7 (F := Ideal)) V (Proc.devRef .tc main_v93) = val_main_v93 (F := Ideal) x0 x1 x2 x3 x4 x5 x6 x7 x8 x9 x10 x11 := by
  after_results_simp
  rw [h0, h1, h2, h3]
  rfl

theorem seg8_v117 (V : Valuation τ sig (Elt Ideal))
    (h0 : V (Proc.devRef .tc main_v93) = val_main_v93 (F := Ideal) x0 x1 x2 x3 x4 x5 x6 x7 x8 x9 x10 x11)
    (h1 : V (Proc.devRef .tc main_arg12) = x12)
    (h2 : V (Proc.devRef .tc main_arg13) = x13) :
    after (seg8 (F := Ideal)) V (Proc.devRef .tc main_v117) = val_main_v117 (F := Ideal) x0 x1 x2 x3 x4 x5 x6 x7 x8 x9 x10 x11 x12 x13 := by
  after_results_simp
  rw [h0, h1, h2]
  rfl

end

/-! ### What the segments leave alone -/

theorem k1_arg0 (V : Valuation τ sig (Elt Ideal)) : after (seg1 (F := Ideal)) V (Proc.devRef .tc main_arg0) = V (Proc.devRef .tc main_arg0) := by
  after_results_simp
theorem k1_arg1 (V : Valuation τ sig (Elt Ideal)) : after (seg1 (F := Ideal)) V (Proc.devRef .tc main_arg1) = V (Proc.devRef .tc main_arg1) := by
  after_results_simp
theorem k1_arg2 (V : Valuation τ sig (Elt Ideal)) : after (seg1 (F := Ideal)) V (Proc.devRef .tc main_arg2) = V (Proc.devRef .tc main_arg2) := by
  after_results_simp
theorem k1_arg3 (V : Valuation τ sig (Elt Ideal)) : after (seg1 (F := Ideal)) V (Proc.devRef .tc main_arg3) = V (Proc.devRef .tc main_arg3) := by
  after_results_simp
theorem k1_arg4 (V : Valuation τ sig (Elt Ideal)) : after (seg1 (F := Ideal)) V (Proc.devRef .tc main_arg4) = V (Proc.devRef .tc main_arg4) := by
  after_results_simp
theorem k1_arg5 (V : Valuation τ sig (Elt Ideal)) : after (seg1 (F := Ideal)) V (Proc.devRef .tc main_arg5) = V (Proc.devRef .tc main_arg5) := by
  after_results_simp
theorem k1_arg6 (V : Valuation τ sig (Elt Ideal)) : after (seg1 (F := Ideal)) V (Proc.devRef .tc main_arg6) = V (Proc.devRef .tc main_arg6) := by
  after_results_simp
theorem k1_arg7 (V : Valuation τ sig (Elt Ideal)) : after (seg1 (F := Ideal)) V (Proc.devRef .tc main_arg7) = V (Proc.devRef .tc main_arg7) := by
  after_results_simp
theorem k1_arg8 (V : Valuation τ sig (Elt Ideal)) : after (seg1 (F := Ideal)) V (Proc.devRef .tc main_arg8) = V (Proc.devRef .tc main_arg8) := by
  after_results_simp
theorem k1_arg9 (V : Valuation τ sig (Elt Ideal)) : after (seg1 (F := Ideal)) V (Proc.devRef .tc main_arg9) = V (Proc.devRef .tc main_arg9) := by
  after_results_simp
theorem k1_arg10 (V : Valuation τ sig (Elt Ideal)) : after (seg1 (F := Ideal)) V (Proc.devRef .tc main_arg10) = V (Proc.devRef .tc main_arg10) := by
  after_results_simp
theorem k1_arg11 (V : Valuation τ sig (Elt Ideal)) : after (seg1 (F := Ideal)) V (Proc.devRef .tc main_arg11) = V (Proc.devRef .tc main_arg11) := by
  after_results_simp
theorem k1_arg12 (V : Valuation τ sig (Elt Ideal)) : after (seg1 (F := Ideal)) V (Proc.devRef .tc main_arg12) = V (Proc.devRef .tc main_arg12) := by
  after_results_simp
theorem k1_arg13 (V : Valuation τ sig (Elt Ideal)) : after (seg1 (F := Ideal)) V (Proc.devRef .tc main_arg13) = V (Proc.devRef .tc main_arg13) := by
  after_results_simp

theorem k2_arg0 (V : Valuation τ sig (Elt Ideal)) : after (seg2 (F := Ideal)) V (Proc.devRef .tc main_arg0) = V (Proc.devRef .tc main_arg0) := by
  after_results_simp
theorem k2_arg1 (V : Valuation τ sig (Elt Ideal)) : after (seg2 (F := Ideal)) V (Proc.devRef .tc main_arg1) = V (Proc.devRef .tc main_arg1) := by
  after_results_simp
theorem k2_arg2 (V : Valuation τ sig (Elt Ideal)) : after (seg2 (F := Ideal)) V (Proc.devRef .tc main_arg2) = V (Proc.devRef .tc main_arg2) := by
  after_results_simp
theorem k2_arg3 (V : Valuation τ sig (Elt Ideal)) : after (seg2 (F := Ideal)) V (Proc.devRef .tc main_arg3) = V (Proc.devRef .tc main_arg3) := by
  after_results_simp
theorem k2_arg4 (V : Valuation τ sig (Elt Ideal)) : after (seg2 (F := Ideal)) V (Proc.devRef .tc main_arg4) = V (Proc.devRef .tc main_arg4) := by
  after_results_simp
theorem k2_arg5 (V : Valuation τ sig (Elt Ideal)) : after (seg2 (F := Ideal)) V (Proc.devRef .tc main_arg5) = V (Proc.devRef .tc main_arg5) := by
  after_results_simp
theorem k2_arg6 (V : Valuation τ sig (Elt Ideal)) : after (seg2 (F := Ideal)) V (Proc.devRef .tc main_arg6) = V (Proc.devRef .tc main_arg6) := by
  after_results_simp
theorem k2_arg7 (V : Valuation τ sig (Elt Ideal)) : after (seg2 (F := Ideal)) V (Proc.devRef .tc main_arg7) = V (Proc.devRef .tc main_arg7) := by
  after_results_simp
theorem k2_arg8 (V : Valuation τ sig (Elt Ideal)) : after (seg2 (F := Ideal)) V (Proc.devRef .tc main_arg8) = V (Proc.devRef .tc main_arg8) := by
  after_results_simp
theorem k2_arg9 (V : Valuation τ sig (Elt Ideal)) : after (seg2 (F := Ideal)) V (Proc.devRef .tc main_arg9) = V (Proc.devRef .tc main_arg9) := by
  after_results_simp
theorem k2_arg10 (V : Valuation τ sig (Elt Ideal)) : after (seg2 (F := Ideal)) V (Proc.devRef .tc main_arg10) = V (Proc.devRef .tc main_arg10) := by
  after_results_simp
theorem k2_arg11 (V : Valuation τ sig (Elt Ideal)) : after (seg2 (F := Ideal)) V (Proc.devRef .tc main_arg11) = V (Proc.devRef .tc main_arg11) := by
  after_results_simp
theorem k2_arg12 (V : Valuation τ sig (Elt Ideal)) : after (seg2 (F := Ideal)) V (Proc.devRef .tc main_arg12) = V (Proc.devRef .tc main_arg12) := by
  after_results_simp
theorem k2_arg13 (V : Valuation τ sig (Elt Ideal)) : after (seg2 (F := Ideal)) V (Proc.devRef .tc main_arg13) = V (Proc.devRef .tc main_arg13) := by
  after_results_simp
theorem k2_v5 (V : Valuation τ sig (Elt Ideal)) : after (seg2 (F := Ideal)) V (Proc.devRef .tc main_v5) = V (Proc.devRef .tc main_v5) := by
  after_results_simp

theorem k3_arg0 (V : Valuation τ sig (Elt Ideal)) : after (seg3 (F := Ideal)) V (Proc.devRef .tc main_arg0) = V (Proc.devRef .tc main_arg0) := by
  after_results_simp
theorem k3_arg1 (V : Valuation τ sig (Elt Ideal)) : after (seg3 (F := Ideal)) V (Proc.devRef .tc main_arg1) = V (Proc.devRef .tc main_arg1) := by
  after_results_simp
theorem k3_arg2 (V : Valuation τ sig (Elt Ideal)) : after (seg3 (F := Ideal)) V (Proc.devRef .tc main_arg2) = V (Proc.devRef .tc main_arg2) := by
  after_results_simp
theorem k3_arg3 (V : Valuation τ sig (Elt Ideal)) : after (seg3 (F := Ideal)) V (Proc.devRef .tc main_arg3) = V (Proc.devRef .tc main_arg3) := by
  after_results_simp
theorem k3_arg4 (V : Valuation τ sig (Elt Ideal)) : after (seg3 (F := Ideal)) V (Proc.devRef .tc main_arg4) = V (Proc.devRef .tc main_arg4) := by
  after_results_simp
theorem k3_arg5 (V : Valuation τ sig (Elt Ideal)) : after (seg3 (F := Ideal)) V (Proc.devRef .tc main_arg5) = V (Proc.devRef .tc main_arg5) := by
  after_results_simp
theorem k3_arg6 (V : Valuation τ sig (Elt Ideal)) : after (seg3 (F := Ideal)) V (Proc.devRef .tc main_arg6) = V (Proc.devRef .tc main_arg6) := by
  after_results_simp
theorem k3_arg7 (V : Valuation τ sig (Elt Ideal)) : after (seg3 (F := Ideal)) V (Proc.devRef .tc main_arg7) = V (Proc.devRef .tc main_arg7) := by
  after_results_simp
theorem k3_arg8 (V : Valuation τ sig (Elt Ideal)) : after (seg3 (F := Ideal)) V (Proc.devRef .tc main_arg8) = V (Proc.devRef .tc main_arg8) := by
  after_results_simp
theorem k3_arg9 (V : Valuation τ sig (Elt Ideal)) : after (seg3 (F := Ideal)) V (Proc.devRef .tc main_arg9) = V (Proc.devRef .tc main_arg9) := by
  after_results_simp
theorem k3_arg10 (V : Valuation τ sig (Elt Ideal)) : after (seg3 (F := Ideal)) V (Proc.devRef .tc main_arg10) = V (Proc.devRef .tc main_arg10) := by
  after_results_simp
theorem k3_arg11 (V : Valuation τ sig (Elt Ideal)) : after (seg3 (F := Ideal)) V (Proc.devRef .tc main_arg11) = V (Proc.devRef .tc main_arg11) := by
  after_results_simp
theorem k3_arg12 (V : Valuation τ sig (Elt Ideal)) : after (seg3 (F := Ideal)) V (Proc.devRef .tc main_arg12) = V (Proc.devRef .tc main_arg12) := by
  after_results_simp
theorem k3_arg13 (V : Valuation τ sig (Elt Ideal)) : after (seg3 (F := Ideal)) V (Proc.devRef .tc main_arg13) = V (Proc.devRef .tc main_arg13) := by
  after_results_simp
theorem k3_v5 (V : Valuation τ sig (Elt Ideal)) : after (seg3 (F := Ideal)) V (Proc.devRef .tc main_v5) = V (Proc.devRef .tc main_v5) := by
  after_results_simp

theorem k4_arg0 (V : Valuation τ sig (Elt Ideal)) : after (seg4 (F := Ideal)) V (Proc.devRef .tc main_arg0) = V (Proc.devRef .tc main_arg0) := by
  after_results_simp
theorem k4_arg1 (V : Valuation τ sig (Elt Ideal)) : after (seg4 (F := Ideal)) V (Proc.devRef .tc main_arg1) = V (Proc.devRef .tc main_arg1) := by
  after_results_simp
theorem k4_arg2 (V : Valuation τ sig (Elt Ideal)) : after (seg4 (F := Ideal)) V (Proc.devRef .tc main_arg2) = V (Proc.devRef .tc main_arg2) := by
  after_results_simp
theorem k4_arg3 (V : Valuation τ sig (Elt Ideal)) : after (seg4 (F := Ideal)) V (Proc.devRef .tc main_arg3) = V (Proc.devRef .tc main_arg3) := by
  after_results_simp
theorem k4_arg4 (V : Valuation τ sig (Elt Ideal)) : after (seg4 (F := Ideal)) V (Proc.devRef .tc main_arg4) = V (Proc.devRef .tc main_arg4) := by
  after_results_simp
theorem k4_arg5 (V : Valuation τ sig (Elt Ideal)) : after (seg4 (F := Ideal)) V (Proc.devRef .tc main_arg5) = V (Proc.devRef .tc main_arg5) := by
  after_results_simp
theorem k4_arg6 (V : Valuation τ sig (Elt Ideal)) : after (seg4 (F := Ideal)) V (Proc.devRef .tc main_arg6) = V (Proc.devRef .tc main_arg6) := by
  after_results_simp
theorem k4_arg7 (V : Valuation τ sig (Elt Ideal)) : after (seg4 (F := Ideal)) V (Proc.devRef .tc main_arg7) = V (Proc.devRef .tc main_arg7) := by
  after_results_simp
theorem k4_arg8 (V : Valuation τ sig (Elt Ideal)) : after (seg4 (F := Ideal)) V (Proc.devRef .tc main_arg8) = V (Proc.devRef .tc main_arg8) := by
  after_results_simp
theorem k4_arg9 (V : Valuation τ sig (Elt Ideal)) : after (seg4 (F := Ideal)) V (Proc.devRef .tc main_arg9) = V (Proc.devRef .tc main_arg9) := by
  after_results_simp
theorem k4_arg10 (V : Valuation τ sig (Elt Ideal)) : after (seg4 (F := Ideal)) V (Proc.devRef .tc main_arg10) = V (Proc.devRef .tc main_arg10) := by
  after_results_simp
theorem k4_arg11 (V : Valuation τ sig (Elt Ideal)) : after (seg4 (F := Ideal)) V (Proc.devRef .tc main_arg11) = V (Proc.devRef .tc main_arg11) := by
  after_results_simp
theorem k4_arg12 (V : Valuation τ sig (Elt Ideal)) : after (seg4 (F := Ideal)) V (Proc.devRef .tc main_arg12) = V (Proc.devRef .tc main_arg12) := by
  after_results_simp
theorem k4_arg13 (V : Valuation τ sig (Elt Ideal)) : after (seg4 (F := Ideal)) V (Proc.devRef .tc main_arg13) = V (Proc.devRef .tc main_arg13) := by
  after_results_simp

theorem k5_arg0 (V : Valuation τ sig (Elt Ideal)) : after (seg5 (F := Ideal)) V (Proc.devRef .tc main_arg0) = V (Proc.devRef .tc main_arg0) := by
  after_results_simp
theorem k5_arg1 (V : Valuation τ sig (Elt Ideal)) : after (seg5 (F := Ideal)) V (Proc.devRef .tc main_arg1) = V (Proc.devRef .tc main_arg1) := by
  after_results_simp
theorem k5_arg2 (V : Valuation τ sig (Elt Ideal)) : after (seg5 (F := Ideal)) V (Proc.devRef .tc main_arg2) = V (Proc.devRef .tc main_arg2) := by
  after_results_simp
theorem k5_arg3 (V : Valuation τ sig (Elt Ideal)) : after (seg5 (F := Ideal)) V (Proc.devRef .tc main_arg3) = V (Proc.devRef .tc main_arg3) := by
  after_results_simp
theorem k5_arg4 (V : Valuation τ sig (Elt Ideal)) : after (seg5 (F := Ideal)) V (Proc.devRef .tc main_arg4) = V (Proc.devRef .tc main_arg4) := by
  after_results_simp
theorem k5_arg5 (V : Valuation τ sig (Elt Ideal)) : after (seg5 (F := Ideal)) V (Proc.devRef .tc main_arg5) = V (Proc.devRef .tc main_arg5) := by
  after_results_simp
theorem k5_arg6 (V : Valuation τ sig (Elt Ideal)) : after (seg5 (F := Ideal)) V (Proc.devRef .tc main_arg6) = V (Proc.devRef .tc main_arg6) := by
  after_results_simp
theorem k5_arg7 (V : Valuation τ sig (Elt Ideal)) : after (seg5 (F := Ideal)) V (Proc.devRef .tc main_arg7) = V (Proc.devRef .tc main_arg7) := by
  after_results_simp
theorem k5_arg8 (V : Valuation τ sig (Elt Ideal)) : after (seg5 (F := Ideal)) V (Proc.devRef .tc main_arg8) = V (Proc.devRef .tc main_arg8) := by
  after_results_simp
theorem k5_arg9 (V : Valuation τ sig (Elt Ideal)) : after (seg5 (F := Ideal)) V (Proc.devRef .tc main_arg9) = V (Proc.devRef .tc main_arg9) := by
  after_results_simp
theorem k5_arg10 (V : Valuation τ sig (Elt Ideal)) : after (seg5 (F := Ideal)) V (Proc.devRef .tc main_arg10) = V (Proc.devRef .tc main_arg10) := by
  after_results_simp
theorem k5_arg11 (V : Valuation τ sig (Elt Ideal)) : after (seg5 (F := Ideal)) V (Proc.devRef .tc main_arg11) = V (Proc.devRef .tc main_arg11) := by
  after_results_simp
theorem k5_arg12 (V : Valuation τ sig (Elt Ideal)) : after (seg5 (F := Ideal)) V (Proc.devRef .tc main_arg12) = V (Proc.devRef .tc main_arg12) := by
  after_results_simp
theorem k5_arg13 (V : Valuation τ sig (Elt Ideal)) : after (seg5 (F := Ideal)) V (Proc.devRef .tc main_arg13) = V (Proc.devRef .tc main_arg13) := by
  after_results_simp

theorem k6_arg0 (V : Valuation τ sig (Elt Ideal)) : after (seg6 (F := Ideal)) V (Proc.devRef .tc main_arg0) = V (Proc.devRef .tc main_arg0) := by
  after_results_simp
theorem k6_arg1 (V : Valuation τ sig (Elt Ideal)) : after (seg6 (F := Ideal)) V (Proc.devRef .tc main_arg1) = V (Proc.devRef .tc main_arg1) := by
  after_results_simp
theorem k6_arg2 (V : Valuation τ sig (Elt Ideal)) : after (seg6 (F := Ideal)) V (Proc.devRef .tc main_arg2) = V (Proc.devRef .tc main_arg2) := by
  after_results_simp
theorem k6_arg3 (V : Valuation τ sig (Elt Ideal)) : after (seg6 (F := Ideal)) V (Proc.devRef .tc main_arg3) = V (Proc.devRef .tc main_arg3) := by
  after_results_simp
theorem k6_arg4 (V : Valuation τ sig (Elt Ideal)) : after (seg6 (F := Ideal)) V (Proc.devRef .tc main_arg4) = V (Proc.devRef .tc main_arg4) := by
  after_results_simp
theorem k6_arg5 (V : Valuation τ sig (Elt Ideal)) : after (seg6 (F := Ideal)) V (Proc.devRef .tc main_arg5) = V (Proc.devRef .tc main_arg5) := by
  after_results_simp
theorem k6_arg6 (V : Valuation τ sig (Elt Ideal)) : after (seg6 (F := Ideal)) V (Proc.devRef .tc main_arg6) = V (Proc.devRef .tc main_arg6) := by
  after_results_simp
theorem k6_arg7 (V : Valuation τ sig (Elt Ideal)) : after (seg6 (F := Ideal)) V (Proc.devRef .tc main_arg7) = V (Proc.devRef .tc main_arg7) := by
  after_results_simp
theorem k6_arg8 (V : Valuation τ sig (Elt Ideal)) : after (seg6 (F := Ideal)) V (Proc.devRef .tc main_arg8) = V (Proc.devRef .tc main_arg8) := by
  after_results_simp
theorem k6_arg9 (V : Valuation τ sig (Elt Ideal)) : after (seg6 (F := Ideal)) V (Proc.devRef .tc main_arg9) = V (Proc.devRef .tc main_arg9) := by
  after_results_simp
theorem k6_arg10 (V : Valuation τ sig (Elt Ideal)) : after (seg6 (F := Ideal)) V (Proc.devRef .tc main_arg10) = V (Proc.devRef .tc main_arg10) := by
  after_results_simp
theorem k6_arg11 (V : Valuation τ sig (Elt Ideal)) : after (seg6 (F := Ideal)) V (Proc.devRef .tc main_arg11) = V (Proc.devRef .tc main_arg11) := by
  after_results_simp
theorem k6_arg12 (V : Valuation τ sig (Elt Ideal)) : after (seg6 (F := Ideal)) V (Proc.devRef .tc main_arg12) = V (Proc.devRef .tc main_arg12) := by
  after_results_simp
theorem k6_arg13 (V : Valuation τ sig (Elt Ideal)) : after (seg6 (F := Ideal)) V (Proc.devRef .tc main_arg13) = V (Proc.devRef .tc main_arg13) := by
  after_results_simp

theorem k7_arg0 (V : Valuation τ sig (Elt Ideal)) : after (seg7 (F := Ideal)) V (Proc.devRef .tc main_arg0) = V (Proc.devRef .tc main_arg0) := by
  after_results_simp
theorem k7_arg1 (V : Valuation τ sig (Elt Ideal)) : after (seg7 (F := Ideal)) V (Proc.devRef .tc main_arg1) = V (Proc.devRef .tc main_arg1) := by
  after_results_simp
theorem k7_arg2 (V : Valuation τ sig (Elt Ideal)) : after (seg7 (F := Ideal)) V (Proc.devRef .tc main_arg2) = V (Proc.devRef .tc main_arg2) := by
  after_results_simp
theorem k7_arg3 (V : Valuation τ sig (Elt Ideal)) : after (seg7 (F := Ideal)) V (Proc.devRef .tc main_arg3) = V (Proc.devRef .tc main_arg3) := by
  after_results_simp
theorem k7_arg4 (V : Valuation τ sig (Elt Ideal)) : after (seg7 (F := Ideal)) V (Proc.devRef .tc main_arg4) = V (Proc.devRef .tc main_arg4) := by
  after_results_simp
theorem k7_arg5 (V : Valuation τ sig (Elt Ideal)) : after (seg7 (F := Ideal)) V (Proc.devRef .tc main_arg5) = V (Proc.devRef .tc main_arg5) := by
  after_results_simp
theorem k7_arg6 (V : Valuation τ sig (Elt Ideal)) : after (seg7 (F := Ideal)) V (Proc.devRef .tc main_arg6) = V (Proc.devRef .tc main_arg6) := by
  after_results_simp
theorem k7_arg7 (V : Valuation τ sig (Elt Ideal)) : after (seg7 (F := Ideal)) V (Proc.devRef .tc main_arg7) = V (Proc.devRef .tc main_arg7) := by
  after_results_simp
theorem k7_arg8 (V : Valuation τ sig (Elt Ideal)) : after (seg7 (F := Ideal)) V (Proc.devRef .tc main_arg8) = V (Proc.devRef .tc main_arg8) := by
  after_results_simp
theorem k7_arg9 (V : Valuation τ sig (Elt Ideal)) : after (seg7 (F := Ideal)) V (Proc.devRef .tc main_arg9) = V (Proc.devRef .tc main_arg9) := by
  after_results_simp
theorem k7_arg10 (V : Valuation τ sig (Elt Ideal)) : after (seg7 (F := Ideal)) V (Proc.devRef .tc main_arg10) = V (Proc.devRef .tc main_arg10) := by
  after_results_simp
theorem k7_arg11 (V : Valuation τ sig (Elt Ideal)) : after (seg7 (F := Ideal)) V (Proc.devRef .tc main_arg11) = V (Proc.devRef .tc main_arg11) := by
  after_results_simp
theorem k7_arg12 (V : Valuation τ sig (Elt Ideal)) : after (seg7 (F := Ideal)) V (Proc.devRef .tc main_arg12) = V (Proc.devRef .tc main_arg12) := by
  after_results_simp
theorem k7_arg13 (V : Valuation τ sig (Elt Ideal)) : after (seg7 (F := Ideal)) V (Proc.devRef .tc main_arg13) = V (Proc.devRef .tc main_arg13) := by
  after_results_simp

theorem k8_arg0 (V : Valuation τ sig (Elt Ideal)) : after (seg8 (F := Ideal)) V (Proc.devRef .tc main_arg0) = V (Proc.devRef .tc main_arg0) := by
  after_results_simp
theorem k8_arg1 (V : Valuation τ sig (Elt Ideal)) : after (seg8 (F := Ideal)) V (Proc.devRef .tc main_arg1) = V (Proc.devRef .tc main_arg1) := by
  after_results_simp
theorem k8_arg2 (V : Valuation τ sig (Elt Ideal)) : after (seg8 (F := Ideal)) V (Proc.devRef .tc main_arg2) = V (Proc.devRef .tc main_arg2) := by
  after_results_simp
theorem k8_arg3 (V : Valuation τ sig (Elt Ideal)) : after (seg8 (F := Ideal)) V (Proc.devRef .tc main_arg3) = V (Proc.devRef .tc main_arg3) := by
  after_results_simp
theorem k8_arg4 (V : Valuation τ sig (Elt Ideal)) : after (seg8 (F := Ideal)) V (Proc.devRef .tc main_arg4) = V (Proc.devRef .tc main_arg4) := by
  after_results_simp
theorem k8_arg5 (V : Valuation τ sig (Elt Ideal)) : after (seg8 (F := Ideal)) V (Proc.devRef .tc main_arg5) = V (Proc.devRef .tc main_arg5) := by
  after_results_simp
theorem k8_arg6 (V : Valuation τ sig (Elt Ideal)) : after (seg8 (F := Ideal)) V (Proc.devRef .tc main_arg6) = V (Proc.devRef .tc main_arg6) := by
  after_results_simp
theorem k8_arg7 (V : Valuation τ sig (Elt Ideal)) : after (seg8 (F := Ideal)) V (Proc.devRef .tc main_arg7) = V (Proc.devRef .tc main_arg7) := by
  after_results_simp
theorem k8_arg8 (V : Valuation τ sig (Elt Ideal)) : after (seg8 (F := Ideal)) V (Proc.devRef .tc main_arg8) = V (Proc.devRef .tc main_arg8) := by
  after_results_simp
theorem k8_arg9 (V : Valuation τ sig (Elt Ideal)) : after (seg8 (F := Ideal)) V (Proc.devRef .tc main_arg9) = V (Proc.devRef .tc main_arg9) := by
  after_results_simp
theorem k8_arg10 (V : Valuation τ sig (Elt Ideal)) : after (seg8 (F := Ideal)) V (Proc.devRef .tc main_arg10) = V (Proc.devRef .tc main_arg10) := by
  after_results_simp
theorem k8_arg11 (V : Valuation τ sig (Elt Ideal)) : after (seg8 (F := Ideal)) V (Proc.devRef .tc main_arg11) = V (Proc.devRef .tc main_arg11) := by
  after_results_simp
theorem k8_arg12 (V : Valuation τ sig (Elt Ideal)) : after (seg8 (F := Ideal)) V (Proc.devRef .tc main_arg12) = V (Proc.devRef .tc main_arg12) := by
  after_results_simp
theorem k8_arg13 (V : Valuation τ sig (Elt Ideal)) : after (seg8 (F := Ideal)) V (Proc.devRef .tc main_arg13) = V (Proc.devRef .tc main_arg13) := by
  after_results_simp

/-! ### The chain -/

/-- The memory after the first segment, the first two, and so on. -/
def W1 (V : Valuation τ sig (Elt Ideal)) : Valuation τ sig (Elt Ideal) := after (seg1 (F := Ideal)) V
def W2 (V : Valuation τ sig (Elt Ideal)) : Valuation τ sig (Elt Ideal) := after (seg2 (F := Ideal)) (W1 V)
def W3 (V : Valuation τ sig (Elt Ideal)) : Valuation τ sig (Elt Ideal) := after (seg3 (F := Ideal)) (W2 V)
def W4 (V : Valuation τ sig (Elt Ideal)) : Valuation τ sig (Elt Ideal) := after (seg4 (F := Ideal)) (W3 V)
def W5 (V : Valuation τ sig (Elt Ideal)) : Valuation τ sig (Elt Ideal) := after (seg5 (F := Ideal)) (W4 V)
def W6 (V : Valuation τ sig (Elt Ideal)) : Valuation τ sig (Elt Ideal) := after (seg6 (F := Ideal)) (W5 V)
def W7 (V : Valuation τ sig (Elt Ideal)) : Valuation τ sig (Elt Ideal) := after (seg7 (F := Ideal)) (W6 V)
def W8 (V : Valuation τ sig (Elt Ideal)) : Valuation τ sig (Elt Ideal) := after (seg8 (F := Ideal)) (W7 V)

theorem chain (V : Valuation τ sig (Elt Ideal)) :
    W8 V (Proc.devRef .tc main_v117) = val_main_v117 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have f1_v5 : W1 V (Proc.devRef .tc main_v5) = val_main_v5 (F := Ideal) (V (Proc.devRef .tc main_arg0)) (V (Proc.devRef .tc main_arg2)) (V (Proc.devRef .tc main_arg3)) := seg1_v5 V
  have f1_v0 : W1 V (Proc.devRef .tc main_v0) = val_main_v0 (F := Ideal) (V (Proc.devRef .tc main_arg1)) := seg1_v0 V
  have f2_v8 : W2 V (Proc.devRef .tc main_v8) = val_main_v8 (F := Ideal) (V (Proc.devRef .tc main_arg0)) (V (Proc.devRef .tc main_arg1)) (V (Proc.devRef .tc main_arg2)) (V (Proc.devRef .tc main_arg3)) := seg2_v8 _ _ _ _ (W1 V) f1_v5 f1_v0
  have f2_v5 : W2 V (Proc.devRef .tc main_v5) = val_main_v5 (F := Ideal) (V (Proc.devRef .tc main_arg0)) (V (Proc.devRef .tc main_arg2)) (V (Proc.devRef .tc main_arg3)) := (k2_v5 (W1 V)).trans f1_v5
  have f3_v33 : W3 V (Proc.devRef .tc main_v33) = val_main_v33 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    seg3_v33 _ _ _ _ _ _ (W2 V) f2_v8 ((k2_arg4 (W1 V)).trans (k1_arg4 V)) ((k2_arg5 (W1 V)).trans (k1_arg5 V))
  have f3_v5 : W3 V (Proc.devRef .tc main_v5) = val_main_v5 (F := Ideal) (V (Proc.devRef .tc main_arg0)) (V (Proc.devRef .tc main_arg2)) (V (Proc.devRef .tc main_arg3)) := (k3_v5 (W2 V)).trans f2_v5
  have f4_v36 : W4 V (Proc.devRef .tc main_v36) = val_main_v36 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := seg4_v36 _ _ _ _ _ _ (W3 V) f3_v5 f3_v33
  have f5_v61 : W5 V (Proc.devRef .tc main_v61) = val_main_v61 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
    seg5_v61 _ _ _ _ _ _ _ _ (W4 V) f4_v36 ((k4_arg6 (W3 V)).trans ((k3_arg6 (W2 V)).trans ((k2_arg6 (W1 V)).trans (k1_arg6 V)))) ((k4_arg7 (W3 V)).trans ((k3_arg7 (W2 V)).trans ((k2_arg7 (W1 V)).trans (k1_arg7 V))))
  have f6_v67 : W6 V (Proc.devRef .tc main_v67) = val_main_v67 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    seg6_v67 _ _ _ _ _ _ _ _ _ _ (W5 V) f5_v61 ((k5_arg8 (W4 V)).trans ((k4_arg8 (W3 V)).trans ((k3_arg8 (W2 V)).trans ((k2_arg8 (W1 V)).trans (k1_arg8 V))))) ((k5_arg9 (W4 V)).trans ((k4_arg9 (W3 V)).trans ((k3_arg9 (W2 V)).trans ((k2_arg9 (W1 V)).trans (k1_arg9 V)))))
  have f7_v93 : W7 V (Proc.devRef .tc main_v93) = val_main_v93 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
    seg7_v93 _ _ _ _ _ _ _ _ _ _ _ _ (W6 V) f6_v67 ((k6_arg10 (W5 V)).trans ((k5_arg10 (W4 V)).trans ((k4_arg10 (W3 V)).trans ((k3_arg10 (W2 V)).trans ((k2_arg10 (W1 V)).trans (k1_arg10 V)))))) ((k6_arg11 (W5 V)).trans ((k5_arg11 (W4 V)).trans ((k4_arg11 (W3 V)).trans ((k3_arg11 (W2 V)).trans ((k2_arg11 (W1 V)).trans (k1_arg11 V)))))) ((k6_arg0 (W5 V)).trans ((k5_arg0 (W4 V)).trans ((k4_arg0 (W3 V)).trans ((k3_arg0 (W2 V)).trans ((k2_arg0 (W1 V)).trans (k1_arg0 V))))))
  exact seg8_v117 _ _ _ _ _ _ _ _ _ _ _ _ _ _ (W7 V) f7_v93 ((k7_arg12 (W6 V)).trans ((k6_arg12 (W5 V)).trans ((k5_arg12 (W4 V)).trans ((k4_arg12 (W3 V)).trans ((k3_arg12 (W2 V)).trans ((k2_arg12 (W1 V)).trans (k1_arg12 V))))))) ((k7_arg13 (W6 V)).trans ((k6_arg13 (W5 V)).trans ((k5_arg13 (W4 V)).trans ((k4_arg13 (W3 V)).trans ((k3_arg13 (W2 V)).trans ((k2_arg13 (W1 V)).trans (k1_arg13 V)))))))

theorem keep_arg0 (V : Valuation τ sig (Elt Ideal)) : W8 V (Proc.devRef .tc main_arg0) = V (Proc.devRef .tc main_arg0) :=
  (k8_arg0 (W7 V)).trans ((k7_arg0 (W6 V)).trans ((k6_arg0 (W5 V)).trans ((k5_arg0 (W4 V)).trans ((k4_arg0 (W3 V)).trans ((k3_arg0 (W2 V)).trans ((k2_arg0 (W1 V)).trans (k1_arg0 V)))))))
theorem keep_arg1 (V : Valuation τ sig (Elt Ideal)) : W8 V (Proc.devRef .tc main_arg1) = V (Proc.devRef .tc main_arg1) :=
  (k8_arg1 (W7 V)).trans ((k7_arg1 (W6 V)).trans ((k6_arg1 (W5 V)).trans ((k5_arg1 (W4 V)).trans ((k4_arg1 (W3 V)).trans ((k3_arg1 (W2 V)).trans ((k2_arg1 (W1 V)).trans (k1_arg1 V)))))))
theorem keep_arg2 (V : Valuation τ sig (Elt Ideal)) : W8 V (Proc.devRef .tc main_arg2) = V (Proc.devRef .tc main_arg2) :=
  (k8_arg2 (W7 V)).trans ((k7_arg2 (W6 V)).trans ((k6_arg2 (W5 V)).trans ((k5_arg2 (W4 V)).trans ((k4_arg2 (W3 V)).trans ((k3_arg2 (W2 V)).trans ((k2_arg2 (W1 V)).trans (k1_arg2 V)))))))
theorem keep_arg3 (V : Valuation τ sig (Elt Ideal)) : W8 V (Proc.devRef .tc main_arg3) = V (Proc.devRef .tc main_arg3) :=
  (k8_arg3 (W7 V)).trans ((k7_arg3 (W6 V)).trans ((k6_arg3 (W5 V)).trans ((k5_arg3 (W4 V)).trans ((k4_arg3 (W3 V)).trans ((k3_arg3 (W2 V)).trans ((k2_arg3 (W1 V)).trans (k1_arg3 V)))))))
theorem keep_arg4 (V : Valuation τ sig (Elt Ideal)) : W8 V (Proc.devRef .tc main_arg4) = V (Proc.devRef .tc main_arg4) :=
  (k8_arg4 (W7 V)).trans ((k7_arg4 (W6 V)).trans ((k6_arg4 (W5 V)).trans ((k5_arg4 (W4 V)).trans ((k4_arg4 (W3 V)).trans ((k3_arg4 (W2 V)).trans ((k2_arg4 (W1 V)).trans (k1_arg4 V)))))))
theorem keep_arg5 (V : Valuation τ sig (Elt Ideal)) : W8 V (Proc.devRef .tc main_arg5) = V (Proc.devRef .tc main_arg5) :=
  (k8_arg5 (W7 V)).trans ((k7_arg5 (W6 V)).trans ((k6_arg5 (W5 V)).trans ((k5_arg5 (W4 V)).trans ((k4_arg5 (W3 V)).trans ((k3_arg5 (W2 V)).trans ((k2_arg5 (W1 V)).trans (k1_arg5 V)))))))
theorem keep_arg6 (V : Valuation τ sig (Elt Ideal)) : W8 V (Proc.devRef .tc main_arg6) = V (Proc.devRef .tc main_arg6) :=
  (k8_arg6 (W7 V)).trans ((k7_arg6 (W6 V)).trans ((k6_arg6 (W5 V)).trans ((k5_arg6 (W4 V)).trans ((k4_arg6 (W3 V)).trans ((k3_arg6 (W2 V)).trans ((k2_arg6 (W1 V)).trans (k1_arg6 V)))))))
theorem keep_arg7 (V : Valuation τ sig (Elt Ideal)) : W8 V (Proc.devRef .tc main_arg7) = V (Proc.devRef .tc main_arg7) :=
  (k8_arg7 (W7 V)).trans ((k7_arg7 (W6 V)).trans ((k6_arg7 (W5 V)).trans ((k5_arg7 (W4 V)).trans ((k4_arg7 (W3 V)).trans ((k3_arg7 (W2 V)).trans ((k2_arg7 (W1 V)).trans (k1_arg7 V)))))))
theorem keep_arg8 (V : Valuation τ sig (Elt Ideal)) : W8 V (Proc.devRef .tc main_arg8) = V (Proc.devRef .tc main_arg8) :=
  (k8_arg8 (W7 V)).trans ((k7_arg8 (W6 V)).trans ((k6_arg8 (W5 V)).trans ((k5_arg8 (W4 V)).trans ((k4_arg8 (W3 V)).trans ((k3_arg8 (W2 V)).trans ((k2_arg8 (W1 V)).trans (k1_arg8 V)))))))
theorem keep_arg9 (V : Valuation τ sig (Elt Ideal)) : W8 V (Proc.devRef .tc main_arg9) = V (Proc.devRef .tc main_arg9) :=
  (k8_arg9 (W7 V)).trans ((k7_arg9 (W6 V)).trans ((k6_arg9 (W5 V)).trans ((k5_arg9 (W4 V)).trans ((k4_arg9 (W3 V)).trans ((k3_arg9 (W2 V)).trans ((k2_arg9 (W1 V)).trans (k1_arg9 V)))))))
theorem keep_arg10 (V : Valuation τ sig (Elt Ideal)) : W8 V (Proc.devRef .tc main_arg10) = V (Proc.devRef .tc main_arg10) :=
  (k8_arg10 (W7 V)).trans ((k7_arg10 (W6 V)).trans ((k6_arg10 (W5 V)).trans ((k5_arg10 (W4 V)).trans ((k4_arg10 (W3 V)).trans ((k3_arg10 (W2 V)).trans ((k2_arg10 (W1 V)).trans (k1_arg10 V)))))))
theorem keep_arg11 (V : Valuation τ sig (Elt Ideal)) : W8 V (Proc.devRef .tc main_arg11) = V (Proc.devRef .tc main_arg11) :=
  (k8_arg11 (W7 V)).trans ((k7_arg11 (W6 V)).trans ((k6_arg11 (W5 V)).trans ((k5_arg11 (W4 V)).trans ((k4_arg11 (W3 V)).trans ((k3_arg11 (W2 V)).trans ((k2_arg11 (W1 V)).trans (k1_arg11 V)))))))
theorem keep_arg12 (V : Valuation τ sig (Elt Ideal)) : W8 V (Proc.devRef .tc main_arg12) = V (Proc.devRef .tc main_arg12) :=
  (k8_arg12 (W7 V)).trans ((k7_arg12 (W6 V)).trans ((k6_arg12 (W5 V)).trans ((k5_arg12 (W4 V)).trans ((k4_arg12 (W3 V)).trans ((k3_arg12 (W2 V)).trans ((k2_arg12 (W1 V)).trans (k1_arg12 V)))))))
theorem keep_arg13 (V : Valuation τ sig (Elt Ideal)) : W8 V (Proc.devRef .tc main_arg13) = V (Proc.devRef .tc main_arg13) :=
  (k8_arg13 (W7 V)).trans ((k7_arg13 (W6 V)).trans ((k6_arg13 (W5 V)).trans ((k5_arg13 (W4 V)).trans ((k4_arg13 (W3 V)).trans ((k3_arg13 (W2 V)).trans ((k2_arg13 (W1 V)).trans (k1_arg13 V)))))))

/-- Folding the whole line is folding the eight segments in turn. -/
theorem after_opsAll_eq (V : Valuation τ sig (Elt Ideal)) : after (opsAll (F := Ideal)) V = W8 V := by
  rw [opsAll_eq, after_append, after_append, after_append, after_append, after_append, after_append, after_append]
  rfl

set_option maxRecDepth 8192 in
set_option maxHeartbeats 8000000 in
/-- On every device, from any memory with zero counters: every weakly fair execution of the reference
    terminates with the result buffer at the reference's value of the arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v117) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_v117).trans ((congrFun (after_opsAll_eq (launchContents m c)) _).trans (chain (launchContents m c))),
      (h c main_arg0).trans ((congrFun (after_opsAll_eq (launchContents m c)) _).trans (keep_arg0 (launchContents m c))),
      (h c main_arg1).trans ((congrFun (after_opsAll_eq (launchContents m c)) _).trans (keep_arg1 (launchContents m c))),
      (h c main_arg2).trans ((congrFun (after_opsAll_eq (launchContents m c)) _).trans (keep_arg2 (launchContents m c))),
      (h c main_arg3).trans ((congrFun (after_opsAll_eq (launchContents m c)) _).trans (keep_arg3 (launchContents m c))),
      (h c main_arg4).trans ((congrFun (after_opsAll_eq (launchContents m c)) _).trans (keep_arg4 (launchContents m c))),
      (h c main_arg5).trans ((congrFun (after_opsAll_eq (launchContents m c)) _).trans (keep_arg5 (launchContents m c))),
      (h c main_arg6).trans ((congrFun (after_opsAll_eq (launchContents m c)) _).trans (keep_arg6 (launchContents m c))),
      (h c main_arg7).trans ((congrFun (after_opsAll_eq (launchContents m c)) _).trans (keep_arg7 (launchContents m c))),
      (h c main_arg8).trans ((congrFun (after_opsAll_eq (launchContents m c)) _).trans (keep_arg8 (launchContents m c))),
      (h c main_arg9).trans ((congrFun (after_opsAll_eq (launchContents m c)) _).trans (keep_arg9 (launchContents m c))),
      (h c main_arg10).trans ((congrFun (after_opsAll_eq (launchContents m c)) _).trans (keep_arg10 (launchContents m c))),
      (h c main_arg11).trans ((congrFun (after_opsAll_eq (launchContents m c)) _).trans (keep_arg11 (launchContents m c))),
      (h c main_arg12).trans ((congrFun (after_opsAll_eq (launchContents m c)) _).trans (keep_arg12 (launchContents m c))),
      (h c main_arg13).trans ((congrFun (after_opsAll_eq (launchContents m c)) _).trans (keep_arg13 (launchContents m c)))⟩)
    (run_seq scopedRefs_eq scopedSems_eq defs main (fun _ => opsAll) main_eq (fun _ => ops_sub) m ρ)

end Cert.RefRun

end
-- ==== Proof.Spec.lean ====
/-
  The function both programs compute, row by row, on the extended reals.

  For one sample (row `R` of the batch) the network is:
    q      = x · Wqᵀ + bq                                  (32768 numbers)
    t1[k,h] = Σ_v  v[v,k] · q[v·64 + h]                     (49 × 64), layer-normed over h, then max(·, 0)
    t2[k,v] = Σ_h  a1[k,h] · q[16384 + h·256 + v]           (49 × 256), layer-normed over v, then max(·, 0)
    w[d]    = Σ_j  a2[j / 256, j % 256] · Wv[d, j] + bv[d]   (256), layer-normed, then max(·, 0)
    out     = layer norm of (x + that).
  A layer norm of a row `f` of length n (n = 64 or 256, the divisor `c`) is
    (f i − μ) / sqrt (σ² + ε) · g i + b i,   μ = (Σ f) / c,   σ² = (Σ (f − μ)²) / c.
  Nothing here mentions a program: arrays are functions on index tuples.
-/
import Idealize.ShloMosaic.PureOps.Ideal
import Idealize.ShloMosaic.Lib.ValueIdx

noncomputable section

namespace Cert.Spec

open Idealize.ShloMosaic Idealize.ShloMosaic.ValueIdx
open scoped BigOperators

/-- Arrays of rank one, two and three over the extended reals. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- The three float words the programs share: 64, 256 and the variance offset. -/
def c64 : EReal := Ideal.ofBits .f32 0x42800000#32
def c256 : EReal := Ideal.ofBits .f32 0x43800000#32
def eps : EReal := Ideal.ofBits .f32 0x3727C5AC#32

/-- The mean of a row: its sum over the divisor. -/
def mean {n : ℕ} (c : EReal) (f : Fin n → EReal) : EReal := Ideal.div (∑ k, f k) c

/-- The mean of the squared deviations. -/
def var {n : ℕ} (c : EReal) (f : Fin n → EReal) : EReal :=
  Ideal.div (∑ k, (f k - mean c f) * (f k - mean c f)) c

/-- Layer norm of a row, dividing by the square root. -/
def lnR {n : ℕ} (c e : EReal) (f g b : Fin n → EReal) (i : Fin n) : EReal :=
  Ideal.div (f i - mean c f) (Ideal.sqrt (var c f + e)) * g i + b i

/-- Layer norm of a row, multiplying by the reciprocal square root. -/
def lnK {n : ℕ} (c e : EReal) (f g b : Fin n → EReal) (i : Fin n) : EReal :=
  (f i - mean c f) * Ideal.rsqrt (var c f + e) * g i + b i

/-- Position `v·64 + h` of the first half of `q`. -/
def qi1 (v : Fin 256) (h : Fin 64) : Fin 32768 :=
  ⟨v.val * 64 + h.val, by have := v.isLt; have := h.isLt; omega⟩
/-- Position `16384 + h·256 + v` of the second half of `q`. -/
def qi2 (h : Fin 64) (v : Fin 256) : Fin 32768 :=
  ⟨h.val * 256 + v.val + 16384, by have := v.isLt; have := h.isLt; omega⟩
/-- A flat position `j` of the 49 × 256 activations is `(j / 256, j % 256)`. -/
def fk (j : Fin 12544) : Fin 49 := ⟨j.val / 256, by have := j.isLt; omega⟩
def fv (j : Fin 12544) : Fin 256 := ⟨j.val % 256, Nat.mod_lt _ (by decide)⟩

section
variable (x0 : A2 2048 256) (x1 : A3 2048 256 49) (x2 : A2 32768 256) (x3 : A1 32768)
  (x4 x5 : A1 64) (x6 x7 : A1 256) (x8 : A2 256 12544) (x9 x10 x11 x12 x13 : A1 256)

/-- `q = x · Wqᵀ + bq`. -/
def q (R : Fin 2048) (j : Fin 32768) : EReal :=
  (∑ c : Fin 256, x0 (ix2 R c) * x2 (ix2 j c)) + x3 (ix1 j)

/-- The first per-sample product. -/
def t1 (R : Fin 2048) (k : Fin 49) (h : Fin 64) : EReal :=
  ∑ v : Fin 256, x1 (ix3 R v k) * q x0 x2 x3 R (qi1 v h)

/-- Normed over `h` and clipped at zero. -/
def a1 (R : Fin 2048) (k : Fin 49) (h : Fin 64) : EReal :=
  max (lnR c64 eps (t1 x0 x1 x2 x3 R k) (fun i => x4 (ix1 i)) (fun i => x5 (ix1 i)) h) 0

/-- The second per-sample product. -/
def t2 (R : Fin 2048) (k : Fin 49) (v : Fin 256) : EReal :=
  ∑ h : Fin 64, a1 x0 x1 x2 x3 x4 x5 R k h * q x0 x2 x3 R (qi2 h v)

/-- Normed over `v` and clipped at zero. -/
def a2 (R : Fin 2048) (k : Fin 49) (v : Fin 256) : EReal :=
  max (lnR c256 eps (t2 x0 x1 x2 x3 x4 x5 R k) (fun i => x6 (ix1 i)) (fun i => x7 (ix1 i)) v) 0

/-- The output projection of the flattened activations. -/
def w (R : Fin 2048) (d : Fin 256) : EReal :=
  (∑ j : Fin 12544, a2 x0 x1 x2 x3 x4 x5 x6 x7 R (fk j) (fv j) * x8 (ix2 d j)) + x9 (ix1 d)

/-- The residual sum: the input plus the normed, clipped projection. -/
def y (R : Fin 2048) (d : Fin 256) : EReal :=
  x0 (ix2 R d)
    + max (lnR c256 eps (w x0 x1 x2 x3 x4 x5 x6 x7 x8 x9 R) (fun i => x10 (ix1 i)) (fun i => x11 (ix1 i)) d) 0

/-- The result, one row. -/
def out (R : Fin 2048) (d : Fin 256) : EReal :=
  lnR c256 eps (y x0 x1 x2 x3 x4 x5 x6 x7 x8 x9 x10 x11 R) (fun i => x12 (ix1 i)) (fun i => x13 (ix1 i)) d

/-- The result as one array. -/
def G : A2 2048 256 := fun i => out x0 x1 x2 x3 x4 x5 x6 x7 x8 x9 x10 x11 x12 x13 (i 0) (i 1)

end

end Cert.Spec

end
-- ==== Proof.RefSpecA.lean ====
/-
  The reference program, read one operation at a time, is the row-wise specification.
  Each stage lemma reads one named intermediate array of the reference at explicit
  coordinates and identifies it with the corresponding stage of the specification.
  This part: the first projection, the first per-sample product and its layer norm.
-/
import proofs.«141042_j66700842107138_2_alg».proof.Proof.RefReadPatched
import proofs.«141042_j66700842107138_2_alg».proof.Proof.Spec

noncomputable section

namespace Cert.RefSpec

open Cert.ReferenceIdeal Cert.ReferenceIdeal.Gen Cert.ReferenceIdeal.ReadP
open Idealize.ShloMosaic Idealize.ShloMosaic.ValueIdx Idealize.SL.Sem Idealize.ShloMosaic.StableHlo
open scoped BigOperators

section
variable (x0 : (⟨S2048x256, .f32⟩ : BufTy).Contents (Elt Ideal))
  (x1 : (⟨S2048x256x49, .f32⟩ : BufTy).Contents (Elt Ideal))
  (x2 : (⟨S32768x256, .f32⟩ : BufTy).Contents (Elt Ideal))
  (x3 : (⟨S32768, .f32⟩ : BufTy).Contents (Elt Ideal))

/-- The first projection: the product with the transposed weight plus the bias row. -/
theorem v5_eq (R : Fin 2048) (j : Fin 32768) :
    val_main_v5 (F := Ideal) x0 x2 x3 (ix2 R j) = Cert.Spec.q x0 x2 x3 R j := by
  unfold Cert.Spec.q
  rw [val_main_v5_apply, val_main_v2_apply, val_main_v4_apply, val_main_v3_apply]
  show (∑ k : Fin 256, _) + _ = _
  refine congrArg₂ (· + ·) (Finset.sum_congr rfl fun c _ => ?_) ?_
  · rw [val_main_v1_apply]
    refine congrArg₂ (· * ·) (congrArg x0 ?_) (congrArg x2 ?_)
    · funext a; match a with | ⟨0, _⟩ => rfl | ⟨1, _⟩ => rfl
    · funext a; match a with | ⟨0, _⟩ => rfl | ⟨1, _⟩ => rfl
  · refine congrArg x3 ?_
    funext a; match a with | ⟨0, _⟩ => rfl

end

section
variable (x0 : (⟨S2048x256, .f32⟩ : BufTy).Contents (Elt Ideal))
  (x1 : (⟨S2048x256x49, .f32⟩ : BufTy).Contents (Elt Ideal))
  (x2 : (⟨S32768x256, .f32⟩ : BufTy).Contents (Elt Ideal))
  (x3 : (⟨S32768, .f32⟩ : BufTy).Contents (Elt Ideal))

/-- The first per-sample product: the transposed value block against the first half of the
    projection, whose flat position `v·64 + h` the reshape recovers. -/
theorem v8_eq (R : Fin 2048) (k : Fin 49) (h : Fin 64) :
    val_main_v8 (F := Ideal) x0 x1 x2 x3 (ix3 R k h) = Cert.Spec.t1 x0 x1 x2 x3 R k h := by
  unfold Cert.Spec.t1
  rw [val_main_v8_apply]
  refine Finset.sum_congr rfl fun v _ => ?_
  rw [val_main_v0_apply, val_main_v7_apply, val_main_v6_apply]
  have e1 : idx_main_v0 (lidx_main_v8 (ix3 R k h) v) = ix3 R v k := by
    funext a; match a with | ⟨0, _⟩ => rfl | ⟨1, _⟩ => rfl | ⟨2, _⟩ => rfl
  have e2 : idx_main_v6 (idx_main_v7 (ridx_main_v8 (ix3 R k h) v)) = ix2 R (Cert.Spec.qi1 v h) := by
    funext a
    have hR := R.isLt; have hv := v.isLt; have hh := h.isLt
    match a with
    | ⟨0, _⟩ => exact Fin.ext (by show ((R.val * 256 + v.val) * 64 + h.val) / 16384 = R.val; omega)
    | ⟨1, _⟩ => exact Fin.ext (by show ((R.val * 256 + v.val) * 64 + h.val) % 16384 = v.val * 64 + h.val; omega)
  rw [e1, e2, v5_eq]

/-- The row mean of the first product (the sum over the 64 lanes over the divisor). -/
theorem v12_eq (R : Fin 2048) (k : Fin 49) (u : Fin 1) :
    val_main_v12 (F := Ideal) x0 x1 x2 x3 (ix3 R k u)
      = Cert.Spec.mean Cert.Spec.c64 (Cert.Spec.t1 x0 x1 x2 x3 R k) := by
  unfold Cert.Spec.mean
  rw [val_main_v12_apply, val_main_v10_apply, val_main_v11_apply, val_main_v9_apply]
  have hs : (∑ h : Fin 64, val_main_v8 (F := Ideal) x0 x1 x2 x3 (idx_main_v9 (idx_main_v10 (ix3 R k u)) h))
      = ∑ h : Fin 64, Cert.Spec.t1 x0 x1 x2 x3 R k h :=
    Finset.sum_congr rfl fun h _ => by
      have e : idx_main_v9 (idx_main_v10 (ix3 R k u)) h = ix3 R k h := by
        funext a; match a with | ⟨0, _⟩ => rfl | ⟨1, _⟩ => rfl | ⟨2, _⟩ => rfl
      rw [e, v8_eq]
  rw [hs]
  show Ideal.div (Ideal.ofBits .f32 0x00000000#32 + _) _ = _
  rw [Ideal.ofBits_zero_f32, zero_add]
  rfl

/-- The mean squared deviation of the first product. -/
theorem v19_eq (R : Fin 2048) (k : Fin 49) (u : Fin 1) :
    val_main_v19 (F := Ideal) x0 x1 x2 x3 (ix3 R k u)
      = Cert.Spec.var Cert.Spec.c64 (Cert.Spec.t1 x0 x1 x2 x3 R k) := by
  unfold Cert.Spec.var
  rw [val_main_v19_apply, val_main_v17_apply, val_main_v18_apply, val_main_v16_apply]
  have hs : (∑ h : Fin 64, val_main_v15 (F := Ideal) x0 x1 x2 x3 (idx_main_v16 (idx_main_v17 (ix3 R k u)) h))
      = ∑ h : Fin 64, (Cert.Spec.t1 x0 x1 x2 x3 R k h - Cert.Spec.mean Cert.Spec.c64 (Cert.Spec.t1 x0 x1 x2 x3 R k))
          * (Cert.Spec.t1 x0 x1 x2 x3 R k h - Cert.Spec.mean Cert.Spec.c64 (Cert.Spec.t1 x0 x1 x2 x3 R k)) :=
    Finset.sum_congr rfl fun h _ => by
      have e : idx_main_v16 (idx_main_v17 (ix3 R k u)) h = ix3 R k h := by
        funext a; match a with | ⟨0, _⟩ => rfl | ⟨1, _⟩ => rfl | ⟨2, _⟩ => rfl
      have e13 : idx_main_v13 (ix3 R k h) = ix3 R k (⟨0, Nat.one_pos⟩ : Fin 1) := by
        funext a; match a with | ⟨0, _⟩ => rfl | ⟨1, _⟩ => rfl | ⟨2, _⟩ => rfl
      rw [e, val_main_v15_apply, val_main_v14_apply, val_main_v13_apply, e13, v12_eq, v8_eq]
      rfl
  rw [hs]
  show Ideal.div (Ideal.ofBits .f32 0x00000000#32 + _) _ = _
  rw [Ideal.ofBits_zero_f32, zero_add]
  rfl

variable (x4 x5 : (⟨S64, .f32⟩ : BufTy).Contents (Elt Ideal))

/-- The first layer norm, over the 64 lanes, clipped at zero. -/
theorem v33_eq (R : Fin 2048) (k : Fin 49) (h : Fin 64) :
    val_main_v33 (F := Ideal) x0 x1 x2 x3 x4 x5 (ix3 R k h) = Cert.Spec.a1 x0 x1 x2 x3 x4 x5 R k h := by
  unfold Cert.Spec.a1 Cert.Spec.lnR
  rw [val_main_v33_apply, val_main_v32_apply, val_main_v29_apply, val_main_v26_apply, val_main_v21_apply,
    val_main_v20_apply, val_main_v25_apply, val_main_v24_apply, val_main_v23_apply, val_main_v22_apply,
    val_main_v28_apply, val_main_v27_apply, val_main_v31_apply, val_main_v30_apply, val_main_call0_v0_apply]
  have e20 : idx_main_v20 (ix3 R k h) = ix3 R k (⟨0, Nat.one_pos⟩ : Fin 1) := by
    funext a; match a with | ⟨0, _⟩ => rfl | ⟨1, _⟩ => rfl | ⟨2, _⟩ => rfl
  have e25 : idx_main_v25 (ix3 R k h) = ix3 R k (⟨0, Nat.one_pos⟩ : Fin 1) := by
    funext a; match a with | ⟨0, _⟩ => rfl | ⟨1, _⟩ => rfl | ⟨2, _⟩ => rfl
  have e4 : idx_main_v27 (idx_main_v28 (ix3 R k h)) = ix1 h := by
    funext a; match a with | ⟨0, _⟩ => rfl
  have e5 : idx_main_v30 (idx_main_v31 (ix3 R k h)) = ix1 h := by
    funext a; match a with | ⟨0, _⟩ => rfl
  rw [e20, e25, e4, e5, v12_eq, v19_eq, v8_eq]
  show max (Ideal.div (_ - _) (Ideal.sqrt (_ + Ideal.ofBits .f32 0x3727C5AC#32)) * _ + _)
      (Ideal.ofBits .f32 0x00000000#32) = _
  rw [Ideal.ofBits_zero_f32]
  rfl

end

end Cert.RefSpec

end
-- ==== Proof.RefSpecB.lean ====
/-
  The reference program is the row-wise specification, continued:
  the second per-sample product and its layer norm over the 256 lanes.
-/
import proofs.«141042_j66700842107138_2_alg».proof.Proof.RefSpecA

noncomputable section

namespace Cert.RefSpec

open Cert.ReferenceIdeal Cert.ReferenceIdeal.Gen Cert.ReferenceIdeal.ReadP
open Idealize.ShloMosaic Idealize.ShloMosaic.ValueIdx Idealize.SL.Sem Idealize.ShloMosaic.StableHlo
open scoped BigOperators

section
variable (x0 : (⟨S2048x256, .f32⟩ : BufTy).Contents (Elt Ideal))
  (x1 : (⟨S2048x256x49, .f32⟩ : BufTy).Contents (Elt Ideal))
  (x2 : (⟨S32768x256, .f32⟩ : BufTy).Contents (Elt Ideal))
  (x3 : (⟨S32768, .f32⟩ : BufTy).Contents (Elt Ideal))
  (x4 x5 : (⟨S64, .f32⟩ : BufTy).Contents (Elt Ideal))

/-- The second per-sample product: the clipped activations against the second half of the
    projection, whose flat position `16384 + h·256 + v` the slice and the reshape recover. -/
theorem v36_eq (R : Fin 2048) (k : Fin 49) (v : Fin 256) :
    val_main_v36 (F := Ideal) x0 x1 x2 x3 x4 x5 (ix3 R k v) = Cert.Spec.t2 x0 x1 x2 x3 x4 x5 R k v := by
  unfold Cert.Spec.t2
  rw [val_main_v36_apply]
  refine Finset.sum_congr rfl fun h _ => ?_
  rw [val_main_v35_apply, val_main_v34_apply]
  have e1 : lidx_main_v36 (ix3 R k v) h = ix3 R k h := by
    funext a; match a with | ⟨0, _⟩ => rfl | ⟨1, _⟩ => rfl | ⟨2, _⟩ => rfl
  have e2 : idx_main_v34 (idx_main_v35 (ridx_main_v36 (ix3 R k v) h)) = ix2 R (Cert.Spec.qi2 h v) := by
    funext a
    have hR := R.isLt; have hv := v.isLt; have hh := h.isLt
    match a with
    | ⟨0, _⟩ => exact Fin.ext (by show ((R.val * 64 + h.val) * 256 + v.val) / 16384 = R.val; omega)
    | ⟨1, _⟩ => exact Fin.ext (by
        show 16384 + ((R.val * 64 + h.val) * 256 + v.val) % 16384 = h.val * 256 + v.val + 16384; omega)
  rw [e1, e2, v33_eq, v5_eq]

/-- The row mean of the second product (the sum over the 256 lanes over the divisor). -/
theorem v40_eq (R : Fin 2048) (k : Fin 49) (u : Fin 1) :
    val_main_v40 (F := Ideal) x0 x1 x2 x3 x4 x5 (ix3 R k u)
      = Cert.Spec.mean Cert.Spec.c256 (Cert.Spec.t2 x0 x1 x2 x3 x4 x5 R k) := by
  unfold Cert.Spec.mean
  rw [val_main_v40_apply, val_main_v38_apply, val_main_v39_apply, val_main_v37_apply]
  have hs : (∑ h : Fin 256, val_main_v36 (F := Ideal) x0 x1 x2 x3 x4 x5 (idx_main_v37 (idx_main_v38 (ix3 R k u)) h))
      = ∑ h : Fin 256, Cert.Spec.t2 x0 x1 x2 x3 x4 x5 R k h :=
    Finset.sum_congr rfl fun h _ => by
      have e : idx_main_v37 (idx_main_v38 (ix3 R k u)) h = ix3 R k h := by
        funext a; match a with | ⟨0, _⟩ => rfl | ⟨1, _⟩ => rfl | ⟨2, _⟩ => rfl
      rw [e, v36_eq]
  rw [hs]
  show Ideal.div (Ideal.ofBits .f32 0x00000000#32 + _) _ = _
  rw [Ideal.ofBits_zero_f32, zero_add]
  rfl

/-- The mean squared deviation of the second product. -/
theorem v47_eq (R : Fin 2048) (k : Fin 49) (u : Fin 1) :
    val_main_v47 (F := Ideal) x0 x1 x2 x3 x4 x5 (ix3 R k u)
      = Cert.Spec.var Cert.Spec.c256 (Cert.Spec.t2 x0 x1 x2 x3 x4 x5 R k) := by
  unfold Cert.Spec.var
  rw [val_main_v47_apply, val_main_v45_apply, val_main_v46_apply, val_main_v44_apply]
  have hs : (∑ h : Fin 256, val_main_v43 (F := Ideal) x0 x1 x2 x3 x4 x5 (idx_main_v44 (idx_main_v45 (ix3 R k u)) h))
      = ∑ h : Fin 256, (Cert.Spec.t2 x0 x1 x2 x3 x4 x5 R k h - Cert.Spec.mean Cert.Spec.c256 (Cert.Spec.t2 x0 x1 x2 x3 x4 x5 R k))
          * (Cert.Spec.t2 x0 x1 x2 x3 x4 x5 R k h - Cert.Spec.mean Cert.Spec.c256 (Cert.Spec.t2 x0 x1 x2 x3 x4 x5 R k)) :=
    Finset.sum_congr rfl fun h _ => by
      have e : idx_main_v44 (idx_main_v45 (ix3 R k u)) h = ix3 R k h := by
        funext a; match a with | ⟨0, _⟩ => rfl | ⟨1, _⟩ => rfl | ⟨2, _⟩ => rfl
      have e13 : idx_main_v41 (ix3 R k h) = ix3 R k (⟨0, Nat.one_pos⟩ : Fin 1) := by
        funext a; match a with | ⟨0, _⟩ => rfl | ⟨1, _⟩ => rfl | ⟨2, _⟩ => rfl
      rw [e, val_main_v43_apply, val_main_v42_apply, val_main_v41_apply, e13, v40_eq, v36_eq]
      rfl
  rw [hs]
  show Ideal.div (Ideal.ofBits .f32 0x00000000#32 + _) _ = _
  rw [Ideal.ofBits_zero_f32, zero_add]
  rfl

variable (x6 x7 : (⟨S256, .f32⟩ : BufTy).Contents (Elt Ideal))

/-- The second layer norm, over the 256 lanes, clipped at zero. -/
theorem v61_eq (R : Fin 2048) (k : Fin 49) (v : Fin 256) :
    val_main_v61 (F := Ideal) x0 x1 x2 x3 x4 x5 x6 x7 (ix3 R k v) = Cert.Spec.a2 x0 x1 x2 x3 x4 x5 x6 x7 R k v := by
  unfold Cert.Spec.a2 Cert.Spec.lnR
  rw [val_main_v61_apply, val_main_v60_apply, val_main_v57_apply, val_main_v54_apply, val_main_v49_apply,
    val_main_v48_apply, val_main_v53_apply, val_main_v52_apply, val_main_v51_apply, val_main_v50_apply,
    val_main_v56_apply, val_main_v55_apply, val_main_v59_apply, val_main_v58_apply, val_main_call1_v0_apply]
  have e20 : idx_main_v48 (ix3 R k v) = ix3 R k (⟨0, Nat.one_pos⟩ : Fin 1) := by
    funext a; match a with | ⟨0, _⟩ => rfl | ⟨1, _⟩ => rfl | ⟨2, _⟩ => rfl
  have e25 : idx_main_v53 (ix3 R k v) = ix3 R k (⟨0, Nat.one_pos⟩ : Fin 1) := by
    funext a; match a with | ⟨0, _⟩ => rfl | ⟨1, _⟩ => rfl | ⟨2, _⟩ => rfl
  have e4 : idx_main_v55 (idx_main_v56 (ix3 R k v)) = ix1 v := by
    funext a; match a with | ⟨0, _⟩ => rfl
  have e5 : idx_main_v58 (idx_main_v59 (ix3 R k v)) = ix1 v := by
    funext a; match a with | ⟨0, _⟩ => rfl
  rw [e20, e25, e4, e5, v40_eq, v47_eq, v36_eq]
  show max (Ideal.div (_ - _) (Ideal.sqrt (_ + Ideal.ofBits .f32 0x3727C5AC#32)) * _ + _)
      (Ideal.ofBits .f32 0x00000000#32) = _
  rw [Ideal.ofBits_zero_f32]
  rfl

end

end Cert.RefSpec

end
-- ==== Proof.RefSpecC.lean ====
/-
  The reference program is the row-wise specification, continued:
  the output projection, its layer norm and the residual sum.
-/
import proofs.«141042_j66700842107138_2_alg».proof.Proof.RefSpecB

noncomputable section

namespace Cert.RefSpec

open Cert.ReferenceIdeal Cert.ReferenceIdeal.Gen Cert.ReferenceIdeal.ReadP
open Idealize.ShloMosaic Idealize.ShloMosaic.ValueIdx Idealize.SL.Sem Idealize.ShloMosaic.StableHlo
open scoped BigOperators

section
variable (x0 : (⟨S2048x256, .f32⟩ : BufTy).Contents (Elt Ideal))
  (x1 : (⟨S2048x256x49, .f32⟩ : BufTy).Contents (Elt Ideal))
  (x2 : (⟨S32768x256, .f32⟩ : BufTy).Contents (Elt Ideal))
  (x3 : (⟨S32768, .f32⟩ : BufTy).Contents (Elt Ideal))
  (x4 x5 : (⟨S64, .f32⟩ : BufTy).Contents (Elt Ideal))
  (x6 x7 : (⟨S256, .f32⟩ : BufTy).Contents (Elt Ideal))
  (x8 : (⟨S256x12544, .f32⟩ : BufTy).Contents (Elt Ideal))
  (x9 : (⟨S256, .f32⟩ : BufTy).Contents (Elt Ideal))

/-- The output projection: the clipped activations, flattened row-major (position `j` is
    `(j / 256, j % 256)`), against the transposed weight, plus the bias row. -/
theorem v67_eq (R : Fin 2048) (d : Fin 256) :
    val_main_v67 (F := Ideal) x0 x1 x2 x3 x4 x5 x6 x7 x8 x9 (ix2 R d) = Cert.Spec.w x0 x1 x2 x3 x4 x5 x6 x7 x8 x9 R d := by
  unfold Cert.Spec.w
  rw [val_main_v67_apply, val_main_v64_apply, val_main_v66_apply, val_main_v65_apply]
  show (∑ j : Fin 12544, _) + _ = _
  refine congrArg₂ (· + ·) (Finset.sum_congr rfl fun j _ => ?_) ?_
  · rw [val_main_v62_apply, val_main_v63_apply]
    have e1 : idx_main_v62 (lidx_main_v64 (ix2 R d) j) = ix3 R (Cert.Spec.fk j) (Cert.Spec.fv j) := by
      funext a
      have hR := R.isLt; have hj := j.isLt
      match a with
      | ⟨0, _⟩ => exact Fin.ext (by show (R.val * 12544 + j.val) / 12544 = R.val; omega)
      | ⟨1, _⟩ => exact Fin.ext (by show (R.val * 12544 + j.val) / 256 % 49 = j.val / 256; omega)
      | ⟨2, _⟩ => exact Fin.ext (by show (R.val * 12544 + j.val) % 256 = j.val % 256; omega)
    have e2 : idx_main_v63 (ridx_main_v64 (ix2 R d) j) = ix2 d j := by
      funext a; match a with | ⟨0, _⟩ => rfl | ⟨1, _⟩ => rfl
    rw [e1, e2, v61_eq]
  · refine congrArg x9 ?_
    funext a; match a with | ⟨0, _⟩ => rfl

/-- The row mean of the output projection (the sum over the 256 lanes over the divisor). -/
theorem v71_eq (R : Fin 2048) (u : Fin 1) :
    val_main_v71 (F := Ideal) x0 x1 x2 x3 x4 x5 x6 x7 x8 x9 (ix2 R u) = Cert.Spec.mean Cert.Spec.c256 (Cert.Spec.w x0 x1 x2 x3 x4 x5 x6 x7 x8 x9 R) := by
  unfold Cert.Spec.mean
  rw [val_main_v71_apply, val_main_v69_apply, val_main_v70_apply, val_main_v68_apply]
  have hs : (∑ d : Fin 256, val_main_v67 (F := Ideal) x0 x1 x2 x3 x4 x5 x6 x7 x8 x9 (idx_main_v68 (idx_main_v69 (ix2 R u)) d))
      = ∑ d : Fin 256, Cert.Spec.w x0 x1 x2 x3 x4 x5 x6 x7 x8 x9 R d :=
    Finset.sum_congr rfl fun d _ => by
      have e : idx_main_v68 (idx_main_v69 (ix2 R u)) d = ix2 R d := by
        funext a; match a with | ⟨0, _⟩ => rfl | ⟨1, _⟩ => rfl
      rw [e, v67_eq]
  rw [hs]
  show Ideal.div (Ideal.ofBits .f32 0x00000000#32 + _) _ = _
  rw [Ideal.ofBits_zero_f32, zero_add]
  rfl

/-- The mean squared deviation of the output projection. -/
theorem v78_eq (R : Fin 2048) (u : Fin 1) :
    val_main_v78 (F := Ideal) x0 x1 x2 x3 x4 x5 x6 x7 x8 x9 (ix2 R u) = Cert.Spec.var Cert.Spec.c256 (Cert.Spec.w x0 x1 x2 x3 x4 x5 x6 x7 x8 x9 R) := by
  unfold Cert.Spec.var
  rw [val_main_v78_apply, val_main_v76_apply, val_main_v77_apply, val_main_v75_apply]
  have hs : (∑ d : Fin 256, val_main_v74 (F := Ideal) x0 x1 x2 x3 x4 x5 x6 x7 x8 x9 (idx_main_v75 (idx_main_v76 (ix2 R u)) d))
      = ∑ d : Fin 256, (Cert.Spec.w x0 x1 x2 x3 x4 x5 x6 x7 x8 x9 R d - Cert.Spec.mean Cert.Spec.c256 (Cert.Spec.w x0 x1 x2 x3 x4 x5 x6 x7 x8 x9 R))
          * (Cert.Spec.w x0 x1 x2 x3 x4 x5 x6 x7 x8 x9 R d - Cert.Spec.mean Cert.Spec.c256 (Cert.Spec.w x0 x1 x2 x3 x4 x5 x6 x7 x8 x9 R)) :=
    Finset.sum_congr rfl fun d _ => by
      have e : idx_main_v75 (idx_main_v76 (ix2 R u)) d = ix2 R d := by
        funext a; match a with | ⟨0, _⟩ => rfl | ⟨1, _⟩ => rfl
      have e72 : idx_main_v72 (ix2 R d) = ix2 R (⟨0, Nat.one_pos⟩ : Fin 1) := by
        funext a; match a with | ⟨0, _⟩ => rfl | ⟨1, _⟩ => rfl
      rw [e, val_main_v74_apply, val_main_v73_apply, val_main_v72_apply, e72, v71_eq, v67_eq]
      rfl
  rw [hs]
  show Ideal.div (Ideal.ofBits .f32 0x00000000#32 + _) _ = _
  rw [Ideal.ofBits_zero_f32, zero_add]
  rfl

variable (x10 x11 : (⟨S256, .f32⟩ : BufTy).Contents (Elt Ideal))

/-- The third layer norm, clipped at zero. -/
theorem v92_eq (R : Fin 2048) (d : Fin 256) :
    val_main_v92 (F := Ideal) x0 x1 x2 x3 x4 x5 x6 x7 x8 x9 x10 x11 (ix2 R d)
      = max (Cert.Spec.lnR Cert.Spec.c256 Cert.Spec.eps (Cert.Spec.w x0 x1 x2 x3 x4 x5 x6 x7 x8 x9 R)
          (fun i => x10 (ix1 i)) (fun i => x11 (ix1 i)) d) 0 := by
  unfold Cert.Spec.lnR
  rw [val_main_v92_apply, val_main_v91_apply, val_main_v88_apply, val_main_v85_apply, val_main_v80_apply,
    val_main_v79_apply, val_main_v84_apply, val_main_v83_apply, val_main_v82_apply, val_main_v81_apply,
    val_main_v87_apply, val_main_v86_apply, val_main_v90_apply, val_main_v89_apply, val_main_call2_v0_apply]
  have e79 : idx_main_v79 (ix2 R d) = ix2 R (⟨0, Nat.one_pos⟩ : Fin 1) := by
    funext a; match a with | ⟨0, _⟩ => rfl | ⟨1, _⟩ => rfl
  have e84 : idx_main_v84 (ix2 R d) = ix2 R (⟨0, Nat.one_pos⟩ : Fin 1) := by
    funext a; match a with | ⟨0, _⟩ => rfl | ⟨1, _⟩ => rfl
  have e10 : idx_main_v86 (idx_main_v87 (ix2 R d)) = ix1 d := by
    funext a; match a with | ⟨0, _⟩ => rfl
  have e11 : idx_main_v89 (idx_main_v90 (ix2 R d)) = ix1 d := by
    funext a; match a with | ⟨0, _⟩ => rfl
  rw [e79, e84, e10, e11, v71_eq, v78_eq, v67_eq]
  show max (Ideal.div (_ - _) (Ideal.sqrt (_ + Ideal.ofBits .f32 0x3727C5AC#32)) * _ + _)
      (Ideal.ofBits .f32 0x00000000#32) = _
  rw [Ideal.ofBits_zero_f32]
  rfl

/-- The residual sum. -/
theorem v93_eq (R : Fin 2048) (d : Fin 256) :
    val_main_v93 (F := Ideal) x0 x1 x2 x3 x4 x5 x6 x7 x8 x9 x10 x11 (ix2 R d) = Cert.Spec.y x0 x1 x2 x3 x4 x5 x6 x7 x8 x9 x10 x11 R d := by
  unfold Cert.Spec.y
  rw [val_main_v93_apply, v92_eq]
  rfl

end

end Cert.RefSpec

end
-- ==== Proof.RefSpec.lean ====
/-
  The reference program is the row-wise specification: the last layer norm and the whole array.
  (The earlier stages are in the modules this one imports.)
-/
import proofs.«141042_j66700842107138_2_alg».proof.Proof.RefSpecC

noncomputable section

namespace Cert.RefSpec

open Cert.ReferenceIdeal Cert.ReferenceIdeal.Gen Cert.ReferenceIdeal.ReadP
open Idealize.ShloMosaic Idealize.ShloMosaic.ValueIdx Idealize.SL.Sem Idealize.ShloMosaic.StableHlo
open scoped BigOperators

section
variable (x0 : (⟨S2048x256, .f32⟩ : BufTy).Contents (Elt Ideal))
  (x1 : (⟨S2048x256x49, .f32⟩ : BufTy).Contents (Elt Ideal))
  (x2 : (⟨S32768x256, .f32⟩ : BufTy).Contents (Elt Ideal))
  (x3 : (⟨S32768, .f32⟩ : BufTy).Contents (Elt Ideal))
  (x4 x5 : (⟨S64, .f32⟩ : BufTy).Contents (Elt Ideal))
  (x6 x7 : (⟨S256, .f32⟩ : BufTy).Contents (Elt Ideal))
  (x8 : (⟨S256x12544, .f32⟩ : BufTy).Contents (Elt Ideal))
  (x9 : (⟨S256, .f32⟩ : BufTy).Contents (Elt Ideal))
  (x10 x11 : (⟨S256, .f32⟩ : BufTy).Contents (Elt Ideal))

/-- The row mean of the residual sum (the sum over the 256 lanes over the divisor). -/
theorem v97_eq (R : Fin 2048) (u : Fin 1) :
    val_main_v97 (F := Ideal) x0 x1 x2 x3 x4 x5 x6 x7 x8 x9 x10 x11 (ix2 R u) = Cert.Spec.mean Cert.Spec.c256 (Cert.Spec.y x0 x1 x2 x3 x4 x5 x6 x7 x8 x9 x10 x11 R) := by
  unfold Cert.Spec.mean
  rw [val_main_v97_apply, val_main_v95_apply, val_main_v96_apply, val_main_v94_apply]
  have hs : (∑ d : Fin 256, val_main_v93 (F := Ideal) x0 x1 x2 x3 x4 x5 x6 x7 x8 x9 x10 x11 (idx_main_v94 (idx_main_v95 (ix2 R u)) d))
      = ∑ d : Fin 256, Cert.Spec.y x0 x1 x2 x3 x4 x5 x6 x7 x8 x9 x10 x11 R d :=
    Finset.sum_congr rfl fun d _ => by
      have e : idx_main_v94 (idx_main_v95 (ix2 R u)) d = ix2 R d := by
        funext a; match a with | ⟨0, _⟩ => rfl | ⟨1, _⟩ => rfl
      rw [e, v93_eq]
  rw [hs]
  show Ideal.div (Ideal.ofBits .f32 0x00000000#32 + _) _ = _
  rw [Ideal.ofBits_zero_f32, zero_add]
  rfl

/-- The mean squared deviation of the residual sum. -/
theorem v104_eq (R : Fin 2048) (u : Fin 1) :
    val_main_v104 (F := Ideal) x0 x1 x2 x3 x4 x5 x6 x7 x8 x9 x10 x11 (ix2 R u) = Cert.Spec.var Cert.Spec.c256 (Cert.Spec.y x0 x1 x2 x3 x4 x5 x6 x7 x8 x9 x10 x11 R) := by
  unfold Cert.Spec.var
  rw [val_main_v104_apply, val_main_v102_apply, val_main_v103_apply, val_main_v101_apply]
  have hs : (∑ d : Fin 256, val_main_v100 (F := Ideal) x0 x1 x2 x3 x4 x5 x6 x7 x8 x9 x10 x11 (idx_main_v101 (idx_main_v102 (ix2 R u)) d))
      = ∑ d : Fin 256, (Cert.Spec.y x0 x1 x2 x3 x4 x5 x6 x7 x8 x9 x10 x11 R d - Cert.Spec.mean Cert.Spec.c256 (Cert.Spec.y x0 x1 x2 x3 x4 x5 x6 x7 x8 x9 x10 x11 R))
          * (Cert.Spec.y x0 x1 x2 x3 x4 x5 x6 x7 x8 x9 x10 x11 R d - Cert.Spec.mean Cert.Spec.c256 (Cert.Spec.y x0 x1 x2 x3 x4 x5 x6 x7 x8 x9 x10 x11 R)) :=
    Finset.sum_congr rfl fun d _ => by
      have e : idx_main_v101 (idx_main_v102 (ix2 R u)) d = ix2 R d := by
        funext a; match a with | ⟨0, _⟩ => rfl | ⟨1, _⟩ => rfl
      have e72 : idx_main_v98 (ix2 R d) = ix2 R (⟨0, Nat.one_pos⟩ : Fin 1) := by
        funext a; match a with | ⟨0, _⟩ => rfl | ⟨1, _⟩ => rfl
      rw [e, val_main_v100_apply, val_main_v99_apply, val_main_v98_apply, e72, v97_eq, v93_eq]
      rfl
  rw [hs]
  show Ideal.div (Ideal.ofBits .f32 0x00000000#32 + _) _ = _
  rw [Ideal.ofBits_zero_f32, zero_add]
  rfl

variable (x12 x13 : (⟨S256, .f32⟩ : BufTy).Contents (Elt Ideal))

/-- The last layer norm: one row of the result. -/
theorem v117_eq (R : Fin 2048) (d : Fin 256) :
    val_main_v117 (F := Ideal) x0 x1 x2 x3 x4 x5 x6 x7 x8 x9 x10 x11 x12 x13 (ix2 R d) = Cert.Spec.out x0 x1 x2 x3 x4 x5 x6 x7 x8 x9 x10 x11 x12 x13 R d := by
  unfold Cert.Spec.out Cert.Spec.lnR
  rw [val_main_v117_apply, val_main_v114_apply, val_main_v111_apply, val_main_v106_apply,
    val_main_v105_apply, val_main_v110_apply, val_main_v109_apply, val_main_v108_apply, val_main_v107_apply,
    val_main_v113_apply, val_main_v112_apply, val_main_v116_apply, val_main_v115_apply]
  have e105 : idx_main_v105 (ix2 R d) = ix2 R (⟨0, Nat.one_pos⟩ : Fin 1) := by
    funext a; match a with | ⟨0, _⟩ => rfl | ⟨1, _⟩ => rfl
  have e110 : idx_main_v110 (ix2 R d) = ix2 R (⟨0, Nat.one_pos⟩ : Fin 1) := by
    funext a; match a with | ⟨0, _⟩ => rfl | ⟨1, _⟩ => rfl
  have e12 : idx_main_v112 (idx_main_v113 (ix2 R d)) = ix1 d := by
    funext a; match a with | ⟨0, _⟩ => rfl
  have e13 : idx_main_v115 (idx_main_v116 (ix2 R d)) = ix1 d := by
    funext a; match a with | ⟨0, _⟩ => rfl
  rw [e105, e110, e12, e13, v97_eq, v104_eq, v93_eq]
  show Ideal.div (_ - _) (Ideal.sqrt (_ + Ideal.ofBits .f32 0x3727C5AC#32)) * _ + _ = _
  rfl

/-- The reference's result is the specification, as one array. -/
theorem ref_eq :
    val_main_v117 (F := Ideal) x0 x1 x2 x3 x4 x5 x6 x7 x8 x9 x10 x11 x12 x13 = Cert.Spec.G x0 x1 x2 x3 x4 x5 x6 x7 x8 x9 x10 x11 x12 x13 := by
  funext i
  exact (congrArg (val_main_v117 (F := Ideal) x0 x1 x2 x3 x4 x5 x6 x7 x8 x9 x10 x11 x12 x13) (eq_ix2 i)).trans
    (v117_eq x0 x1 x2 x3 x4 x5 x6 x7 x8 x9 x10 x11 x12 x13 (i 0) (i 1))

end

end Cert.RefSpec

end
-- ==== Proof.BlockReads.lean ====
/-
  What the kernel's body reads at grid point `t`: each input window's block, as entries of the argument arrays.
  The point `t` of the 32 handles batch rows `64·t … 64·t + 63`: the windows of the input `x` and of the (flattened)
  input `v` hold those rows; every other window holds a whole array at every point. Three of those arrays are
  written by host operations before the call: the two halves of the first weight matrix, cut, transposed and
  read as bf16 (which changes nothing on the extended reals), the two halves of its bias, the transposed second weight
  matrix, and `v` flattened from [2048, 256, 49] to [2048, 12544].
-/
import proofs.«141042_j66700842107138_2_alg».proof.Proof.Gen.KernelIdeal.Value
import Idealize.ShloMosaic.Lib.StableHlo.Run
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Batch row `64·t + r`: row `r` of the block at point `t`. -/
def rowOf (t : Fin cfg0.N) (r : Fin 64) : Fin 2048 :=
  ⟨t.val * 64 + r.val, by have h : t.val < 32 := t.isLt; have := r.isLt; omega⟩

/-- The printed index maps over the 32 points: the two row-blocked inputs and the output sit at block row `t`,
    every other window at block 0. -/
structure IdxFacts (t : Fin cfg0.N) : Prop where
  w0r : win0_0.index t (0 : Fin 2) = t.val
  w0c : win0_0.index t (1 : Fin 2) = 0
  w1r : win0_1.index t (0 : Fin 2) = t.val
  w1c : win0_1.index t (1 : Fin 2) = 0
  w2r : win0_2.index t (0 : Fin 2) = 0
  w2c : win0_2.index t (1 : Fin 2) = 0
  w3r : win0_3.index t (0 : Fin 2) = 0
  w3c : win0_3.index t (1 : Fin 2) = 0
  w4 : win0_4.index t (0 : Fin 1) = 0
  w5 : win0_5.index t (0 : Fin 1) = 0
  w6 : win0_6.index t (0 : Fin 1) = 0
  w7 : win0_7.index t (0 : Fin 1) = 0
  w8 : win0_8.index t (0 : Fin 1) = 0
  w9 : win0_9.index t (0 : Fin 1) = 0
  w10r : win0_10.index t (0 : Fin 2) = 0
  w10c : win0_10.index t (1 : Fin 2) = 0
  w11 : win0_11.index t (0 : Fin 1) = 0
  w12 : win0_12.index t (0 : Fin 1) = 0
  w13 : win0_13.index t (0 : Fin 1) = 0
  w14 : win0_14.index t (0 : Fin 1) = 0
  w15 : win0_15.index t (0 : Fin 1) = 0
  w16r : win0_16.index t (0 : Fin 2) = t.val
  w16c : win0_16.index t (1 : Fin 2) = 0

theorem idx_facts_all : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 1) = 0 ∧ win0_7.index t (0 : Fin 1) = 0
    ∧ win0_8.index t (0 : Fin 1) = 0 ∧ win0_9.index t (0 : Fin 1) = 0
    ∧ win0_10.index t (0 : Fin 2) = 0 ∧ win0_10.index t (1 : Fin 2) = 0
    ∧ win0_11.index t (0 : Fin 1) = 0 ∧ win0_12.index t (0 : Fin 1) = 0
    ∧ win0_13.index t (0 : Fin 1) = 0 ∧ win0_14.index t (0 : Fin 1) = 0
    ∧ win0_15.index t (0 : Fin 1) = 0
    ∧ win0_16.index t (0 : Fin 2) = t.val ∧ win0_16.index t (1 : Fin 2) = 0 :=
  (by decide +kernel : ∀ t : Fin grid0.N, _)

theorem idx_facts (t : Fin cfg0.N) : IdxFacts t :=
  let ⟨a0, a1, a2, a3, a4, a5, a6, a7, a8, a9, a10, a11, a12, a13, a14, a15, a16, a17, a18, a19, a20, a21, a22⟩ := idx_facts_all t
  ⟨a0, a1, a2, a3, a4, a5, a6, a7, a8, a9, a10, a11, a12, a13, a14, a15, a16, a17, a18, a19, a20, a21, a22⟩

/-! ## The arrays host operations write before the call -/

/-- The first weight matrix's first half, transposed. -/
theorem V_main_v2 (c : Dev nD) : @Eq (S256x16384.Idx → EReal) (V m c main_v2)
    (transpose S256x16384 [1, 0] (extractStridedSlice S16384x256 ![0, 0] (m ((c : Thread nD τ).loc main_arg2)) slices_S32768x256_S16384x256_0_0) transposes_S16384x256_S256x16384_1_0) := by
  dsimp only [Gen.V, Gen.hostOps0]; after_results <;> rfl

/-- Its second half, transposed. -/
theorem V_main_v5 (c : Dev nD) : @Eq (S256x16384.Idx → EReal) (V m c main_v5)
    (transpose S256x16384 [1, 0] (extractStridedSlice S16384x256 ![16384, 0] (m ((c : Thread nD τ).loc main_arg2)) slices_S32768x256_S16384x256_16384_0) transposes_S16384x256_S256x16384_1_0) := by
  dsimp only [Gen.V, Gen.hostOps0]; after_results <;> rfl

/-- The bias's two halves. -/
theorem V_main_v6 (c : Dev nD) : @Eq (S16384.Idx → EReal) (V m c main_v6)
    (extractStridedSlice S16384 ![0] (m ((c : Thread nD τ).loc main_arg3)) slices_S32768_S16384_0) := by
  dsimp only [Gen.V, Gen.hostOps0]; after_results <;> rfl

theorem V_main_v7 (c : Dev nD) : @Eq (S16384.Idx → EReal) (V m c main_v7)
    (extractStridedSlice S16384 ![16384] (m ((c : Thread nD τ).loc main_arg3)) slices_S32768_S16384_16384) := by
  dsimp only [Gen.V, Gen.hostOps0]; after_results <;> rfl

/-- The second weight matrix, transposed. -/
theorem V_main_v9 (c : Dev nD) : @Eq (S12544x256.Idx → EReal) (V m c main_v9)
    (transpose S12544x256 [1, 0] (m ((c : Thread nD τ).loc main_arg8)) transposes_S256x12544_S12544x256_1_0) := by
  dsimp only [Gen.V, Gen.hostOps0]; after_results <;> rfl

/-- The input `v`, flattened. -/
theorem V_main_v10 (c : Dev nD) : @Eq (S2048x12544.Idx → EReal) (V m c main_v10)
    (shapeCast S2048x12544 (m ((c : Thread nD τ).loc main_arg1)) shapeCasts_S2048x256x49_S2048x12544) := by
  dsimp only [Gen.V, Gen.hostOps0]; after_results <;> rfl

/-! ## The blocks -/

/-- Window 0: rows `64·t …` of `x`. -/
theorem blk0 (c : Dev nD) (t : Fin cfg0.N) (r : Fin 64) (d : Fin 256) :
    iblk m c 0 t (ix2 r d) = m ((c : Thread nD τ).loc main_arg0) (ix2 (rowOf t r) d) := by
  show V m c main_arg0 (((cfg0.win 0).blk t).view.emb (ix2 r d)) = _
  rw [V_main_arg0]
  refine congrArg _ (funext fun a => Fin.ext ?_)
  have e := idx_facts t
  match a with
  | ⟨0, _⟩ => show win0_0.index t (0 : Fin 2) * 64 + 1 * r.val = t.val * 64 + r.val; rw [e.w0r]; omega
  | ⟨1, _⟩ => show win0_0.index t (1 : Fin 2) * 256 + 1 * d.val = d.val; rw [e.w0c]; omega

/-- Window 1: rows `64·t …` of the flattened `v`; flat position `j` of a row is entry `(j / 49, j % 49)`. -/
theorem blk1 (c : Dev nD) (t : Fin cfg0.N) (r : Fin 64) (j : Fin 12544) :
    iblk m c 1 t (ix2 r j) = m ((c : Thread nD τ).loc main_arg1) (ix3 (rowOf t r) (⟨j.val / 49, by have := j.isLt; omega⟩ : Fin 256) (⟨j.val % 49, Nat.mod_lt _ (by decide)⟩ : Fin 49)) := by
  show V m c main_v10 (((cfg0.win 1).blk t).view.emb (ix2 r j)) = _
  rw [V_main_v10]
  refine shapeCast_apply _ _ _ _ ?_
  show (S2048x256x49.rowMajor _).val = (S2048x12544.rowMajor _).val
  rw [Shape.rowMajor_val_three, Shape.rowMajor_val_two]
  have e := idx_facts t
  show ((t.val * 64 + r.val) * 256 + j.val / 49) * 49 + j.val % 49 = (win0_1.index t (0 : Fin 2) * 64 + 1 * r.val) * 12544 + (win0_1.index t (1 : Fin 2) * 12544 + 1 * j.val)
  rw [e.w1r, e.w1c]
  have := j.isLt
  omega

/-- Window 2: the first half of the weight matrix, entry `(c', j)` of the block is entry `(j, c')` of the matrix. -/
theorem blk2 (c : Dev nD) (t : Fin cfg0.N) (c' : Fin 256) (j : Fin 16384) :
    iblk m c 2 t (ix2 c' j) = m ((c : Thread nD τ).loc main_arg2) (ix2 (⟨j.val, by have := j.isLt; omega⟩ : Fin 32768) c') := by
  show V m c main_v2 (((cfg0.win 2).blk t).view.emb (ix2 c' j)) = _
  rw [V_main_v2]
  have e := idx_facts t
  have hemb : ((cfg0.win 2).blk t).view.emb (ix2 c' j) = ix2 c' j := by
    funext a; apply Fin.ext
    match a with
    | ⟨0, _⟩ => show win0_2.index t (0 : Fin 2) * 256 + 1 * c'.val = c'.val; rw [e.w2r]; omega
    | ⟨1, _⟩ => show win0_2.index t (1 : Fin 2) * 16384 + 1 * j.val = j.val; rw [e.w2c]; omega
  rw [hemb]
  refine (transpose_apply [1, 0] _ transposes_S16384x256_S256x16384_1_0 (ix2 c' j) (ix2 j c') (fun b => match b with | ⟨0, _⟩ => rfl | ⟨1, _⟩ => rfl)).trans ?_
  exact extractStridedSlice_apply _ _ slices_S32768x256_S16384x256_0_0 (ix2 j c') _ (fun a => match a with | ⟨0, _⟩ => by show j.val = 0 + j.val; omega | ⟨1, _⟩ => by show c'.val = 0 + c'.val; omega)

/-- Window 3: the second half. -/
theorem blk3 (c : Dev nD) (t : Fin cfg0.N) (c' : Fin 256) (j : Fin 16384) :
    iblk m c 3 t (ix2 c' j) = m ((c : Thread nD τ).loc main_arg2) (ix2 (⟨j.val + 16384, by have := j.isLt; omega⟩ : Fin 32768) c') := by
  show V m c main_v5 (((cfg0.win 3).blk t).view.emb (ix2 c' j)) = _
  rw [V_main_v5]
  have e := idx_facts t
  have hemb : ((cfg0.win 3).blk t).view.emb (ix2 c' j) = ix2 c' j := by
    funext a; apply Fin.ext
    match a with
    | ⟨0, _⟩ => show win0_3.index t (0 : Fin 2) * 256 + 1 * c'.val = c'.val; rw [e.w3r]; omega
    | ⟨1, _⟩ => show win0_3.index t (1 : Fin 2) * 16384 + 1 * j.val = j.val; rw [e.w3c]; omega
  rw [hemb]
  refine (transpose_apply [1, 0] _ transposes_S16384x256_S256x16384_1_0 (ix2 c' j) (ix2 j c') (fun b => match b with | ⟨0, _⟩ => rfl | ⟨1, _⟩ => rfl)).trans ?_
  exact extractStridedSlice_apply _ _ slices_S32768x256_S16384x256_16384_0 (ix2 j c') _ (fun a => match a with | ⟨0, _⟩ => by show j.val + 16384 = 16384 + j.val; omega | ⟨1, _⟩ => by show c'.val = 0 + c'.val; omega)

/-- Windows 4 and 5: the two halves of the bias. -/
theorem blk4 (c : Dev nD) (t : Fin cfg0.N) (j : Fin 16384) :
    iblk m c 4 t (ix1 j) = m ((c : Thread nD τ).loc main_arg3) (ix1 (⟨j.val, by have := j.isLt; omega⟩ : Fin 32768)) := by
  show V m c main_v6 (((cfg0.win 4).blk t).view.emb (ix1 j)) = _
  rw [V_main_v6]
  have e := idx_facts t
  have hemb : ((cfg0.win 4).blk t).view.emb (ix1 j) = ix1 j := by
    funext a; apply Fin.ext
    match a with
    | ⟨0, _⟩ => show win0_4.index t (0 : Fin 1) * 16384 + 1 * j.val = j.val; rw [e.w4]; omega
  rw [hemb]
  exact extractStridedSlice_apply _ _ slices_S32768_S16384_0 (ix1 j) _ (fun a => match a with | ⟨0, _⟩ => by show j.val = 0 + j.val; omega)

theorem blk5 (c : Dev nD) (t : Fin cfg0.N) (j : Fin 16384) :
    iblk m c 5 t (ix1 j) = m ((c : Thread nD τ).loc main_arg3) (ix1 (⟨j.val + 16384, by have := j.isLt; omega⟩ : Fin 32768)) := by
  show V m c main_v7 (((cfg0.win 5).blk t).view.emb (ix1 j)) = _
  rw [V_main_v7]
  have e := idx_facts t
  have hemb : ((cfg0.win 5).blk t).view.emb (ix1 j) = ix1 j := by
    funext a; apply Fin.ext
    match a with
    | ⟨0, _⟩ => show win0_5.index t (0 : Fin 1) * 16384 + 1 * j.val = j.val; rw [e.w5]; omega
  rw [hemb]
  exact extractStridedSlice_apply _ _ slices_S32768_S16384_16384 (ix1 j) _ (fun a => match a with | ⟨0, _⟩ => by show j.val + 16384 = 16384 + j.val; omega)

/-- Window 6 holds the whole of `main_arg4` at every point. -/
theorem blk6 (c : Dev nD) (t : Fin cfg0.N) : (iblk m c 6 t : S64.Idx → EReal) = m ((c : Thread nD τ).loc main_arg4) := by
  funext j
  show V m c main_arg4 (((cfg0.win 6).blk t).view.emb j) = _
  rw [V_main_arg4]
  refine congrArg _ (funext fun a => Fin.ext ?_)
  have e := (idx_facts t).w6
  match a with
  | ⟨0, _⟩ => show win0_6.index t (0 : Fin 1) * 64 + 1 * (j 0).val = (j 0).val; rw [e]; omega

/-- Window 7 holds the whole of `main_arg5` at every point. -/
theorem blk7 (c : Dev nD) (t : Fin cfg0.N) : (iblk m c 7 t : S64.Idx → EReal) = m ((c : Thread nD τ).loc main_arg5) := by
  funext j
  show V m c main_arg5 (((cfg0.win 7).blk t).view.emb j) = _
  rw [V_main_arg5]
  refine congrArg _ (funext fun a => Fin.ext ?_)
  have e := (idx_facts t).w7
  match a with
  | ⟨0, _⟩ => show win0_7.index t (0 : Fin 1) * 64 + 1 * (j 0).val = (j 0).val; rw [e]; omega

/-- Window 8 holds the whole of `main_arg6` at every point. -/
theorem blk8 (c : Dev nD) (t : Fin cfg0.N) : (iblk m c 8 t : S256.Idx → EReal) = m ((c : Thread nD τ).loc main_arg6) := by
  funext j
  show V m c main_arg6 (((cfg0.win 8).blk t).view.emb j) = _
  rw [V_main_arg6]
  refine congrArg _ (funext fun a => Fin.ext ?_)
  have e := (idx_facts t).w8
  match a with
  | ⟨0, _⟩ => show win0_8.index t (0 : Fin 1) * 256 + 1 * (j 0).val = (j 0).val; rw [e]; omega

/-- Window 9 holds the whole of `main_arg7` at every point. -/
theorem blk9 (c : Dev nD) (t : Fin cfg0.N) : (iblk m c 9 t : S256.Idx → EReal) = m ((c : Thread nD τ).loc main_arg7) := by
  funext j
  show V m c main_arg7 (((cfg0.win 9).blk t).view.emb j) = _
  rw [V_main_arg7]
  refine congrArg _ (funext fun a => Fin.ext ?_)
  have e := (idx_facts t).w9
  match a with
  | ⟨0, _⟩ => show win0_9.index t (0 : Fin 1) * 256 + 1 * (j 0).val = (j 0).val; rw [e]; omega

/-- Window 10: the second weight matrix, entry `(j, d)` of the block is entry `(d, j)` of the matrix. -/
theorem blk10 (c : Dev nD) (t : Fin cfg0.N) (j : Fin 12544) (d : Fin 256) :
    iblk m c 10 t (ix2 j d) = m ((c : Thread nD τ).loc main_arg8) (ix2 d j) := by
  show V m c main_v9 (((cfg0.win 10).blk t).view.emb (ix2 j d)) = _
  rw [V_main_v9]
  have e := idx_facts t
  have hemb : ((cfg0.win 10).blk t).view.emb (ix2 j d) = ix2 j d := by
    funext a; apply Fin.ext
    match a with
    | ⟨0, _⟩ => show win0_10.index t (0 : Fin 2) * 12544 + 1 * j.val = j.val; rw [e.w10r]; omega
    | ⟨1, _⟩ => show win0_10.index t (1 : Fin 2) * 256 + 1 * d.val = d.val; rw [e.w10c]; omega
  rw [hemb]
  exact transpose_apply [1, 0] _ transposes_S256x12544_S12544x256_1_0 (ix2 j d) (ix2 d j) (fun b => match b with | ⟨0, _⟩ => rfl | ⟨1, _⟩ => rfl)

/-- Window 11 holds the whole of `main_arg9` at every point. -/
theorem blk11 (c : Dev nD) (t : Fin cfg0.N) : (iblk m c 11 t : S256.Idx → EReal) = m ((c : Thread nD τ).loc main_arg9) := by
  funext j
  show V m c main_arg9 (((cfg0.win 11).blk t).view.emb j) = _
  rw [V_main_arg9]
  refine congrArg _ (funext fun a => Fin.ext ?_)
  have e := (idx_facts t).w11
  match a with
  | ⟨0, _⟩ => show win0_11.index t (0 : Fin 1) * 256 + 1 * (j 0).val = (j 0).val; rw [e]; omega

/-- Window 12 holds the whole of `main_arg10` at every point. -/
theorem blk12 (c : Dev nD) (t : Fin cfg0.N) : (iblk m c 12 t : S256.Idx → EReal) = m ((c : Thread nD τ).loc main_arg10) := by
  funext j
  show V m c main_arg10 (((cfg0.win 12).blk t).view.emb j) = _
  rw [V_main_arg10]
  refine congrArg _ (funext fun a => Fin.ext ?_)
  have e := (idx_facts t).w12
  match a with
  | ⟨0, _⟩ => show win0_12.index t (0 : Fin 1) * 256 + 1 * (j 0).val = (j 0).val; rw [e]; omega

/-- Window 13 holds the whole of `main_arg11` at every point. -/
theorem blk13 (c : Dev nD) (t : Fin cfg0.N) : (iblk m c 13 t : S256.Idx → EReal) = m ((c : Thread nD τ).loc main_arg11) := by
  funext j
  show V m c main_arg11 (((cfg0.win 13).blk t).view.emb j) = _
  rw [V_main_arg11]
  refine congrArg _ (funext fun a => Fin.ext ?_)
  have e := (idx_facts t).w13
  match a with
  | ⟨0, _⟩ => show win0_13.index t (0 : Fin 1) * 256 + 1 * (j 0).val = (j 0).val; rw [e]; omega

/-- Window 14 holds the whole of `main_arg12` at every point. -/
theorem blk14 (c : Dev nD) (t : Fin cfg0.N) : (iblk m c 14 t : S256.Idx → EReal) = m ((c : Thread nD τ).loc main_arg12) := by
  funext j
  show V m c main_arg12 (((cfg0.win 14).blk t).view.emb j) = _
  rw [V_main_arg12]
  refine congrArg _ (funext fun a => Fin.ext ?_)
  have e := (idx_facts t).w14
  match a with
  | ⟨0, _⟩ => show win0_14.index t (0 : Fin 1) * 256 + 1 * (j 0).val = (j 0).val; rw [e]; omega

/-- Window 15 holds the whole of `main_arg13` at every point. -/
theorem blk15 (c : Dev nD) (t : Fin cfg0.N) : (iblk m c 15 t : S256.Idx → EReal) = m ((c : Thread nD τ).loc main_arg13) := by
  funext j
  show V m c main_arg13 (((cfg0.win 15).blk t).view.emb j) = _
  rw [V_main_arg13]
  refine congrArg _ (funext fun a => Fin.ext ?_)
  have e := (idx_facts t).w15
  match a with
  | ⟨0, _⟩ => show win0_15.index t (0 : Fin 1) * 256 + 1 * (j 0).val = (j 0).val; rw [e]; omega

end Cert.KernelIdeal.Blocks

end
-- ==== Proof.KernelCover.lean ====
/-
  The output array's blocks tile it.

  The output array has 2048 rows of 256 entries. Grid point `t` of the 32 writes back rows `64·t … 64·t + 63`, all
  256 columns. So entry `(r, d)` of the block at point `t` is entry `(64·t + r, d)` of the array; an index of the
  array lies in point `t`'s block exactly when each coordinate is in the block's range on its axis; and every index
  `(i₀, i₁)` lies in the block of the point `i₀ / 64`, so every entry of the array is written back by some point.
-/
import proofs.«141042_j66700842107138_2_alg».proof.Proof.BlockReads

noncomputable section

namespace Cert.KernelIdeal.Cover

open Cert.KernelIdeal Cert.KernelIdeal.Gen Idealize.ShloMosaic Idealize.ShloMosaic.TcCoe Idealize.SL.Sem Idealize.ShloMosaic.ValueIdx
open Idealize.ShloMosaic.Pipeline (Dat)

/-- Entry `(r, d)` of the output block at point `t` is entry `(64·t + r, d)` of the output array. -/
theorem emb16 (t : Fin cfg0.N) (r : Fin 64) (d : Fin 256) :
    ((cfg0.win 16).blk t).view.emb (ValueIdx.ix2 r d) = ValueIdx.ix2 (Blocks.rowOf t r) d := by
  funext a; apply Fin.ext
  have e := Blocks.idx_facts t
  match a with
  | ⟨0, _⟩ => show win0_16.index t (0 : Fin 2) * 64 + 1 * r.val = t.val * 64 + r.val; rw [e.w16r]; omega
  | ⟨1, _⟩ => show win0_16.index t (1 : Fin 2) * 256 + 1 * d.val = d.val; rw [e.w16c]; omega

/-- An index of the output array is in point `t`'s block iff each coordinate is in the block's range on its axis. -/
theorem mem_blk16 (t : Fin cfg0.N) (i : S2048x256.Idx) :
    i ∈ ((cfg0.win 16).blk t).view.set ↔ ∀ a : Fin 2, win0_16.index t a * S64x256.size a ≤ (i a).val ∧ (i a).val < win0_16.index t a * S64x256.size a + S64x256.size a := by
  show i ∈ ((View.whole main_v11).slice (win0_16.rect t)).set ↔ _
  rw [View.set_slice_whole, Rect.mem_set_unit]
  exact Iff.rfl

/-- Every index of the output array is in the block of a point that writes back: row `i₀` belongs to point `i₀ / 64`. -/
theorem cover16 : ∀ i : S2048x256.Idx, ∃ t : Fin cfg0.N, (cfg0.win 16).flush t = true ∧ i ∈ ((cfg0.win 16).blk t).view.set := by
  intro i
  have hi0 : (i 0).val < 2048 := (i 0).isLt
  have hi1 : (i 1).val < 256 := (i 1).isLt
  obtain ⟨t, ht⟩ : ∃ t : Fin cfg0.N, t.val = (i 0).val / 64 :=
    ⟨⟨(i 0).val / 64, (show (i 0).val / 64 < 32 by omega)⟩, rfl⟩
  refine ⟨t, flush0_16 t, ?_⟩
  rw [mem_blk16]
  have e := Blocks.idx_facts t
  intro a
  match a with
  | ⟨0, _⟩ =>
    show win0_16.index t (0 : Fin 2) * 64 ≤ (i 0).val ∧ (i 0).val < win0_16.index t (0 : Fin 2) * 64 + 64
    rw [e.w16r]; omega
  | ⟨1, _⟩ =>
    show win0_16.index t (1 : Fin 2) * 256 ≤ (i 1).val ∧ (i 1).val < win0_16.index t (1 : Fin 2) * 256 + 256
    rw [e.w16c]; omega

/-- So when every point writes back its block of one function `G` of the array's indices, the output array ends
    holding `G`. -/
theorem arrAt16_eq_of_flushed (m : (ℓ : Loc nD τ sig) → Buf (Elt Ideal) ℓ) (c : Dev nD) (G : S2048x256.Idx → EReal)
    (hG : ∀ t, (cfg0.win 16).flush t = true → (dats m 0 c).flushed 16 t = ((cfg0.win 16).blk t).view.read (Elt Ideal) G) :
    (dats m 0 c).arrAt 16 cfg0.N = G :=
  (dats m 0 c).arrAt_eq_of_cover 16 G hG cover16

end Cert.KernelIdeal.Cover

end
-- ==== Proof.KStages.lean ====
/-
  The kernel body's arithmetic, cut into its stages. Each definition below is a consecutive run of the body's
  vector operations, over the values it reads; the body's payloads are compositions of these (by unfolding).
  The stages: the two projections `x · W + b` (a product into a zero accumulator plus a bias row), the two
  per-sample products (batched over the 64 rows of a block), three layer norms with their clip at zero, the
  flattening, the output projection, and the residual sum.
-/
import proofs.«141042_j66700842107138_2_alg».proof.Proof.Gen.KernelIdeal.Skeleton
import Idealize.ShloMosaic.PureOps.Ideal
import Idealize.ShloMosaic.Lib.ValueIdx

noncomputable section

namespace Cert.Bridge

open Idealize.ShloMosaic Cert.KernelIdeal Cert.KernelIdeal.Gen

/-- `x · W + b` for a block of 64 rows: 256 inputs, 16384 outputs. -/
def kAffQ (x : FVec Ideal S64x256 .f32) (v2 : Vec Ideal S256x16384 .bf16) (v5 : Vec Ideal S16384 .f32) : FVec Ideal S64x16384 .f32 :=
  have v3 : FVec Ideal S256x16384 .bf16 := shapeCast S256x16384 v2 shapeCasts_S256x16384_S256x16384
  have cst : FVec Ideal S64x16384 .f32 := constant S64x16384 .f32 0x00000000#32
  have v4 : FVec Ideal S64x16384 .f32 := matmul dot_S64x256_S256x16384_S64x16384_1_0_0_1_n_n none (truncf .bf16 x bitsLt_bf16_f32) v3 cst
  have v6 : FVec Ideal S16384 .f32 := shapeCast S16384 v5 shapeCasts_S16384_S16384
  have v7 : FVec Ideal S1x16384 .f32 := shapeCast S1x16384 v6 shapeCasts_S16384_S1x16384
  have v8 : FVec Ideal S64x16384 .f32 := broadcastTo S64x16384 v7 broadcasts_S1x16384_S64x16384
  have v9 : FVec Ideal S64x16384 .f32 := addf v4 v8
  v9

/-- The first per-sample product: for each row `n` of the block, `Σ_v v[n,v,k] · q[n, v·64+h]`. -/
def kT1 (v9 : FVec Ideal S64x16384 .f32) (v12 : Vec Ideal S64x12544 .f32) : FVec Ideal S64x49x64 .f32 :=
  have v10 : FVec Ideal S64x256x64 .f32 := shapeCast S64x256x64 v9 shapeCasts_S64x16384_S64x256x64
  have v11 : FVec Ideal S64x256x64 .bf16 := truncf .bf16 v10 bitsLt_bf16_f32
  have v13 : FVec Ideal S64x12544 .f32 := shapeCast S64x12544 v12 shapeCasts_S64x12544_S64x12544
  have v14 : FVec Ideal S64x256x49 .f32 := shapeCast S64x256x49 v13 shapeCasts_S64x12544_S64x256x49
  have v15 : FVec Ideal S64x256x49 .bf16 := truncf .bf16 v14 bitsLt_bf16_f32
  have cst_6 : FVec Ideal S64x49x64 .f32 := constant S64x49x64 .f32 0x00000000#32
  have v16 : FVec Ideal S64x49x64 .f32 := matmul dot_S64x256x49_S64x256x64_S64x49x64_1_1_2_2_0_0 none v15 v11 cst_6
  v16

/-- Layer norm over the last axis (length 64) of a 64 × 49 × 64 stack. -/
def kLN0 (v16 : FVec Ideal S64x49x64 .f32) (v17 : Vec Ideal S64 .f32) (v18 : Vec Ideal S64 .f32) : FVec Ideal S64x49x64 .f32 :=
  have v19 : FVec Ideal S64x49 .f32 := multiReduction .add [2] S64x49 v16 0x00000000#32 reduces_S64x49x64_S64x49 (.inl rfl) rfl
  have v20 : FVec Ideal S64x49x1 .f32 := shapeCast S64x49x1 v19 shapeCasts_S64x49_S64x49x1
  have cst_10 : Ideal .f32 := Scalar.ofBits .f32 0x42800000#32
  have v21 : FVec Ideal S64x49x1 .f32 := broadcast S64x49x1 cst_10
  have v22 : FVec Ideal S64x49x1 .f32 := divf v20 v21
  have v23 : FVec Ideal S64x49x64 .f32 := broadcastTo S64x49x64 v22 broadcasts_S64x49x1_S64x49x64
  have v24 : FVec Ideal S64x49x64 .f32 := subf v16 v23
  have v25 : FVec Ideal S64x49x64 .f32 := mulf v24 v24
  have v26 : FVec Ideal S64x49 .f32 := multiReduction .add [2] S64x49 v25 0x00000000#32 reduces_S64x49x64_S64x49 (.inl rfl) rfl
  have v27 : FVec Ideal S64x49x1 .f32 := shapeCast S64x49x1 v26 shapeCasts_S64x49_S64x49x1
  have cst_12 : Ideal .f32 := Scalar.ofBits .f32 0x42800000#32
  have v28 : FVec Ideal S64x49x1 .f32 := broadcast S64x49x1 cst_12
  have v29 : FVec Ideal S64x49x1 .f32 := divf v27 v28
  have v30 : FVec Ideal S64x49x64 .f32 := broadcastTo S64x49x64 v22 broadcasts_S64x49x1_S64x49x64
  have v31 : FVec Ideal S64x49x64 .f32 := subf v16 v30
  have cst_13 : Ideal .f32 := Scalar.ofBits .f32 0x3727C5AC#32
  have v32 : FVec Ideal S64x49x1 .f32 := broadcast S64x49x1 cst_13
  have v33 : FVec Ideal S64x49x1 .f32 := addf v29 v32
  have v34 : FVec Ideal S64x49x1 .f32 := rsqrt v33
  have v35 : FVec Ideal S64x49x64 .f32 := broadcastTo S64x49x64 v34 broadcasts_S64x49x1_S64x49x64
  have v36 : FVec Ideal S64x49x64 .f32 := mulf v31 v35
  have v37 : FVec Ideal S1x1x64 .f32 := shapeCast S1x1x64 v17 shapeCasts_S64_S1x1x64
  have v38 : FVec Ideal S64x49x64 .f32 := broadcastTo S64x49x64 v37 broadcasts_S1x1x64_S64x49x64
  have v39 : FVec Ideal S64x49x64 .f32 := mulf v36 v38
  have v40 : FVec Ideal S1x1x64 .f32 := shapeCast S1x1x64 v18 shapeCasts_S64_S1x1x64
  have v41 : FVec Ideal S64x49x64 .f32 := broadcastTo S64x49x64 v40 broadcasts_S1x1x64_S64x49x64
  have v42 : FVec Ideal S64x49x64 .f32 := addf v39 v41
  v42

/-- The clip at zero of the first normed stack. -/
def kClip0 (v42 : FVec Ideal S64x49x64 .f32) : FVec Ideal S64x49x64 .bf16 :=
  have cst_14 : Ideal .f32 := Scalar.ofBits .f32 0x00000000#32
  have v43 : FVec Ideal S64x49x64 .f32 := broadcast S64x49x64 cst_14
  have v44 : FVec Ideal S64x49x64 .f32 := maximumf v42 v43
  have v45 : FVec Ideal S64x49x64 .bf16 := truncf .bf16 v44 bitsLt_bf16_f32
  v45

/-- The second per-sample product: for each row `n`, `Σ_h a[n,k,h] · q[n, h·256+v]`. -/
def kT2 (v45 : FVec Ideal S64x49x64 .bf16) (v53 : FVec Ideal S64x16384 .f32) : FVec Ideal S64x49x256 .f32 :=
  have v54 : FVec Ideal S64x64x256 .f32 := shapeCast S64x64x256 v53 shapeCasts_S64x16384_S64x64x256
  have v55 : FVec Ideal S64x64x256 .bf16 := truncf .bf16 v54 bitsLt_bf16_f32
  have cst_19 : FVec Ideal S64x49x256 .f32 := constant S64x49x256 .f32 0x00000000#32
  have v56 : FVec Ideal S64x49x256 .f32 := matmul dot_S64x49x64_S64x64x256_S64x49x256_2_1_1_2_0_0 none v45 v55 cst_19
  v56

/-- Layer norm over the last axis (length 256) of a 64 × 49 × 256 stack. -/
def kLN1 (v56 : FVec Ideal S64x49x256 .f32) (v57 : Vec Ideal S256 .f32) (v58 : Vec Ideal S256 .f32) : FVec Ideal S64x49x256 .f32 :=
  have v59 : FVec Ideal S64x49 .f32 := multiReduction .add [2] S64x49 v56 0x00000000#32 reduces_S64x49x256_S64x49 (.inl rfl) rfl
  have v60 : FVec Ideal S64x49x1 .f32 := shapeCast S64x49x1 v59 shapeCasts_S64x49_S64x49x1
  have cst_23 : Ideal .f32 := Scalar.ofBits .f32 0x43800000#32
  have v61 : FVec Ideal S64x49x1 .f32 := broadcast S64x49x1 cst_23
  have v62 : FVec Ideal S64x49x1 .f32 := divf v60 v61
  have v63 : FVec Ideal S64x49x256 .f32 := broadcastTo S64x49x256 v62 broadcasts_S64x49x1_S64x49x256
  have v64 : FVec Ideal S64x49x256 .f32 := subf v56 v63
  have v65 : FVec Ideal S64x49x256 .f32 := mulf v64 v64
  have v66 : FVec Ideal S64x49 .f32 := multiReduction .add [2] S64x49 v65 0x00000000#32 reduces_S64x49x256_S64x49 (.inl rfl) rfl
  have v67 : FVec Ideal S64x49x1 .f32 := shapeCast S64x49x1 v66 shapeCasts_S64x49_S64x49x1
  have cst_25 : Ideal .f32 := Scalar.ofBits .f32 0x43800000#32
  have v68 : FVec Ideal S64x49x1 .f32 := broadcast S64x49x1 cst_25
  have v69 : FVec Ideal S64x49x1 .f32 := divf v67 v68
  have v70 : FVec Ideal S64x49x256 .f32 := broadcastTo S64x49x256 v62 broadcasts_S64x49x1_S64x49x256
  have v71 : FVec Ideal S64x49x256 .f32 := subf v56 v70
  have cst_26 : Ideal .f32 := Scalar.ofBits .f32 0x3727C5AC#32
  have v72 : FVec Ideal S64x49x1 .f32 := broadcast S64x49x1 cst_26
  have v73 : FVec Ideal S64x49x1 .f32 := addf v69 v72
  have v74 : FVec Ideal S64x49x1 .f32 := rsqrt v73
  have v75 : FVec Ideal S64x49x256 .f32 := broadcastTo S64x49x256 v74 broadcasts_S64x49x1_S64x49x256
  have v76 : FVec Ideal S64x49x256 .f32 := mulf v71 v75
  have v77 : FVec Ideal S1x1x256 .f32 := shapeCast S1x1x256 v57 shapeCasts_S256_S1x1x256
  have v78 : FVec Ideal S64x49x256 .f32 := broadcastTo S64x49x256 v77 broadcasts_S1x1x256_S64x49x256
  have v79 : FVec Ideal S64x49x256 .f32 := mulf v76 v78
  have v80 : FVec Ideal S1x1x256 .f32 := shapeCast S1x1x256 v58 shapeCasts_S256_S1x1x256
  have v81 : FVec Ideal S64x49x256 .f32 := broadcastTo S64x49x256 v80 broadcasts_S1x1x256_S64x49x256
  have v82 : FVec Ideal S64x49x256 .f32 := addf v79 v81
  v82

/-- The clip at zero of the second normed stack, flattened to 64 × 12544. -/
def kClipFlat (v82 : FVec Ideal S64x49x256 .f32) : FVec Ideal S64x12544 .bf16 :=
  have cst_27 : Ideal .f32 := Scalar.ofBits .f32 0x00000000#32
  have v83 : FVec Ideal S64x49x256 .f32 := broadcast S64x49x256 cst_27
  have v84 : FVec Ideal S64x49x256 .f32 := maximumf v82 v83
  have v85 : FVec Ideal S64x49x256 .bf16 := truncf .bf16 v84 bitsLt_bf16_f32
  have v86 : FVec Ideal S64x12544 .bf16 := shapeCast S64x12544 v85 shapeCasts_S64x49x256_S64x12544
  v86

/-- The output projection `flat · Wvᵀ + bv`. -/
def kAffV (v86 : FVec Ideal S64x12544 .bf16) (v87 : Vec Ideal S12544x256 .bf16) (v90 : Vec Ideal S256 .f32) : FVec Ideal S64x256 .f32 :=
  have v88 : FVec Ideal S12544x256 .bf16 := shapeCast S12544x256 v87 shapeCasts_S12544x256_S12544x256
  have cst_30 : FVec Ideal S64x256 .f32 := constant S64x256 .f32 0x00000000#32
  have v89 : FVec Ideal S64x256 .f32 := matmul dot_S64x12544_S12544x256_S64x256_1_0_0_1_n_n none v86 v88 cst_30
  have v91 : FVec Ideal S1x256 .f32 := shapeCast S1x256 v90 shapeCasts_S256_S1x256
  have v92 : FVec Ideal S64x256 .f32 := broadcastTo S64x256 v91 broadcasts_S1x256_S64x256
  have v93 : FVec Ideal S64x256 .f32 := addf v89 v92
  v93

/-- Layer norm over the rows (length 256) of a 64 × 256 matrix. -/
def kLN2 (v93 : FVec Ideal S64x256 .f32) (v94 : Vec Ideal S256 .f32) (v95 : Vec Ideal S256 .f32) : FVec Ideal S64x256 .f32 :=
  have v96 : FVec Ideal S64 .f32 := multiReduction .add [1] S64 v93 0x00000000#32 reduces_S64x256_S64 (.inl rfl) rfl
  have v97 : FVec Ideal S64x1 .f32 := shapeCast S64x1 v96 shapeCasts_S64_S64x1
  have cst_35 : Ideal .f32 := Scalar.ofBits .f32 0x43800000#32
  have v98 : FVec Ideal S64x1 .f32 := broadcast S64x1 cst_35
  have v99 : FVec Ideal S64x1 .f32 := divf v97 v98
  have v100 : FVec Ideal S64x256 .f32 := broadcastTo S64x256 v99 broadcasts_S64x1_S64x256
  have v101 : FVec Ideal S64x256 .f32 := subf v93 v100
  have v102 : FVec Ideal S64x256 .f32 := mulf v101 v101
  have v103 : FVec Ideal S64 .f32 := multiReduction .add [1] S64 v102 0x00000000#32 reduces_S64x256_S64 (.inl rfl) rfl
  have v104 : FVec Ideal S64x1 .f32 := shapeCast S64x1 v103 shapeCasts_S64_S64x1
  have cst_37 : Ideal .f32 := Scalar.ofBits .f32 0x43800000#32
  have v105 : FVec Ideal S64x1 .f32 := broadcast S64x1 cst_37
  have v106 : FVec Ideal S64x1 .f32 := divf v104 v105
  have v107 : FVec Ideal S64x256 .f32 := broadcastTo S64x256 v99 broadcasts_S64x1_S64x256
  have v108 : FVec Ideal S64x256 .f32 := subf v93 v107
  have cst_38 : Ideal .f32 := Scalar.ofBits .f32 0x3727C5AC#32
  have v109 : FVec Ideal S64x1 .f32 := broadcast S64x1 cst_38
  have v110 : FVec Ideal S64x1 .f32 := addf v106 v109
  have v111 : FVec Ideal S64x1 .f32 := rsqrt v110
  have v112 : FVec Ideal S64x256 .f32 := broadcastTo S64x256 v111 broadcasts_S64x1_S64x256
  have v113 : FVec Ideal S64x256 .f32 := mulf v108 v112
  have v114 : FVec Ideal S1x256 .f32 := shapeCast S1x256 v94 shapeCasts_S256_S1x256
  have v115 : FVec Ideal S64x256 .f32 := broadcastTo S64x256 v114 broadcasts_S1x256_S64x256
  have v116 : FVec Ideal S64x256 .f32 := mulf v113 v115
  have v117 : FVec Ideal S1x256 .f32 := shapeCast S1x256 v95 shapeCasts_S256_S1x256
  have v118 : FVec Ideal S64x256 .f32 := broadcastTo S64x256 v117 broadcasts_S1x256_S64x256
  have v119 : FVec Ideal S64x256 .f32 := addf v116 v118
  v119

/-- The residual sum: the input block plus the clip at zero of the normed projection. -/
def kRes (v0 : Vec Ideal S64x256 .f32) (v119 : FVec Ideal S64x256 .f32) : FVec Ideal S64x256 .f32 :=
  have cst_39 : Ideal .f32 := Scalar.ofBits .f32 0x00000000#32
  have v120 : FVec Ideal S64x256 .f32 := broadcast S64x256 cst_39
  have v121 : FVec Ideal S64x256 .f32 := maximumf v119 v120
  have v122 : FVec Ideal S64x256 .f32 := addf v0 v121
  v122

/-- The payloads are these stages composed. -/
theorem pay3_eq (v0 : Vec Ideal S64x256 .f32) (v2 : Vec Ideal S256x16384 .bf16) (v5 : Vec Ideal S16384 .f32) (v12 : Vec Ideal S64x12544 .f32) (v17 v18 : Vec Ideal S64 .f32) :
    k0_pay3 (F := Ideal) v0 v2 v5 v12 v17 v18 = kLN0 (kT1 (kAffQ v0 v2 v5) v12) v17 v18 := rfl

theorem pay4_eq (v0 : Vec Ideal S64x256 .f32) (v42 : FVec Ideal S64x49x64 .f32) (v46 : Vec Ideal S256x16384 .bf16) (v49 : Vec Ideal S16384 .f32) (v57 v58 : Vec Ideal S256 .f32) :
    k0_pay4 (F := Ideal) (truncf .bf16 v0 bitsLt_bf16_f32) v42 v46 v49 v57 v58 = kClipFlat (kLN1 (kT2 (kClip0 v42) (kAffQ v0 v46 v49)) v57 v58) := rfl

theorem pay5_eq (v0 : Vec Ideal S64x256 .f32) (v86 : FVec Ideal S64x12544 .bf16) (v87 : Vec Ideal S12544x256 .bf16) (v90 v94 v95 : Vec Ideal S256 .f32) :
    k0_pay5 (F := Ideal) v0 v86 v87 v90 v94 v95 = kRes v0 (kLN2 (kAffV v86 v87 v90) v94 v95) := rfl

end Cert.Bridge

end
-- ==== Proof.LibLayerNorm.lean ====
/-
  Three facts about the extended reals behind a layer norm.

  A layer norm divides a centred entry by the square root of a variance plus a positive offset. One program
  writes the quotient `a / sqrt y`, another the product `a * rsqrt y` with the reciprocal square root. On the
  extended reals the two agree whenever `0 < y`: at `y = ⊤` both are `a * 0`, and at a positive real `y` the
  reciprocal square root is the inverse of a nonzero real. The argument `y` is positive because a variance is a
  sum of squares divided by a positive real, hence nonnegative (a square is nonnegative at the infinities too),
  and the offset is a positive real.
-/
import Mathlib.Data.EReal.Inv
import Idealize.ShloMosaic.PureOps.Ideal

namespace Cert.Lib

open Idealize.ShloMosaic

/-- Multiplying by the reciprocal square root is dividing by the square root, for a positive argument:
    at `⊤` both sides are `a * 0`; at a positive real the square root is a nonzero real and the reciprocal
    square root is its inverse. -/
theorem mul_rsqrt_eq_div_sqrt (a y : EReal) (hy : 0 < y) : a * Ideal.rsqrt y = Ideal.div a (Ideal.sqrt y) := by
  induction y using EReal.rec with
  | bot => exact absurd hy (not_lt.2 bot_le)
  | top =>
    rw [Ideal.rsqrt_top, Ideal.sqrt_top, Ideal.div, if_neg EReal.top_ne_zero, EReal.inv_top]
  | coe r =>
    have hr : 0 < r := EReal.coe_pos.1 hy
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hs), EReal.coe_inv]

/-- A square is nonnegative on the extended reals: `⊥ * ⊥ = ⊤ * ⊤ = ⊤`, and a real square is nonnegative. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.2 (_root_.mul_self_nonneg r)

/-- A nonnegative extended real divided by a positive real is nonnegative: the quotient is the product with
    the positive real `1 / c`. -/
theorem div_coe_nonneg {s : EReal} (hs : 0 ≤ s) {c : ℝ} (hc : 0 < c) : 0 ≤ Ideal.div s (c : EReal) := by
  rw [Ideal.div_coe hc.ne']
  exact EReal.mul_nonneg hs (EReal.coe_nonneg.2 (one_div_pos.2 hc).le)

/-- A nonnegative extended real plus a positive real is positive. -/
theorem pos_of_nonneg_add_pos {v : EReal} (hv : 0 ≤ v) {e : ℝ} (he : 0 < e) : 0 < v + (e : EReal) :=
  lt_of_lt_of_le (EReal.coe_pos.2 he) (le_add_of_nonneg_left hv)

end Cert.Lib
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.LibLaneReads.lean ====
/-
  Layout operations on a stack of rows, read at an index given by coordinates.

  A value computed per row `(p, q)` of an `[a, b]` grid against a short table of `n` entries lives in an
  `[a, b, n]` array. Two operands meet there: the table, one vector of `n` entries repeated for every row, and the
  rows' own scalar, one `[a, b]` matrix repeated along the last axis. A vector program makes the first by casting the
  vector to `[1, 1, n]` and broadcasting, and the second by casting the matrix to `[a, b, 1]` and broadcasting; a host
  program makes both by `broadcast_in_dim`. Read at `(p, q, i)` the first is the table at `i` and the second the
  matrix at `(p, q)`, whichever way they were made. Beside them: a vector and the last axis of an `[a, b, N]` array cut
  from an offset `o`, read at `i`, are the operand at `i + o`; a scalar broadcast anywhere is the scalar; and a
  trailing unit axis added by `broadcast_in_dim` changes nothing.
-/
import Idealize.ShloMosaic.Lib.ValueLayout

namespace Cert.Lib

open Idealize.ShloMosaic Idealize.ShloMosaic.ValueIdx

variable {α : Type}

/-! ## Cuts from an offset -/

/-- A vector cut from `o` reads, at `i`, the operand at `i + o`. -/
theorem slice1_eq {N n : ℕ} (o : ℕ) (v : (⟨1, ![N]⟩ : Shape).Idx → α)
    (h : (⟨1, ![N]⟩ : Shape).Slices ![o] ⟨1, ![n]⟩) (i : Fin n) :
    extractStridedSlice ⟨1, ![n]⟩ ![o] v h (ix1 i)
      = v (ix1 ⟨i.val + o, Nat.lt_of_lt_of_le (Nat.add_lt_add_right i.isLt o) ((Nat.add_comm n o).trans_le (h.2 0))⟩) :=
  extractStridedSlice_apply _ _ _ _ _ (fun ax => by
    match ax with
    | ⟨0, _⟩ => exact Nat.add_comm _ _)

/-- An `[a, b, N]` array cut along its last axis from `o` reads, at `(p, q, i)`, the operand at `(p, q, i + o)`. -/
theorem slice3_last_eq {a b N n : ℕ} (o : ℕ) (X : (⟨3, ![a, b, N]⟩ : Shape).Idx → α)
    (h : (⟨3, ![a, b, N]⟩ : Shape).Slices ![0, 0, o] ⟨3, ![a, b, n]⟩) (p : Fin a) (q : Fin b) (i : Fin n) :
    extractStridedSlice ⟨3, ![a, b, n]⟩ ![0, 0, o] X h (ix3 p q i)
      = X (ix3 p q ⟨i.val + o, Nat.lt_of_lt_of_le (Nat.add_lt_add_right i.isLt o) ((Nat.add_comm n o).trans_le (h.2 2))⟩) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _)

/-! ## A vector program's casts and broadcasts -/

/-- An `[a, b]` matrix cast to the column stack `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector of `n` entries cast to `[1, 1, n]` and broadcast to `[a, b, n]` reads, at `(p, q, i)`, entry `i`. -/
theorem broadcastTo_row_apply {a b n : ℕ} (v : (⟨1, ![n]⟩ : Shape).Idx → α)
    (h1 : (⟨1, ![n]⟩ : Shape).ShapeCasts ⟨3, ![1, 1, n]⟩) (h2 : (⟨3, ![1, 1, n]⟩ : Shape).Broadcasts ⟨3, ![a, b, n]⟩)
    (p : Fin a) (q : Fin b) (i : Fin n) :
    broadcastTo ⟨3, ![a, b, n]⟩ (shapeCast ⟨3, ![1, 1, n]⟩ v h1) h2 (ix3 p q i) = v (ix1 i) := by
  refine (broadcastTo_apply _ h2 (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · exact shapeCast_apply v h1 _ _ (by
      rw [Shape.rowMajor_val_one, Shape.rowMajor_val_three]
      show i.val = (0 * 1 + 0) * n + i.val
      omega)

/-- A column stack `[a, b, 1]` broadcast along its last axis to `[a, b, n]` reads, at `(p, q, i)`, row `(p, q)`'s
    one entry. -/
theorem broadcastTo_col_apply {a b n : ℕ} (x : (⟨3, ![a, b, 1]⟩ : Shape).Idx → α)
    (h : (⟨3, ![a, b, 1]⟩ : Shape).Broadcasts ⟨3, ![a, b, n]⟩) (p : Fin a) (q : Fin b) (i : Fin n) :
    broadcastTo ⟨3, ![a, b, n]⟩ x h (ix3 p q i) = x (ix3 p q (0 : Fin 1)) := by
  refine broadcastTo_apply x h (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A host program's `broadcast_in_dim`s

The axis map is a variable here, with an equation saying which map it is: a rewrite then matches the operation
whatever the spelling of its map, and the equation is closed on the spot. -/

/-- An `[a, b]` matrix given a trailing unit axis reads, at `(p, q, u)`, the matrix at `(p, q)`. -/
theorem broadcastInDim_ab_ab1_apply {a b : ℕ} (dims : Fin 2 → Fin 3) (x : (⟨2, ![a, b]⟩ : Shape).Idx → α)
    (h : (⟨2, ![a, b]⟩ : Shape).BroadcastsInDim ⟨3, ![a, b, 1]⟩ dims) (p : Fin a) (q : Fin b) (u : Fin 1)
    (hd : dims = ![0, 1]) :
    broadcastInDim ⟨3, ![a, b, 1]⟩ dims h x (ix3 p q u) = x (ix2 p q) := by
  subst hd
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A vector of `n` entries placed on the last axis of `[1, 1, n]` and then broadcast to `[a, b, n]` reads, at
    `(p, q, i)`, entry `i`. -/
theorem broadcastInDim_row_apply {a b n : ℕ} (d1 : Fin 1 → Fin 3) (d2 : Fin 3 → Fin 3) (v : (⟨1, ![n]⟩ : Shape).Idx → α)
    (h1 : (⟨1, ![n]⟩ : Shape).BroadcastsInDim ⟨3, ![1, 1, n]⟩ d1)
    (h2 : (⟨3, ![1, 1, n]⟩ : Shape).BroadcastsInDim ⟨3, ![a, b, n]⟩ d2) (p : Fin a) (q : Fin b) (i : Fin n)
    (hd1 : d1 = ![2]) (hd2 : d2 = ![0, 1, 2]) :
    broadcastInDim ⟨3, ![a, b, n]⟩ d2 h2 (broadcastInDim ⟨3, ![1, 1, n]⟩ d1 h1 v) (ix3 p q i) = v (ix1 i) := by
  subst hd1 hd2
  refine (broadcastInDim_apply _ h2 _ (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · refine broadcastInDim_apply _ h1 v (ix3 (0 : Fin 1) (0 : Fin 1) i) (ix1 i) fun ax => ?_
    match ax with
    | ⟨0, _⟩ =>
      show i.val = if n = 1 then 0 else i.val
      split
      · have := i.isLt; omega
      · rfl

/-- A column stack `[a, b, 1]` broadcast along its last axis to `[a, b, n]` reads, at `(p, q, i)`, row `(p, q)`'s
    one entry. -/
theorem broadcastInDim_col_apply {a b n : ℕ} (dims : Fin 3 → Fin 3) (x : (⟨3, ![a, b, 1]⟩ : Shape).Idx → α)
    (h : (⟨3, ![a, b, 1]⟩ : Shape).BroadcastsInDim ⟨3, ![a, b, n]⟩ dims) (p : Fin a) (q : Fin b) (i : Fin n)
    (hd : dims = ![0, 1, 2]) :
    broadcastInDim ⟨3, ![a, b, n]⟩ dims h x (ix3 p q i) = x (ix3 p q (0 : Fin 1)) := by
  subst hd
  refine broadcastInDim_apply _ h x (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A scalar broadcast to any shape reads the scalar everywhere. -/
theorem broadcastInDim_scalar_apply {t : Shape} (dims : Fin 0 → Fin t.rank) (x : (⟨0, ![]⟩ : Shape).Idx → α)
    (h : (⟨0, ![]⟩ : Shape).BroadcastsInDim t dims) (j : t.Idx) :
    broadcastInDim t dims h x j = x ix0 :=
  broadcastInDim_apply _ h x j ix0 fun ax => ax.elim0

end Cert.Lib
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«141042_j66700842107138_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.KNorms.lean ====
/-
  The kernel's layer norms and clips, read at an index.

  Each layer norm of the kernel body is a run of vector operations: a sum over the last axis, kept as a column,
  divided by the row length and broadcast back (the mean); the same for the squared deviations (the variance);
  the reciprocal square root of the variance plus an offset, broadcast back; the scale and bias rows broadcast
  over the rows. Read at an index it is the row-wise layer norm of the specification, in the form that
  multiplies by the reciprocal square root; since the variance is a sum of squares over a positive real and the
  offset is a positive real, that form equals the one dividing by the square root.
-/
import proofs.«141042_j66700842107138_2_alg».proof.Proof.KStages
import proofs.«141042_j66700842107138_2_alg».proof.Proof.Spec
import proofs.«141042_j66700842107138_2_alg».proof.Proof.LibLayerNorm
import proofs.«141042_j66700842107138_2_alg».proof.Proof.LibKeepdims
import proofs.«141042_j66700842107138_2_alg».proof.Proof.LibOuterStack
import proofs.«141042_j66700842107138_2_alg».proof.Proof.LibLaneReads
import proofs.«141042_j66700842107138_2_alg».proof.Proof.LibAffineLayer
import proofs.«141042_j66700842107138_2_alg».proof.Proof.Gen.KernelIdeal.Value

noncomputable section

namespace Cert.Bridge

open Idealize.ShloMosaic Idealize.ShloMosaic.ValueIdx Cert.KernelIdeal Cert.KernelIdeal.Gen
open scoped BigOperators

/-! ## The three float words -/

/-- The word `0x42800000` is the real 64: exponent field 133, no fraction, `2^23 · 2^(133 − 127 − 23)`. -/
theorem c64_eq : Spec.c64 = ((64 : ℝ) : EReal) := by
  unfold Spec.c64
  simp [Ideal.ofBits, Ideal.ieee, -EReal.coe_mul]; norm_num

/-- The word `0x43800000` is the real 256: exponent field 135, no fraction. -/
theorem c256_eq : Spec.c256 = ((256 : ℝ) : EReal) := by
  unfold Spec.c256
  simp [Ideal.ofBits, Ideal.ieee, -EReal.coe_mul]; norm_num

/-- The variance offset `0x3727C5AC` is a positive real: sign bit 0, exponent field 110 (a normal number). -/
theorem eps_pos : ∃ e : ℝ, 0 < e ∧ Spec.eps = (e : EReal) := by
  unfold Spec.eps
  simp [Ideal.ofBits, Ideal.ieee, -EReal.coe_mul]

/-! ## The two forms of the layer norm agree -/

/-- The variance of a row over a positive real divisor is nonnegative: a sum of squares over a positive real. -/
theorem var_nonneg {n : ℕ} {c : ℝ} (hc : 0 < c) (f : Fin n → EReal) : 0 ≤ Spec.var (c : EReal) f :=
  Cert.Lib.div_coe_nonneg (Finset.sum_nonneg fun k _ => Cert.Lib.mul_self_nonneg _) hc

/-- With a positive real divisor and a positive real offset, multiplying by the reciprocal square root of
    `var + offset` is dividing by its square root. -/
theorem lnK_eq_lnR {n : ℕ} {c e : ℝ} (hc : 0 < c) (he : 0 < e) (f g b : Fin n → EReal) (i : Fin n) :
    Spec.lnK (c : EReal) (e : EReal) f g b i = Spec.lnR (c : EReal) (e : EReal) f g b i := by
  unfold Spec.lnK Spec.lnR
  rw [Cert.Lib.mul_rsqrt_eq_div_sqrt _ _ (Cert.Lib.pos_of_nonneg_add_pos (var_nonneg hc f) he)]

/-- The two forms agree at the divisor 64 and the programs' offset. -/
theorem lnK_eq_lnR64 {n : ℕ} (f g b : Fin n → EReal) (i : Fin n) :
    Spec.lnK Spec.c64 Spec.eps f g b i = Spec.lnR Spec.c64 Spec.eps f g b i := by
  obtain ⟨e, he, hE⟩ := eps_pos
  rw [hE, c64_eq]
  exact lnK_eq_lnR (by norm_num) he f g b i

/-- The two forms agree at the divisor 256 and the programs' offset. -/
theorem lnK_eq_lnR256 {n : ℕ} (f g b : Fin n → EReal) (i : Fin n) :
    Spec.lnK Spec.c256 Spec.eps f g b i = Spec.lnR Spec.c256 Spec.eps f g b i := by
  obtain ⟨e, he, hE⟩ := eps_pos
  rw [hE, c256_eq]
  exact lnK_eq_lnR (by norm_num) he f g b i

/-! ## A layer norm over the last axis of a stack -/

section Stack
variable {a b n : ℕ}

/-- A sum over the last axis, kept as a column and divided by a constant: at `(p, q, u)` the sum of row `(p, q)`
    over the constant. -/
theorem colDiv3_apply (src : FVec Ideal ⟨3, ![a, b, n]⟩ .f32) (cw : BitVec 32)
    (hr : (⟨3, ![a, b, n]⟩ : Shape).Reduces [2] ⟨2, ![a, b]⟩)
    (hc : (⟨2, ![a, b]⟩ : Shape).ShapeCasts ⟨3, ![a, b, 1]⟩) (p : Fin a) (q : Fin b) (u : Fin 1) :
    divf (shapeCast ⟨3, ![a, b, 1]⟩ (multiReduction (F := Ideal) .add [2] ⟨2, ![a, b]⟩ src 0x00000000#32 hr (.inl rfl) rfl) hc)
        (broadcast ⟨3, ![a, b, 1]⟩ (Scalar.ofBits (F := Ideal) .f32 cw)) (ix3 p q u)
      = Ideal.div (∑ k : Fin n, src (ix3 p q k)) (Ideal.ofBits .f32 cw) := by
  refine congrArg (fun t => Ideal.div t (Ideal.ofBits .f32 cw)) ?_
  exact (Cert.Lib.shapeCast_ab_ab1_apply _ hc p q u).trans
    (Cert.Lib.laneSum_apply src 0x00000000#32 hr (.inl rfl) rfl p q)

/-- The layer norm of a stack `[a, b, n]` over its last axis, as the vector operations compute it, read at
    `(p, q, i)`: the row-wise layer norm of row `(p, q)` in the form multiplying by the reciprocal square root. -/
theorem ln3_apply (z : FVec Ideal ⟨3, ![a, b, n]⟩ .f32) (g bb : Vec Ideal ⟨1, ![n]⟩ .f32) (cw ew : BitVec 32)
    (hr : (⟨3, ![a, b, n]⟩ : Shape).Reduces [2] ⟨2, ![a, b]⟩)
    (hc : (⟨2, ![a, b]⟩ : Shape).ShapeCasts ⟨3, ![a, b, 1]⟩)
    (hb : (⟨3, ![a, b, 1]⟩ : Shape).Broadcasts ⟨3, ![a, b, n]⟩)
    (h1 : (⟨1, ![n]⟩ : Shape).ShapeCasts ⟨3, ![1, 1, n]⟩)
    (h2 : (⟨3, ![1, 1, n]⟩ : Shape).Broadcasts ⟨3, ![a, b, n]⟩)
    (p : Fin a) (q : Fin b) (i : Fin n) :
    addf (mulf (mulf
        (subf z (broadcastTo ⟨3, ![a, b, n]⟩ (divf (shapeCast ⟨3, ![a, b, 1]⟩ (multiReduction (F := Ideal) .add [2] ⟨2, ![a, b]⟩ z 0x00000000#32 hr (.inl rfl) rfl) hc)
          (broadcast ⟨3, ![a, b, 1]⟩ (Scalar.ofBits (F := Ideal) .f32 cw))) hb))
        (broadcastTo ⟨3, ![a, b, n]⟩ (rsqrt (addf
          (divf (shapeCast ⟨3, ![a, b, 1]⟩ (multiReduction (F := Ideal) .add [2] ⟨2, ![a, b]⟩
            (mulf
              (subf z (broadcastTo ⟨3, ![a, b, n]⟩ (divf (shapeCast ⟨3, ![a, b, 1]⟩ (multiReduction (F := Ideal) .add [2] ⟨2, ![a, b]⟩ z 0x00000000#32 hr (.inl rfl) rfl) hc)
                (broadcast ⟨3, ![a, b, 1]⟩ (Scalar.ofBits (F := Ideal) .f32 cw))) hb))
              (subf z (broadcastTo ⟨3, ![a, b, n]⟩ (divf (shapeCast ⟨3, ![a, b, 1]⟩ (multiReduction (F := Ideal) .add [2] ⟨2, ![a, b]⟩ z 0x00000000#32 hr (.inl rfl) rfl) hc)
                (broadcast ⟨3, ![a, b, 1]⟩ (Scalar.ofBits (F := Ideal) .f32 cw))) hb)))
            0x00000000#32 hr (.inl rfl) rfl) hc)
            (broadcast ⟨3, ![a, b, 1]⟩ (Scalar.ofBits (F := Ideal) .f32 cw)))
          (broadcast ⟨3, ![a, b, 1]⟩ (Scalar.ofBits (F := Ideal) .f32 ew)))) hb))
        (broadcastTo ⟨3, ![a, b, n]⟩ (shapeCast ⟨3, ![1, 1, n]⟩ g h1) h2))
        (broadcastTo ⟨3, ![a, b, n]⟩ (shapeCast ⟨3, ![1, 1, n]⟩ bb h1) h2) (ix3 p q i)
      = Spec.lnK (Ideal.ofBits .f32 cw) (Ideal.ofBits .f32 ew) (fun k => z (ix3 p q k)) (fun k => g (ix1 k))
          (fun k => bb (ix1 k)) i := by
  -- the mean, broadcast back, at any entry of row (p, q)
  have hm : ∀ k : Fin n, broadcastTo ⟨3, ![a, b, n]⟩ (divf (shapeCast ⟨3, ![a, b, 1]⟩ (multiReduction (F := Ideal) .add [2] ⟨2, ![a, b]⟩ z 0x00000000#32 hr (.inl rfl) rfl) hc)
          (broadcast ⟨3, ![a, b, 1]⟩ (Scalar.ofBits (F := Ideal) .f32 cw))) hb (ix3 p q k)
        = Spec.mean (Ideal.ofBits .f32 cw) (fun k => z (ix3 p q k)) := fun k =>
    (Cert.Lib.broadcastTo_col_apply _ hb p q k).trans (colDiv3_apply z cw hr hc p q 0)
  unfold Spec.lnK
  show (z (ix3 p q i) - _) * _ * _ + _ = _
  refine congrArg₂ (· + ·) (congrArg₂ (· * ·) (congrArg₂ (· * ·) ?_ ?_) ?_) ?_
  · exact congrArg (fun t => z (ix3 p q i) - t) (hm i)
  · refine (Cert.Lib.broadcastTo_col_apply _ hb p q i).trans ?_
    show Ideal.rsqrt (_ + Ideal.ofBits .f32 ew) = _
    refine congrArg (fun t => Ideal.rsqrt (t + Ideal.ofBits .f32 ew)) ?_
    refine (colDiv3_apply _ cw hr hc p q 0).trans ?_
    unfold Spec.var
    refine congrArg (fun t => Ideal.div t (Ideal.ofBits .f32 cw)) (Finset.sum_congr rfl fun k _ => ?_)
    show (z (ix3 p q k) - _) * (z (ix3 p q k) - _) = _
    rw [hm k]
  · exact Cert.Lib.broadcastTo_row_apply g h1 h2 p q i
  · exact Cert.Lib.broadcastTo_row_apply bb h1 h2 p q i

end Stack

/-! ## The kernel's two stack layer norms -/

/-- The first layer norm, over the 64 entries of row `(r, k)`. -/
theorem kLN0_apply (z : FVec Ideal S64x49x64 .f32) (g b : Vec Ideal S64 .f32) (r : Fin 64) (k : Fin 49) (h : Fin 64) :
    kLN0 z g b (ix3 r k h)
      = Spec.lnR Spec.c64 Spec.eps (fun i => z (ix3 r k i)) (fun i => g (ix1 i)) (fun i => b (ix1 i)) h :=
  (ln3_apply (a := 64) (b := 49) (n := 64) z g b 0x42800000#32 0x3727C5AC#32 reduces_S64x49x64_S64x49
      shapeCasts_S64x49_S64x49x1 broadcasts_S64x49x1_S64x49x64 shapeCasts_S64_S1x1x64 broadcasts_S1x1x64_S64x49x64
      r k h).trans
    (lnK_eq_lnR64 _ _ _ h)

/-- The second layer norm, over the 256 entries of row `(r, k)`. -/
theorem kLN1_apply (z : FVec Ideal S64x49x256 .f32) (g b : Vec Ideal S256 .f32) (r : Fin 64) (k : Fin 49) (v : Fin 256) :
    kLN1 z g b (ix3 r k v)
      = Spec.lnR Spec.c256 Spec.eps (fun i => z (ix3 r k i)) (fun i => g (ix1 i)) (fun i => b (ix1 i)) v :=
  (ln3_apply (a := 64) (b := 49) (n := 256) z g b 0x43800000#32 0x3727C5AC#32 reduces_S64x49x256_S64x49
      shapeCasts_S64x49_S64x49x1 broadcasts_S64x49x1_S64x49x256 shapeCasts_S256_S1x1x256 broadcasts_S1x1x256_S64x49x256
      r k v).trans
    (lnK_eq_lnR256 _ _ _ v)

/-! ## A layer norm over the rows of a matrix -/

section Rows
variable {a n : ℕ}

/-- A row sum divided by a constant. -/
theorem rowDiv_apply (src : FVec Ideal ⟨2, ![a, n]⟩ .f32) (cw : BitVec 32)
    (hr : (⟨2, ![a, n]⟩ : Shape).Reduces [1] ⟨1, ![a]⟩) (p : Fin a) :
    Ideal.div (multiReduction (F := Ideal) .add [1] ⟨1, ![a]⟩ src 0x00000000#32 hr (.inl rfl) rfl (ix1 p)) (Ideal.ofBits .f32 cw)
      = Ideal.div (∑ k : Fin n, src (ix2 p k)) (Ideal.ofBits .f32 cw) :=
  congrArg (fun t => Ideal.div t (Ideal.ofBits .f32 cw)) (Cert.Lib.rowSum_apply src 0x00000000#32 hr (.inl rfl) rfl p)

/-- A row sum, kept as a column and divided by a constant: at `(p, u)` the sum of row `p` over the constant. -/
theorem colDiv2_apply (src : FVec Ideal ⟨2, ![a, n]⟩ .f32) (cw : BitVec 32)
    (hr : (⟨2, ![a, n]⟩ : Shape).Reduces [1] ⟨1, ![a]⟩)
    (hc : (⟨1, ![a]⟩ : Shape).ShapeCasts ⟨2, ![a, 1]⟩) (p : Fin a) (u : Fin 1) :
    divf (shapeCast ⟨2, ![a, 1]⟩ (multiReduction (F := Ideal) .add [1] ⟨1, ![a]⟩ src 0x00000000#32 hr (.inl rfl) rfl) hc)
        (broadcast ⟨2, ![a, 1]⟩ (Scalar.ofBits (F := Ideal) .f32 cw)) (ix2 p u)
      = Ideal.div (∑ k : Fin n, src (ix2 p k)) (Ideal.ofBits .f32 cw) := by
  refine Eq.trans ?_ (rowDiv_apply src cw hr p)
  exact congrArg (fun t => Ideal.div t (Ideal.ofBits .f32 cw)) (Cert.Lib.shapeCast_a_a1_apply _ hc p u)

/-- The mean of row `p`, kept as a column and broadcast back along the row. -/
theorem meanBack2_apply (z : FVec Ideal ⟨2, ![a, n]⟩ .f32) (cw : BitVec 32)
    (hr : (⟨2, ![a, n]⟩ : Shape).Reduces [1] ⟨1, ![a]⟩)
    (hc : (⟨1, ![a]⟩ : Shape).ShapeCasts ⟨2, ![a, 1]⟩)
    (hb : (⟨2, ![a, 1]⟩ : Shape).Broadcasts ⟨2, ![a, n]⟩) (p : Fin a) (k : Fin n) :
    broadcastTo ⟨2, ![a, n]⟩ (divf (shapeCast ⟨2, ![a, 1]⟩ (multiReduction (F := Ideal) .add [1] ⟨1, ![a]⟩ z 0x00000000#32 hr (.inl rfl) rfl) hc)
        (broadcast ⟨2, ![a, 1]⟩ (Scalar.ofBits (F := Ideal) .f32 cw))) hb (ix2 p k)
      = Spec.mean (Ideal.ofBits .f32 cw) (fun k => z (ix2 p k)) :=
  (Cert.Lib.broadcastTo_a1_ab_apply _ hb p k).trans (colDiv2_apply z cw hr hc p 0)

/-- The sum of the squared deviations of row `p` over the constant is the row's variance. -/
theorem varRow_apply (z : FVec Ideal ⟨2, ![a, n]⟩ .f32) (cw : BitVec 32)
    (hr : (⟨2, ![a, n]⟩ : Shape).Reduces [1] ⟨1, ![a]⟩)
    (hc : (⟨1, ![a]⟩ : Shape).ShapeCasts ⟨2, ![a, 1]⟩)
    (hb : (⟨2, ![a, 1]⟩ : Shape).Broadcasts ⟨2, ![a, n]⟩) (p : Fin a) :
    Ideal.div (∑ k : Fin n,
        (mulf
          (subf z (broadcastTo ⟨2, ![a, n]⟩ (divf (shapeCast ⟨2, ![a, 1]⟩ (multiReduction (F := Ideal) .add [1] ⟨1, ![a]⟩ z 0x00000000#32 hr (.inl rfl) rfl) hc)
            (broadcast ⟨2, ![a, 1]⟩ (Scalar.ofBits (F := Ideal) .f32 cw))) hb))
          (subf z (broadcastTo ⟨2, ![a, n]⟩ (divf (shapeCast ⟨2, ![a, 1]⟩ (multiReduction (F := Ideal) .add [1] ⟨1, ![a]⟩ z 0x00000000#32 hr (.inl rfl) rfl) hc)
            (broadcast ⟨2, ![a, 1]⟩ (Scalar.ofBits (F := Ideal) .f32 cw))) hb))) (ix2 p k))
        (Ideal.ofBits .f32 cw)
      = Spec.var (Ideal.ofBits .f32 cw) (fun k => z (ix2 p k)) := by
  unfold Spec.var
  refine congrArg (fun t => Ideal.div t (Ideal.ofBits .f32 cw)) (Finset.sum_congr rfl fun k _ => ?_)
  show (z (ix2 p k) - _) * (z (ix2 p k) - _) = _
  rw [meanBack2_apply z cw hr hc hb p k]

/-- The layer norm of a matrix `[a, n]` over its rows, as the vector operations compute it, read at `(p, i)`: the
    row-wise layer norm of row `p` in the form multiplying by the reciprocal square root. -/
theorem ln2_apply (z : FVec Ideal ⟨2, ![a, n]⟩ .f32) (g bb : Vec Ideal ⟨1, ![n]⟩ .f32) (cw ew : BitVec 32)
    (hr : (⟨2, ![a, n]⟩ : Shape).Reduces [1] ⟨1, ![a]⟩)
    (hc : (⟨1, ![a]⟩ : Shape).ShapeCasts ⟨2, ![a, 1]⟩)
    (hb : (⟨2, ![a, 1]⟩ : Shape).Broadcasts ⟨2, ![a, n]⟩)
    (h1 : (⟨1, ![n]⟩ : Shape).ShapeCasts ⟨2, ![1, n]⟩)
    (h2 : (⟨2, ![1, n]⟩ : Shape).Broadcasts ⟨2, ![a, n]⟩)
    (p : Fin a) (i : Fin n) :
    addf (mulf (mulf
        (subf z (broadcastTo ⟨2, ![a, n]⟩ (divf (shapeCast ⟨2, ![a, 1]⟩ (multiReduction (F := Ideal) .add [1] ⟨1, ![a]⟩ z 0x00000000#32 hr (.inl rfl) rfl) hc)
          (broadcast ⟨2, ![a, 1]⟩ (Scalar.ofBits (F := Ideal) .f32 cw))) hb))
        (broadcastTo ⟨2, ![a, n]⟩ (rsqrt (addf
          (divf (shapeCast ⟨2, ![a, 1]⟩ (multiReduction (F := Ideal) .add [1] ⟨1, ![a]⟩
            (mulf
              (subf z (broadcastTo ⟨2, ![a, n]⟩ (divf (shapeCast ⟨2, ![a, 1]⟩ (multiReduction (F := Ideal) .add [1] ⟨1, ![a]⟩ z 0x00000000#32 hr (.inl rfl) rfl) hc)
                (broadcast ⟨2, ![a, 1]⟩ (Scalar.ofBits (F := Ideal) .f32 cw))) hb))
              (subf z (broadcastTo ⟨2, ![a, n]⟩ (divf (shapeCast ⟨2, ![a, 1]⟩ (multiReduction (F := Ideal) .add [1] ⟨1, ![a]⟩ z 0x00000000#32 hr (.inl rfl) rfl) hc)
                (broadcast ⟨2, ![a, 1]⟩ (Scalar.ofBits (F := Ideal) .f32 cw))) hb)))
            0x00000000#32 hr (.inl rfl) rfl) hc)
            (broadcast ⟨2, ![a, 1]⟩ (Scalar.ofBits (F := Ideal) .f32 cw)))
          (broadcast ⟨2, ![a, 1]⟩ (Scalar.ofBits (F := Ideal) .f32 ew)))) hb))
        (broadcastTo ⟨2, ![a, n]⟩ (shapeCast ⟨2, ![1, n]⟩ g h1) h2))
        (broadcastTo ⟨2, ![a, n]⟩ (shapeCast ⟨2, ![1, n]⟩ bb h1) h2) (ix2 p i)
      = Spec.lnK (Ideal.ofBits .f32 cw) (Ideal.ofBits .f32 ew) (fun k => z (ix2 p k)) (fun k => g (ix1 k))
          (fun k => bb (ix1 k)) i := by
  unfold Spec.lnK
  show (z (ix2 p i) - _) * _ * _ + _ = _
  refine congrArg₂ (· + ·) (congrArg₂ (· * ·) (congrArg₂ (· * ·) ?_ ?_) ?_) ?_
  · exact congrArg (fun t => z (ix2 p i) - t) (meanBack2_apply z cw hr hc hb p i)
  · refine (Cert.Lib.broadcastTo_a1_ab_apply _ hb p i).trans ?_
    show Ideal.rsqrt (_ + Ideal.ofBits .f32 ew) = _
    refine congrArg (fun t => Ideal.rsqrt (t + Ideal.ofBits .f32 ew)) ?_
    exact (colDiv2_apply _ cw hr hc p 0).trans (varRow_apply z cw hr hc hb p)
  · exact Cert.Lib.rowBroadcast_apply g h1 h2 p i
  · exact Cert.Lib.rowBroadcast_apply bb h1 h2 p i

/-- The same layer norm with the two row sums already read at row `p` and the scalars combined entry by entry. -/
theorem ln2_scalar_apply (z : FVec Ideal ⟨2, ![a, n]⟩ .f32) (g bb : Vec Ideal ⟨1, ![n]⟩ .f32) (cw ew : BitVec 32)
    (hr : (⟨2, ![a, n]⟩ : Shape).Reduces [1] ⟨1, ![a]⟩)
    (hc : (⟨1, ![a]⟩ : Shape).ShapeCasts ⟨2, ![a, 1]⟩)
    (hb : (⟨2, ![a, 1]⟩ : Shape).Broadcasts ⟨2, ![a, n]⟩)
    (p : Fin a) (i : Fin n) :
    FloatOps.addf (FloatOps.mulf (FloatOps.mulf
        (FloatOps.subf (z (ix2 p i))
          (FloatOps.divf (multiReduction (F := Ideal) .add [1] ⟨1, ![a]⟩ z 0x00000000#32 hr (.inl rfl) rfl (ix1 p)) (Scalar.ofBits (F := Ideal) .f32 cw)))
        (FloatOps.rsqrt (FloatOps.addf
          (FloatOps.divf (multiReduction (F := Ideal) .add [1] ⟨1, ![a]⟩
            (mulf
              (subf z (broadcastTo ⟨2, ![a, n]⟩ (divf (shapeCast ⟨2, ![a, 1]⟩ (multiReduction (F := Ideal) .add [1] ⟨1, ![a]⟩ z 0x00000000#32 hr (.inl rfl) rfl) hc)
                (broadcast ⟨2, ![a, 1]⟩ (Scalar.ofBits (F := Ideal) .f32 cw))) hb))
              (subf z (broadcastTo ⟨2, ![a, n]⟩ (divf (shapeCast ⟨2, ![a, 1]⟩ (multiReduction (F := Ideal) .add [1] ⟨1, ![a]⟩ z 0x00000000#32 hr (.inl rfl) rfl) hc)
                (broadcast ⟨2, ![a, 1]⟩ (Scalar.ofBits (F := Ideal) .f32 cw))) hb)))
            0x00000000#32 hr (.inl rfl) rfl (ix1 p)) (Scalar.ofBits (F := Ideal) .f32 cw))
          (Scalar.ofBits (F := Ideal) .f32 ew))))
        (g (ix1 i))) (bb (ix1 i))
      = Spec.lnK (Ideal.ofBits .f32 cw) (Ideal.ofBits .f32 ew) (fun k => z (ix2 p k)) (fun k => g (ix1 k))
          (fun k => bb (ix1 k)) i := by
  unfold Spec.lnK
  show (z (ix2 p i) - Ideal.div _ (Ideal.ofBits .f32 cw)) * Ideal.rsqrt (Ideal.div _ (Ideal.ofBits .f32 cw) + Ideal.ofBits .f32 ew) * _ + _ = _
  refine congrArg₂ (· + ·) (congrArg₂ (· * ·) (congrArg₂ (· * ·) ?_ ?_) rfl) rfl
  · exact congrArg (fun t => z (ix2 p i) - t) (rowDiv_apply z cw hr p)
  · refine congrArg (fun t => Ideal.rsqrt (t + Ideal.ofBits .f32 ew)) ?_
    exact (rowDiv_apply _ cw hr p).trans (varRow_apply z cw hr hc hb p)

end Rows

/-! ## The kernel's matrix layer norm, the clips, and the last layer norm -/

/-- The third layer norm, over the 256 entries of row `r`. -/
theorem kLN2_apply (z : FVec Ideal S64x256 .f32) (g b : Vec Ideal S256 .f32) (r : Fin 64) (d : Fin 256) :
    kLN2 z g b (ix2 r d)
      = Spec.lnR Spec.c256 Spec.eps (fun i => z (ix2 r i)) (fun i => g (ix1 i)) (fun i => b (ix1 i)) d :=
  (ln2_apply (a := 64) (n := 256) z g b 0x43800000#32 0x3727C5AC#32 reduces_S64x256_S64 shapeCasts_S64_S64x1
      broadcasts_S64x1_S64x256 shapeCasts_S256_S1x256 broadcasts_S1x256_S64x256 r d).trans
    (lnK_eq_lnR256 _ _ _ d)

/-- The clip at zero of the first normed stack (the narrowing is the identity on the extended reals). -/
theorem kClip0_apply (z : FVec Ideal S64x49x64 .f32) (j : S64x49x64.Idx) : kClip0 z j = max (z j) 0 := by
  show max (z j) (Ideal.ofBits .f32 0x00000000#32) = _
  rw [Ideal.ofBits_zero_f32]

/-- The clip at zero of the second normed stack, flattened: flat position `j` of row `r` is entry
    `(j / 256, j % 256)`, since `(r · 49 + j / 256) · 256 + j % 256 = r · 12544 + j`. -/
theorem kClipFlat_apply (z : FVec Ideal S64x49x256 .f32) (r : Fin 64) (j : Fin 12544) :
    kClipFlat z (ix2 r j) = max (z (ix3 r (Spec.fk j) (Spec.fv j))) 0 := by
  unfold kClipFlat
  refine (shapeCast_apply _ shapeCasts_S64x49x256_S64x12544 (ix2 r j) (ix3 r (Spec.fk j) (Spec.fv j)) ?_).trans ?_
  · rw [Shape.rowMajor_val_three, Shape.rowMajor_val_two]
    show (r.val * 49 + j.val / 256) * 256 + j.val % 256 = r.val * 12544 + j.val
    omega
  · show max (z _) (Ideal.ofBits .f32 0x00000000#32) = _
    rw [Ideal.ofBits_zero_f32]

/-- The residual sum: the input plus the clip at zero. -/
theorem kRes_apply (x : Vec Ideal S64x256 .f32) (z : FVec Ideal S64x256 .f32) (j : S64x256.Idx) :
    kRes x z j = x j + max (z j) 0 := by
  show x j + max (z j) (Ideal.ofBits .f32 0x00000000#32) = _
  rw [Ideal.ofBits_zero_f32]

/-- The last layer norm in scalar form over an arbitrary matrix `K`, with the five places it reads given as
    indices known to be `(r, d)`, `r`, `r`, `d`, `d`. -/
theorem lastNorm_apply (K : FVec Ideal S64x256 .f32) (g bb : Vec Ideal S256 .f32) (r : Fin 64) (d : Fin 256)
    (j0 : S64x256.Idx) (j1 j2 : S64.Idx) (j3 j4 : S256.Idx)
    (h0 : j0 = ix2 r d) (h1 : j1 = ix1 r) (h2 : j2 = ix1 r) (h3 : j3 = ix1 d) (h4 : j4 = ix1 d) :
    FloatOps.addf (FloatOps.mulf (FloatOps.mulf
        (FloatOps.subf (K j0)
          (FloatOps.divf (multiReduction (F := Ideal) .add [1] S64 K 0x00000000#32 reduces_S64x256_S64 (.inl rfl) rfl j1) (Scalar.ofBits (F := Ideal) .f32 0x43800000#32)))
        (FloatOps.rsqrt (FloatOps.addf
          (FloatOps.divf (multiReduction (F := Ideal) .add [1] S64
            (mulf
              (subf K (broadcastTo S64x256 (divf (shapeCast S64x1 (multiReduction (F := Ideal) .add [1] S64 K 0x00000000#32 reduces_S64x256_S64 (.inl rfl) rfl) shapeCasts_S64_S64x1)
                (broadcast S64x1 (Scalar.ofBits (F := Ideal) .f32 0x43800000#32))) broadcasts_S64x1_S64x256))
              (subf K (broadcastTo S64x256 (divf (shapeCast S64x1 (multiReduction (F := Ideal) .add [1] S64 K 0x00000000#32 reduces_S64x256_S64 (.inl rfl) rfl) shapeCasts_S64_S64x1)
                (broadcast S64x1 (Scalar.ofBits (F := Ideal) .f32 0x43800000#32))) broadcasts_S64x1_S64x256)))
            0x00000000#32 reduces_S64x256_S64 (.inl rfl) rfl j2) (Scalar.ofBits (F := Ideal) .f32 0x43800000#32))
          (Scalar.ofBits (F := Ideal) .f32 0x3727C5AC#32))))
        (g j3)) (bb j4)
      = Spec.lnR Spec.c256 Spec.eps (fun i => K (ix2 r i)) (fun i => g (ix1 i)) (fun i => bb (ix1 i)) d := by
  subst h0 h1 h2 h3 h4
  exact (ln2_scalar_apply (a := 64) (n := 256) K g bb 0x43800000#32 0x3727C5AC#32 reduces_S64x256_S64 shapeCasts_S64_S64x1
      broadcasts_S64x1_S64x256 r d).trans (lnK_eq_lnR256 _ _ _ d)

/-- The block the kernel leaves, read at `(r, d)`: the layer norm of row `r` of the residual sum. -/
theorem E16_apply (P0 : Vec Ideal S64x256 .f32) (P1 : Vec Ideal S256x16384 .bf16) (P2 : Vec Ideal S16384 .f32)
    (P3 : Vec Ideal S64x12544 .f32) (P4 : Vec Ideal S64 .f32) (P5 : Vec Ideal S64 .f32) (P6 : Vec Ideal S256x16384 .bf16)
    (P7 : Vec Ideal S16384 .f32) (P8 : Vec Ideal S256 .f32) (P9 : Vec Ideal S256 .f32) (P10 : Vec Ideal S12544x256 .bf16)
    (P11 : Vec Ideal S256 .f32) (P12 : Vec Ideal S256 .f32) (P13 : Vec Ideal S256 .f32) (P14 : Vec Ideal S256 .f32)
    (P15 : Vec Ideal S256 .f32) (r : Fin 64) (d : Fin 256) :
    Cert.KernelIdeal.Value.E16 (F := Ideal) P0 P1 P2 P3 P4 P5 P6 P7 P8 P9 P10 P11 P12 P13 P14 P15 (ix2 r d)
      = Spec.lnR Spec.c256 Spec.eps
          (fun i => (Cert.KernelIdeal.Gen.k0_pay5 P0 (Cert.KernelIdeal.Gen.k0_pay4 (truncf .bf16 P0 bitsLt_bf16_f32)
            (Cert.KernelIdeal.Gen.k0_pay3 P0 P1 P2 P3 P4 P5) P6 P7 P8 P9) P10 P11 P12 P13) (ix2 r i))
          (fun i => P14 (ix1 i)) (fun i => P15 (ix1 i)) d :=
  lastNorm_apply _ P14 P15 r d _ _ _ _ _
    (funext fun a => by match a with | ⟨0, _⟩ => rfl | ⟨1, _⟩ => rfl)
    (funext fun a => by match a with | ⟨0, _⟩ => rfl)
    (funext fun a => by match a with | ⟨0, _⟩ => rfl)
    (funext fun a => by match a with | ⟨0, _⟩ => rfl)
    (funext fun a => by match a with | ⟨0, _⟩ => rfl)

end Cert.Bridge

end
-- ==== Proof.LibBatchedProduct.lean ====
/-
  A batched matrix product read at an index, at the ideal values.

  For a stack of `B` matrix pairs, `[B, M, K]` against `[B, K, N]` (the batch axis leading on both sides, the left
  operand contracted on its last axis and the right one on its middle axis), the entry `(b, p, q)` of the product is
  `∑ k, l (b, p, k) * r (b, k, q)`: a sum over the `K` positions of the one contracted axis. The library states the
  product's entry as a sum over the dimension record's own contraction index; here that index is traded for `Fin K` and
  the two operand indices are written out by coordinates, for a kernel's `tpu.matmul` into the zero accumulator and for
  the host's `dot_general` alike — so that the two read as the same sum.
-/
import Idealize.ShloMosaic.PureOps.Ideal.Laws
import Idealize.ShloMosaic.Lib.ValueIdx

noncomputable section

namespace Cert.Lib

open Idealize.ShloMosaic Idealize.ShloMosaic.ValueIdx

/-- The dimension numbers of the batched product `[B, M, K] · [B, K, N] → [B, M, N]`: batch axis 0 on both sides, the
    left operand contracted on axis 2, the right one on axis 1. -/
def batched3 (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable {B M K N : ℕ}
  (wf : DotDims.WF ⟨3, ![B, M, K]⟩ ⟨3, ![B, K, N]⟩ ⟨3, ![B, M, N]⟩ [2] [1] [1] [2] [0] [0])

/-- The product's sum over the record's contraction index is the sum over the `K` positions of the contracted axis, the
    left operand read along row `p` of matrix `b` and the right one down column `q` of matrix `b`. -/
theorem batched3_sum (l : (⟨3, ![B, M, K]⟩ : Shape).Idx → EReal) (r : (⟨3, ![B, K, N]⟩ : Shape).Idx → EReal)
    (b : Fin B) (p : Fin M) (q : Fin N) :
    (∑ k : (batched3 B M K N wf).contr.Idx,
        l ((batched3 B M K N wf).lhsIdx (ix3 b p q) k) * r ((batched3 B M K N wf).rhsIdx (ix3 b p q) k))
      = ∑ k : Fin K, l (ix3 b p k) * r (ix3 b k q) := by
  refine (Equiv.sum_comp (contrEquiv1 (batched3 B M K N wf) K rfl rfl).symm _).symm.trans ?_
  refine Finset.sum_congr rfl fun k _ => ?_
  have hl : (batched3 B M K N wf).lhsIdx (ix3 b p q) ((contrEquiv1 (batched3 B M K N wf) K rfl rfl).symm k) = ix3 b p k := by
    funext a
    refine Fin.ext ?_
    match a with
    | ⟨0, _⟩ => rfl
    | ⟨1, _⟩ => rfl
    | ⟨2, _⟩ =>
      exact ((batched3 B M K N wf).lhsIdx_val_of_single (cl := 2) rfl _ _).trans
        (contrEquiv1_symm_val (batched3 B M K N wf) K rfl rfl k)
  have hr : (batched3 B M K N wf).rhsIdx (ix3 b p q) ((contrEquiv1 (batched3 B M K N wf) K rfl rfl).symm k) = ix3 b k q := by
    funext a
    refine Fin.ext ?_
    match a with
    | ⟨0, _⟩ => rfl
    | ⟨1, _⟩ =>
      exact ((batched3 B M K N wf).rhsIdx_val_of_single (cr := 1) rfl _ _).trans
        (contrEquiv1_symm_val (batched3 B M K N wf) K rfl rfl k)
    | ⟨2, _⟩ => rfl
  rw [hl, hr]

/-- A kernel's batched `tpu.matmul` into the zero accumulator, read at `(b, p, q)`. -/
theorem batched3_matmul_zero_apply {φ₁ φ₂ : FTy} (prec : Option ContractPrecision)
    (l : FVec Ideal ⟨3, ![B, M, K]⟩ φ₁) (r : FVec Ideal ⟨3, ![B, K, N]⟩ φ₂) (b : Fin B) (p : Fin M) (q : Fin N) :
    FloatOps.matmul (batched3 B M K N wf) prec l r (constant ⟨3, ![B, M, N]⟩ .f32 0x00000000#32) (ix3 b p q)
      = ∑ k : Fin K, l (ix3 b p k) * r (ix3 b k q) :=
  (Ideal.matmul_constant_zero_apply (batched3 B M K N wf) prec l r (ix3 b p q)).trans (batched3_sum wf l r b p q)

/-- The host's batched `dot_general`, read at `(b, p, q)`: the same sum. -/
theorem batched3_dotGeneral_apply {φ₁ φ₂ : FTy} (prec : Option ContractPrecision) (sched : HostSchedule)
    (l : FVec Ideal ⟨3, ![B, M, K]⟩ φ₁) (r : FVec Ideal ⟨3, ![B, K, N]⟩ φ₂) (b : Fin B) (p : Fin M) (q : Fin N) :
    FloatOps.dotGeneral (batched3 B M K N wf) prec sched l r (ix3 b p q)
      = ∑ k : Fin K, l (ix3 b p k) * r (ix3 b k q) :=
  (Ideal.dotGeneral_apply (batched3 B M K N wf) prec sched l r (ix3 b p q)).trans (batched3_sum wf l r b p q)

end Cert.Lib

end
-- ==== Proof.KProducts.lean ====
/-
  The kernel's four products read at an index.

  Each of the four product stages of the kernel body is a matrix product into a zero accumulator, with shape casts
  around it that only re-read the same row-major positions, and format changes that are the identity on the extended
  reals. Read at one output position, each is a finite sum of products of operand entries (plus a bias entry for the
  two affine layers):
    the projection     (r, j)    ↦ Σ_c x(r, c) · w(c, j) + b(j),
    the first product  (r, k, h) ↦ Σ_v v(r, v·49 + k) · q(r, v·64 + h),
    the second product (r, k, v) ↦ Σ_h a(r, k, h) · q(r, h·256 + v),
    the output layer   (r, d)    ↦ Σ_j f(r, j) · w(j, d) + b(d).
  The flat positions v·49 + k, v·64 + h and h·256 + v are where the shape casts [64, 12544] → [64, 256, 49],
  [64, 16384] → [64, 256, 64] and [64, 16384] → [64, 64, 256] read their operand.
-/
import proofs.«141042_j66700842107138_2_alg».proof.Proof.KStages
import proofs.«141042_j66700842107138_2_alg».proof.Proof.LibAffineLayer
import proofs.«141042_j66700842107138_2_alg».proof.Proof.LibBatchedProduct
import Idealize.ShloMosaic.Lib.Pipeline.Value

noncomputable section

namespace Cert.Bridge

open Idealize.ShloMosaic Idealize.ShloMosaic.ValueIdx Cert.KernelIdeal Cert.KernelIdeal.Gen
open scoped BigOperators

/-- Flat position `v·49 + k` of a row of 256 × 49 entries. -/
def vi (v : Fin 256) (k : Fin 49) : Fin 12544 := ⟨v.val * 49 + k.val, by have := v.isLt; have := k.isLt; omega⟩
/-- Flat position `v·64 + h` of a row of 256 × 64 entries. -/
def q1i (v : Fin 256) (h : Fin 64) : Fin 16384 := ⟨v.val * 64 + h.val, by have := v.isLt; have := h.isLt; omega⟩
/-- Flat position `h·256 + v` of a row of 64 × 256 entries. -/
def q2i (h : Fin 64) (v : Fin 256) : Fin 16384 := ⟨h.val * 256 + v.val, by have := v.isLt; have := h.isLt; omega⟩

/-! ## The two affine layers -/

/-- The projection `x · W + b` at `(r, j)`. -/
theorem kAffQ_apply (x : FVec Ideal S64x256 .f32) (w : Vec Ideal S256x16384 .bf16) (b : Vec Ideal S16384 .f32) (r : Fin 64) (j : Fin 16384) :
    kAffQ x w b (ix2 r j) = (∑ c : Fin 256, x (ix2 r c) * w (ix2 c j)) + b (ix1 j) := by
  unfold kAffQ
  rw [shapeCast_self, shapeCast_self]
  exact Cert.Lib.affine_apply dot_S64x256_S256x16384_S64x16384_1_0_0_1_n_n.wf (truncf .bf16 x bitsLt_bf16_f32) w b _ _ r j

/-- The output layer `f · W + b` at `(r, d)`. -/
theorem kAffV_apply (f : FVec Ideal S64x12544 .bf16) (w : Vec Ideal S12544x256 .bf16) (b : Vec Ideal S256 .f32) (r : Fin 64) (d : Fin 256) :
    kAffV f w b (ix2 r d) = (∑ j : Fin 12544, f (ix2 r j) * w (ix2 j d)) + b (ix1 d) := by
  unfold kAffV
  rw [shapeCast_self]
  exact Cert.Lib.affine_apply dot_S64x12544_S12544x256_S64x256_1_0_0_1_n_n.wf f w b _ _ r d

/-! ## The second per-sample product -/

/-- The second product at `(r, k, v)`: the right operand is row `r` of `q` read as a 64 × 256 matrix. -/
theorem kT2_apply (a : FVec Ideal S64x49x64 .bf16) (q : FVec Ideal S64x16384 .f32) (r : Fin 64) (k : Fin 49) (v : Fin 256) :
    kT2 a q (ix3 r k v) = ∑ h : Fin 64, a (ix3 r k h) * q (ix2 r (q2i h v)) := by
  unfold kT2
  refine (Cert.Lib.batched3_matmul_zero_apply (B := 64) (M := 49) (K := 64) (N := 256)
    dot_S64x49x64_S64x64x256_S64x49x256_2_1_1_2_0_0.wf none a _ r k v).trans ?_
  refine Finset.sum_congr rfl fun h _ => ?_
  show a (ix3 r k h) * shapeCast S64x64x256 q shapeCasts_S64x16384_S64x64x256 (ix3 r h v) = _
  rw [shapeCast_apply q shapeCasts_S64x16384_S64x64x256 (ix3 r h v) (ix2 r (q2i h v))
    (by rw [Shape.rowMajor_val_two, Shape.rowMajor_val_three]
        show r.val * 16384 + (h.val * 256 + v.val) = (r.val * 64 + h.val) * 256 + v.val
        omega)]

/-! ## The first per-sample product

  Its dimension numbers contract axis 1 of both operands: `[B, K, M] · [B, K, N] → [B, M, N]`, batch axis 0. -/

/-- The dimension numbers of the batched product `[B, K, M] · [B, K, N] → [B, M, N]`: batch axis 0 on both sides,
    both operands contracted on their middle axis. -/
def batchedMid (B K M N : ℕ)
    (wf : DotDims.WF ⟨3, ![B, K, M]⟩ ⟨3, ![B, K, N]⟩ ⟨3, ![B, M, N]⟩ [1] [1] [2] [2] [0] [0]) :
    DotDims ⟨3, ![B, K, M]⟩ ⟨3, ![B, K, N]⟩ ⟨3, ![B, M, N]⟩ where
  lhsContracting := [1]
  rhsContracting := [1]
  lhsNonContracting := [2]
  rhsNonContracting := [2]
  lhsBatch := [0]
  rhsBatch := [0]
  wf := wf

section
variable {B K M N : ℕ}
  (wf : DotDims.WF ⟨3, ![B, K, M]⟩ ⟨3, ![B, K, N]⟩ ⟨3, ![B, M, N]⟩ [1] [1] [2] [2] [0] [0])

/-- The product's sum over the record's contraction index is the sum over the `K` positions of the contracted axis:
    the left operand read down column `p` of matrix `b`, the right one down column `q` of matrix `b`. -/
theorem batchedMid_sum (l : (⟨3, ![B, K, M]⟩ : Shape).Idx → EReal) (r : (⟨3, ![B, K, N]⟩ : Shape).Idx → EReal)
    (b : Fin B) (p : Fin M) (q : Fin N) :
    (∑ k : (batchedMid B K M N wf).contr.Idx,
        l ((batchedMid B K M N wf).lhsIdx (ix3 b p q) k) * r ((batchedMid B K M N wf).rhsIdx (ix3 b p q) k))
      = ∑ k : Fin K, l (ix3 b k p) * r (ix3 b k q) := by
  refine (Equiv.sum_comp (contrEquiv1 (batchedMid B K M N wf) K rfl rfl).symm _).symm.trans ?_
  refine Finset.sum_congr rfl fun k _ => ?_
  have hl : (batchedMid B K M N wf).lhsIdx (ix3 b p q) ((contrEquiv1 (batchedMid B K M N wf) K rfl rfl).symm k) = ix3 b k p := by
    funext a
    refine Fin.ext ?_
    match a with
    | ⟨0, _⟩ => rfl
    | ⟨1, _⟩ =>
      exact ((batchedMid B K M N wf).lhsIdx_val_of_single (cl := 1) rfl _ _).trans
        (contrEquiv1_symm_val (batchedMid B K M N wf) K rfl rfl k)
    | ⟨2, _⟩ => rfl
  have hr : (batchedMid B K M N wf).rhsIdx (ix3 b p q) ((contrEquiv1 (batchedMid B K M N wf) K rfl rfl).symm k) = ix3 b k q := by
    funext a
    refine Fin.ext ?_
    match a with
    | ⟨0, _⟩ => rfl
    | ⟨1, _⟩ =>
      exact ((batchedMid B K M N wf).rhsIdx_val_of_single (cr := 1) rfl _ _).trans
        (contrEquiv1_symm_val (batchedMid B K M N wf) K rfl rfl k)
    | ⟨2, _⟩ => rfl
  rw [hl, hr]

/-- That product into the zero accumulator, read at `(b, p, q)`. -/
theorem batchedMid_matmul_zero_apply {φ₁ φ₂ : FTy} (prec : Option ContractPrecision)
    (l : FVec Ideal ⟨3, ![B, K, M]⟩ φ₁) (r : FVec Ideal ⟨3, ![B, K, N]⟩ φ₂) (b : Fin B) (p : Fin M) (q : Fin N) :
    FloatOps.matmul (batchedMid B K M N wf) prec l r (constant ⟨3, ![B, M, N]⟩ .f32 0x00000000#32) (ix3 b p q)
      = ∑ k : Fin K, l (ix3 b k p) * r (ix3 b k q) :=
  (Ideal.matmul_constant_zero_apply (batchedMid B K M N wf) prec l r (ix3 b p q)).trans (batchedMid_sum wf l r b p q)

end

/-- The first product at `(r, k, h)`: the operands are row `r` of `v` read as a 256 × 49 matrix and row `r` of `q`
    read as a 256 × 64 matrix, contracted over their 256 rows. -/
theorem kT1_apply (q : FVec Ideal S64x16384 .f32) (v : Vec Ideal S64x12544 .f32) (r : Fin 64) (k : Fin 49) (h : Fin 64) :
    kT1 q v (ix3 r k h) = ∑ vv : Fin 256, v (ix2 r (vi vv k)) * q (ix2 r (q1i vv h)) := by
  unfold kT1
  rw [shapeCast_self]
  refine (batchedMid_matmul_zero_apply (B := 64) (K := 256) (M := 49) (N := 64)
    dot_S64x256x49_S64x256x64_S64x49x64_1_1_2_2_0_0.wf none _ _ r k h).trans ?_
  refine Finset.sum_congr rfl fun vv _ => ?_
  show shapeCast S64x256x49 v shapeCasts_S64x12544_S64x256x49 (ix3 r vv k)
      * shapeCast S64x256x64 q shapeCasts_S64x16384_S64x256x64 (ix3 r vv h) = _
  rw [shapeCast_apply v shapeCasts_S64x12544_S64x256x49 (ix3 r vv k) (ix2 r (vi vv k))
      (by rw [Shape.rowMajor_val_two, Shape.rowMajor_val_three]
          show r.val * 12544 + (vv.val * 49 + k.val) = (r.val * 256 + vv.val) * 49 + k.val
          omega),
    shapeCast_apply q shapeCasts_S64x16384_S64x256x64 (ix3 r vv h) (ix2 r (q1i vv h))
      (by rw [Shape.rowMajor_val_two, Shape.rowMajor_val_three]
          show r.val * 16384 + (vv.val * 64 + h.val) = (r.val * 256 + vv.val) * 64 + h.val
          omega)]

end Cert.Bridge

end
-- ==== Proof.KernelSpec.lean ====
/-
  One block of the kernel computes the specification's rows.

  The body's result at entry (r, d) of its 64 × 256 block, over ANY sixteen loaded blocks that relate to the
  argument arrays the way the windows' blocks do (the rows of `x` and of the flattened `v` being the rows
  `ρ r` of the batch, the weights transposed, the bias halves cut), is the specification's `out` at row `ρ r`.
  The proof walks the stages in order — the two projections, the two per-sample products, the layer norms and
  clips, the flattening, the output projection, the residual sum, the last layer norm — each stage read at an
  index as a sum or a layer norm of the previous stage's entries.
-/
import proofs.«141042_j66700842107138_2_alg».proof.Proof.KStages
import proofs.«141042_j66700842107138_2_alg».proof.Proof.Spec
import proofs.«141042_j66700842107138_2_alg».proof.Proof.KNorms
import proofs.«141042_j66700842107138_2_alg».proof.Proof.KProducts

noncomputable section

namespace Cert.Bridge

open Idealize.ShloMosaic Idealize.ShloMosaic.ValueIdx Cert.KernelIdeal Cert.KernelIdeal.Gen
open scoped BigOperators

/-- A flat position `v·49 + k` splits back into `v` and `k`. -/
theorem vi_div (v : Fin 256) (k : Fin 49) (h : (vi v k).val / 49 < 256) : (⟨(vi v k).val / 49, h⟩ : Fin 256) = v := by
  apply Fin.ext; show (v.val * 49 + k.val) / 49 = v.val; have := k.isLt; omega
theorem vi_mod (v : Fin 256) (k : Fin 49) (h : (vi v k).val % 49 < 49) : (⟨(vi v k).val % 49, h⟩ : Fin 49) = k := by
  apply Fin.ext; show (v.val * 49 + k.val) % 49 = k.val; have := k.isLt; omega

theorem block_eq (ρ : Fin 64 → Fin 2048)
    (P0 : Vec Ideal S64x256 .f32) (P1 : Vec Ideal S256x16384 .bf16) (P2 : Vec Ideal S16384 .f32) (P3 : Vec Ideal S64x12544 .f32)
    (P4 P5 : Vec Ideal S64 .f32) (P6 : Vec Ideal S256x16384 .bf16) (P7 : Vec Ideal S16384 .f32) (P8 P9 : Vec Ideal S256 .f32)
    (P10 : Vec Ideal S12544x256 .bf16) (P11 P12 P13 P14 P15 : Vec Ideal S256 .f32)
    (x0 : Spec.A2 2048 256) (x1 : Spec.A3 2048 256 49) (x2 : Spec.A2 32768 256) (x3 : Spec.A1 32768)
    (x4 x5 : Spec.A1 64) (x6 x7 : Spec.A1 256) (x8 : Spec.A2 256 12544) (x9 x10 x11 x12 x13 : Spec.A1 256)
    (h0 : ∀ (r : Fin 64) (d : Fin 256), P0 (ix2 r d) = x0 (ix2 (ρ r) d))
    (h1 : ∀ (c : Fin 256) (j : Fin 16384), P1 (ix2 c j) = x2 (ix2 (⟨j.val, by have := j.isLt; omega⟩ : Fin 32768) c))
    (h2 : ∀ j : Fin 16384, P2 (ix1 j) = x3 (ix1 (⟨j.val, by have := j.isLt; omega⟩ : Fin 32768)))
    (h3 : ∀ (r : Fin 64) (j : Fin 12544), P3 (ix2 r j)
        = x1 (ix3 (ρ r) (⟨j.val / 49, by have := j.isLt; omega⟩ : Fin 256) (⟨j.val % 49, Nat.mod_lt _ (by decide)⟩ : Fin 49)))
    (h4 : P4 = x4) (h5 : P5 = x5)
    (h6 : ∀ (c : Fin 256) (j : Fin 16384), P6 (ix2 c j) = x2 (ix2 (⟨j.val + 16384, by have := j.isLt; omega⟩ : Fin 32768) c))
    (h7 : ∀ j : Fin 16384, P7 (ix1 j) = x3 (ix1 (⟨j.val + 16384, by have := j.isLt; omega⟩ : Fin 32768)))
    (h8 : P8 = x6) (h9 : P9 = x7)
    (h10 : ∀ (j : Fin 12544) (d : Fin 256), P10 (ix2 j d) = x8 (ix2 d j))
    (h11 : P11 = x9) (h12 : P12 = x10) (h13 : P13 = x11) (h14 : P14 = x12) (h15 : P15 = x13)
    (r : Fin 64) (d : Fin 256) :
    Cert.KernelIdeal.Value.E16 (F := Ideal) P0 P1 P2 P3 P4 P5 P6 P7 P8 P9 P10 P11 P12 P13 P14 P15 (ix2 r d)
      = Spec.out x0 x1 x2 x3 x4 x5 x6 x7 x8 x9 x10 x11 x12 x13 (ρ r) d := by
  subst h4 h5 h8 h9 h11 h12 h13 h14 h15
  -- the two halves of the first projection
  have hq1 : ∀ (r : Fin 64) (j : Fin 16384), kAffQ P0 P1 P2 (ix2 r j)
      = Spec.q x0 x2 x3 (ρ r) (⟨j.val, by have := j.isLt; omega⟩ : Fin 32768) := by
    intro r j
    rw [kAffQ_apply]
    unfold Spec.q
    simp only [h0, h1, h2]
  have hq2 : ∀ (r : Fin 64) (j : Fin 16384), kAffQ P0 P6 P7 (ix2 r j)
      = Spec.q x0 x2 x3 (ρ r) (⟨j.val + 16384, by have := j.isLt; omega⟩ : Fin 32768) := by
    intro r j
    rw [kAffQ_apply]
    unfold Spec.q
    simp only [h0, h6, h7]
  -- the first per-sample product
  have ht1 : ∀ (r : Fin 64) (k : Fin 49) (h : Fin 64), kT1 (kAffQ P0 P1 P2) P3 (ix3 r k h)
      = Spec.t1 x0 x1 x2 x3 (ρ r) k h := by
    intro r k h
    rw [kT1_apply]
    unfold Spec.t1
    refine Finset.sum_congr rfl (fun v _ => ?_)
    rw [h3, hq1, vi_div, vi_mod]
    rfl
  -- normed and clipped
  have ha1 : ∀ (r : Fin 64) (k : Fin 49) (h : Fin 64), kClip0 (kLN0 (kT1 (kAffQ P0 P1 P2) P3) P4 P5) (ix3 r k h)
      = Spec.a1 x0 x1 x2 x3 P4 P5 (ρ r) k h := by
    intro r k h
    rw [kClip0_apply, kLN0_apply]
    unfold Spec.a1
    simp only [ht1]
  -- the second per-sample product
  have ht2 : ∀ (r : Fin 64) (k : Fin 49) (v : Fin 256),
      kT2 (kClip0 (kLN0 (kT1 (kAffQ P0 P1 P2) P3) P4 P5)) (kAffQ P0 P6 P7) (ix3 r k v)
      = Spec.t2 x0 x1 x2 x3 P4 P5 (ρ r) k v := by
    intro r k v
    rw [kT2_apply]
    unfold Spec.t2
    refine Finset.sum_congr rfl (fun h _ => ?_)
    rw [ha1, hq2]
    rfl
  -- normed, clipped and flattened
  have hfl : ∀ (r : Fin 64) (j : Fin 12544),
      kClipFlat (kLN1 (kT2 (kClip0 (kLN0 (kT1 (kAffQ P0 P1 P2) P3) P4 P5)) (kAffQ P0 P6 P7)) P8 P9) (ix2 r j)
      = Spec.a2 x0 x1 x2 x3 P4 P5 P8 P9 (ρ r) (Spec.fk j) (Spec.fv j) := by
    intro r j
    rw [kClipFlat_apply, kLN1_apply]
    unfold Spec.a2
    simp only [ht2]
  -- the output projection
  have hw : ∀ (r : Fin 64) (d : Fin 256),
      kAffV (kClipFlat (kLN1 (kT2 (kClip0 (kLN0 (kT1 (kAffQ P0 P1 P2) P3) P4 P5)) (kAffQ P0 P6 P7)) P8 P9)) P10 P11 (ix2 r d)
      = Spec.w x0 x1 x2 x3 P4 P5 P8 P9 x8 P11 (ρ r) d := by
    intro r d
    rw [kAffV_apply]
    unfold Spec.w
    simp only [hfl, h10]
  -- the residual sum
  have hy : ∀ (r : Fin 64) (d : Fin 256),
      kRes P0 (kLN2 (kAffV (kClipFlat (kLN1 (kT2 (kClip0 (kLN0 (kT1 (kAffQ P0 P1 P2) P3) P4 P5)) (kAffQ P0 P6 P7)) P8 P9)) P10 P11) P12 P13) (ix2 r d)
      = Spec.y x0 x1 x2 x3 P4 P5 P8 P9 x8 P11 P12 P13 (ρ r) d := by
    intro r d
    rw [kRes_apply, kLN2_apply]
    unfold Spec.y
    simp only [hw, h0]
  -- the last layer norm
  rw [E16_apply, pay3_eq, pay4_eq, pay5_eq]
  unfold Spec.out
  simp only [hy]

end Cert.Bridge

end
-- ==== Proof.KernelArray.lean ====
/-
  The kernel's output array after the run is the specification of the argument arrays.

  At grid point `t` the body writes back the block of rows `64·t … 64·t + 63`; entry (r, d) of it is the
  specification's `out` at row `64·t + r` (the block theorem, over the blocks the windows hold at `t`). The 32 blocks
  tile the 2048 rows, so the array ends as the specification everywhere; the arguments are unchanged.
-/
import proofs.«141042_j66700842107138_2_alg».proof.Proof.BlockReads
import proofs.«141042_j66700842107138_2_alg».proof.Proof.KernelCover
import proofs.«141042_j66700842107138_2_alg».proof.Proof.KernelSpec

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification of this memory's argument arrays. -/
abbrev Gm (c : Dev nD) : S2048x256.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of the specification. -/
theorem flushed_eq (c : Dev nD) (t : Fin cfg0.N) :
    (dats m 0 c).flushed 16 t = ((cfg0.win 16).blk t).view.read (Elt Ideal) (Gm m c) := by
  rw [Cert.KernelIdeal.Value.flushed16]
  unfold out0_16
  funext y
  obtain ⟨r, d, rfl⟩ : ∃ (r : Fin 64) (d : Fin 256), y = ix2 r d := ⟨y 0, y 1, eq_ix2 y⟩
  refine (Cert.KernelIdeal.Value.canon16_eq (F := Ideal) (View.ld (iblk m c 0 t) r0_0) (View.ld (iblk m c 2 t) r0_1) (View.ld (iblk m c 4 t) r0_2) (View.ld (iblk m c 1 t) r0_3) (View.ld (iblk m c 6 t) r0_4) (View.ld (iblk m c 7 t) r0_4) (View.ld (iblk m c 3 t) r0_1) (View.ld (iblk m c 5 t) r0_2) (View.ld (iblk m c 8 t) r0_5) (View.ld (iblk m c 9 t) r0_5) (View.ld (iblk m c 10 t) r0_6) (View.ld (iblk m c 11 t) r0_5) (View.ld (iblk m c 12 t) r0_5) (View.ld (iblk m c 13 t) r0_5) (View.ld (iblk m c 14 t) r0_5) (View.ld (iblk m c 15 t) r0_5) (ix2 r d)).trans ?_
  show _ = Gm m c (((cfg0.win 16).blk t).view.emb (ix2 r d))
  rw [Cert.KernelIdeal.Cover.emb16]
  have l0 : (View.ld (iblk m c 0 t) r0_0) = iblk m c 0 t := View.ld_unit_zero hz2 _ _
  have l1 : (View.ld (iblk m c 1 t) r0_3) = iblk m c 1 t := View.ld_unit_zero hz2 _ _
  have l2 : (View.ld (iblk m c 2 t) r0_1) = iblk m c 2 t := View.ld_unit_zero hz2 _ _
  have l3 : (View.ld (iblk m c 3 t) r0_1) = iblk m c 3 t := View.ld_unit_zero hz2 _ _
  have l4 : (View.ld (iblk m c 4 t) r0_2) = iblk m c 4 t := View.ld_unit_zero hz1 _ _
  have l5 : (View.ld (iblk m c 5 t) r0_2) = iblk m c 5 t := View.ld_unit_zero hz1 _ _
  have l6 : (View.ld (iblk m c 6 t) r0_4) = iblk m c 6 t := View.ld_unit_zero hz1 _ _
  have l7 : (View.ld (iblk m c 7 t) r0_4) = iblk m c 7 t := View.ld_unit_zero hz1 _ _
  have l8 : (View.ld (iblk m c 8 t) r0_5) = iblk m c 8 t := View.ld_unit_zero hz1 _ _
  have l9 : (View.ld (iblk m c 9 t) r0_5) = iblk m c 9 t := View.ld_unit_zero hz1 _ _
  have l10 : (View.ld (iblk m c 10 t) r0_6) = iblk m c 10 t := View.ld_unit_zero hz2 _ _
  have l11 : (View.ld (iblk m c 11 t) r0_5) = iblk m c 11 t := View.ld_unit_zero hz1 _ _
  have l12 : (View.ld (iblk m c 12 t) r0_5) = iblk m c 12 t := View.ld_unit_zero hz1 _ _
  have l13 : (View.ld (iblk m c 13 t) r0_5) = iblk m c 13 t := View.ld_unit_zero hz1 _ _
  have l14 : (View.ld (iblk m c 14 t) r0_5) = iblk m c 14 t := View.ld_unit_zero hz1 _ _
  have l15 : (View.ld (iblk m c 15 t) r0_5) = iblk m c 15 t := View.ld_unit_zero hz1 _ _
  rw [l0, l1, l2, l3, l4, l5, l6, l7, l8, l9, l10, l11, l12, l13, l14, l15]
  exact Cert.Bridge.block_eq (Cert.KernelIdeal.Blocks.rowOf t) (iblk m c 0 t) (iblk m c 2 t) (iblk m c 4 t) (iblk m c 1 t) (iblk m c 6 t) (iblk m c 7 t) (iblk m c 3 t) (iblk m c 5 t) (iblk m c 8 t) (iblk m c 9 t) (iblk m c 10 t) (iblk m c 11 t) (iblk m c 12 t) (iblk m c 13 t) (iblk m c 14 t) (iblk m c 15 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (fun r d => Blocks.blk0 m c t r d) (fun c' j => Blocks.blk2 m c t c' j) (fun j => Blocks.blk4 m c t j)
    (fun r j => Blocks.blk1 m c t r j) (Blocks.blk6 m c t) (Blocks.blk7 m c t)
    (fun c' j => Blocks.blk3 m c t c' j) (fun j => Blocks.blk5 m c t j) (Blocks.blk8 m c t) (Blocks.blk9 m c t)
    (fun j d => Blocks.blk10 m c t j d) (Blocks.blk11 m c t) (Blocks.blk12 m c t) (Blocks.blk13 m c t)
    (Blocks.blk14 m c t) (Blocks.blk15 m c t) r d

/-- The array after the run. -/
theorem final16 (c : Dev nD) : (dats m 0 c).arrAt 16 cfg0.N = Gm m c :=
  (dats m 0 c).arrAt_eq_of_cover 16 (Gm m c) (fun t _ => flushed_eq m c t) Cert.KernelIdeal.Cover.cover16

/-- The run: the result is the specification of the arguments, the arguments unchanged. -/
theorem run : θ_run defs (onTc (τ := τ) (main (F := Ideal))) ⟨m, fun _ => 0, ρ⟩ fun r => ∀ c : Dev nD,
      r.2.mem ((c : Thread nD τ).loc main_v11) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final16 m c), (h c).2⟩)
    (Cert.KernelIdeal.Value.run_blocks m ρ)

end Cert.KernelIdeal.ArrayValue

end
-- ==== Proof.lean ====
/-
  The kernel — a two-stage dynamic convolution block with four layer norms, run 64 batch rows per grid point with
  bf16 matrix products — and its reference compute the same function on the extended reals.

  Both sides are proved equal to ONE row-wise specification (Proof/Spec.lean):
    q = x · Wqᵀ + bq;  t1[k,h] = Σ_v v[v,k] · q[v·64+h], layer-normed over h and clipped at zero;
    t2[k,v] = Σ_h a1[k,h] · q[16384 + h·256 + v], layer-normed over v and clipped at zero;
    w = a2 (flattened) · Wvᵀ + bv, layer-normed and clipped;  out = layer norm of x + that.
  The reference is the specification operation by operation (Proof/RefSpec*.lean, over the read-at-an-index lemmas of
  its printed program). The kernel's body, over the blocks its windows hold at a grid point, computes rows
  64·t … 64·t+63 of it (Proof/KernelSpec.lean over Proof/KProducts.lean and Proof/KNorms.lean), and the 32 blocks tile
  the array (Proof/KernelArray.lean). The products agree because a format change is the identity here and a product
  into a zero accumulator is the plain sum. The ONE place the two programs differ is the layer norm: the kernel
  multiplies by the reciprocal square root of (variance + ε), the reference divides by the square root. On the extended
  reals `a · rsqrt y = a / sqrt y` holds exactly for `y > 0` (they differ at `y = 0` and below), and the variance is a
  sum of squares over a positive divisor, hence nonnegative, and ε is a positive real: so `y > 0` always, and the
  inputs' finiteness is never used. The ideal pass rewrote nothing, so `preserves` is trivial; the kernel's two frames
  are the generated ones, and the reference's is its run (Proof/RefRunStaged.lean: the host operations taken a stage
  at a time, each stage's buffer ending at that stage's value of the arguments) with the result dropped.
-/
import proofs.«141042_j66700842107138_2_alg».proof.Defs
import proofs.«141042_j66700842107138_2_alg».proof.Proof.Gen.Kernel
import proofs.«141042_j66700842107138_2_alg».proof.Proof.Gen.Kernel.Skeleton
import proofs.«141042_j66700842107138_2_alg».proof.Proof.Gen.Kernel.Launch
import proofs.«141042_j66700842107138_2_alg».proof.Proof.Gen.Kernel.Points
import proofs.«141042_j66700842107138_2_alg».proof.Proof.Gen.Kernel.Frame
import proofs.«141042_j66700842107138_2_alg».proof.Proof.Gen.KernelIdeal
import proofs.«141042_j66700842107138_2_alg».proof.Proof.Gen.KernelIdeal.Skeleton
import proofs.«141042_j66700842107138_2_alg».proof.Proof.Gen.KernelIdeal.Launch
import proofs.«141042_j66700842107138_2_alg».proof.Proof.Gen.KernelIdeal.Points
import proofs.«141042_j66700842107138_2_alg».proof.Proof.Gen.KernelIdeal.Frame
import proofs.«141042_j66700842107138_2_alg».proof.Proof.Gen.KernelIdeal.Value
import proofs.«141042_j66700842107138_2_alg».proof.Proof.Gen.ReferenceIdeal
import proofs.«141042_j66700842107138_2_alg».proof.Proof.Gen.Pre_finite_inputs
import proofs.«141042_j66700842107138_2_alg».proof.Proof.RefRunStaged
import proofs.«141042_j66700842107138_2_alg».proof.Proof.RefReadPatched
import proofs.«141042_j66700842107138_2_alg».proof.Proof.RefSpec
import proofs.«141042_j66700842107138_2_alg».proof.Proof.KernelArray
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- The ideal pass rewrote no operation. -/
theorem preserves : Cert.preserves_Kernel_KernelIdeal := trivial

/-- Both runs end at the specification of the (agreeing) argument arrays. -/
theorem algebraic : Cert.algebraic_KernelIdeal_ReferenceIdeal := by
  intro m ρ m' ρ' _ hagree
  refine ⟨fun c => Cert.KernelIdeal.ArrayValue.Gm m c, Cert.KernelIdeal.ArrayValue.run m ρ, ?_⟩
  refine (θ_run Cert.ReferenceIdeal.defs _ _).mono (fun _ h c => ⟨(h c).1.trans ?_, (h c).2⟩)
    (Cert.RefRun.run m' ρ')
  rw [Cert.RefSpec.ref_eq]
  obtain ⟨e0, e1, e2, e3, e4, e5, e6, e7, e8, e9, e10, e11, e12, e13⟩ := hagree c
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
